-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v206)) (v1 : (c : Dev Cert.KernelIdeal.nD) → Buf (Elt Ideal) ((c.tc : Thread Cert.KernelIdeal.nD Cert.KernelIdeal.τ).loc Cert.KernelIdeal.main_v202)) (v2 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_v202) = v1 c
          ∧ r.2.mem ((c.tc : Thread Cert.KernelIdeal.nD Cert.KernelIdeal.τ).loc Cert.KernelIdeal.main_v207) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x300 : Shape := ⟨2, ![8192, 300]⟩
abbrev S2x262144 : Shape := ⟨2, ![2, 262144]⟩
abbrev S67108864 : Shape := ⟨1, ![67108864]⟩
abbrev S8192x8192 : Shape := ⟨2, ![8192, 8192]⟩
abbrev S600x64 : Shape := ⟨2, ![600, 64]⟩
abbrev S64 : Shape := ⟨1, ![64]⟩
abbrev S192x64 : Shape := ⟨2, ![192, 64]⟩
abbrev S_ : Shape := ⟨0, ![]⟩

class Facts : Prop where
  bcast_S_S8192x300 : S_.BroadcastsInDim S8192x300 (![] : Fin 0 → Fin S8192x300.rank)
  reducesTo_S8192x300_S_d0_1 : S8192x300.ReducesTo [0, 1] S_
  h_S_ : 0 < S_.numel
  bcast_S_S67108864 : S_.BroadcastsInDim S67108864 (![] : Fin 0 → Fin S67108864.rank)
  reducesTo_S67108864_S_d0 : S67108864.ReducesTo [0] S_
  bcast_S_S8192x8192 : S_.BroadcastsInDim S8192x8192 (![] : Fin 0 → Fin S8192x8192.rank)
  reducesTo_S8192x8192_S_d0_1 : S8192x8192.ReducesTo [0, 1] S_
  bcast_S_S600x64 : S_.BroadcastsInDim S600x64 (![] : Fin 0 → Fin S600x64.rank)
  reducesTo_S600x64_S_d0_1 : S600x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S192x64 .f32) (main_arg10 : FVec F S64 .f32) (main_arg11 : FVec F S192x64 .f32) (main_arg12 : FVec F S64 .f32) (main_v33 : IVec S_ 1) : IVec S_ 1 :=
  let main_v34 : FVec F S192x64 .f32 := Host.absf main_arg9
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x64 .f32 := Host.absf main_arg11
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S600x64 .f32) (main_arg8 : FVec F S64 .f32) (main_arg9 : FVec F S192x64 .f32) (main_arg10 : FVec F S64 .f32) (main_arg11 : FVec F S192x64 .f32) (main_arg12 : FVec F S64 .f32) (main_v13 : IVec S_ 1) (main_v16 : IVec S600x64 1) : IVec S_ 1 :=
  let main_c_5 : IVec S_ 1 := constantI S_ 1 1#1
  let main_v17 : IVec S_ 1 := (fun x v => Host.reduce IntOp.andi x v reducesTo_S600x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S600x64 .f32 := Host.absf main_arg7
  let main_cst_8 : FVec F S_ .f32 := constant S_ .f32 0x7F800000#32
  let main_v25 : FVec F S600x64 .f32 := broadcastInDim S600x64 ![] bcast_S_S600x64 main_cst_8
  let main_v26 : IVec S600x64 1 := cmpf .olt main_v24 main_v25
  let main_c_9 : IVec S_ 1 := constantI S_ 1 1#1
  let main_v27 : IVec S_ 1 := (fun x v => Host.reduce IntOp.andi x v reducesTo_S600x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S8192x300 .f32) (main_arg1 : IVec S2x262144 32) (main_arg2 : IVec S2x262144 32) (main_arg3 : FVec F S67108864 .f32) (main_arg4 : FVec F S8192x8192 .f32) (main_arg5 : FVec F S600x64 .f32) (main_arg6 : FVec F S64 .f32) (main_arg7 : FVec F S600x64 .f32) (main_arg8 : FVec F S64 .f32) (main_arg9 : FVec F S192x64 .f32) (main_arg10 : FVec F S64 .f32) (main_arg11 : FVec F S192x64 .f32) (main_arg12 : FVec F S64 .f32) : IVec S_ 1 :=
  let main_v0 : FVec F S8192x300 .f32 := Host.absf main_arg0
  let main_cst : FVec F S_ .f32 := constant S_ .f32 0x7F800000#32
  let main_v1 : FVec F S8192x300 .f32 := broadcastInDim S8192x300 ![] bcast_S_S8192x300 main_cst
  let main_v2 : IVec S8192x300 1 := cmpf .olt main_v0 main_v1
  let main_c : IVec S_ 1 := constantI S_ 1 1#1
  let main_v3 : IVec S_ 1 := (fun x v => Host.reduce IntOp.andi x v reducesTo_S8192x300_S_d0_1 h_S_) main_v2 main_c
  let main_v4 : FVec F S67108864 .f32 := Host.absf main_arg3
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  let main_v9 : FVec F S8192x8192 .f32 := Host.absf main_arg4
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S600x64 .f32 := Host.absf main_arg5
  let main_cst_4 : FVec F S_ .f32 := constant S_ .f32 0x7F800000#32
  let main_v15 : FVec F S600x64 .f32 := broadcastInDim S600x64 ![] bcast_S_S600x64 main_cst_4
  let main_v16 : IVec S600x64 1 := cmpf .olt main_v14 main_v15
  fn_part1 (F := F) main_arg6 main_arg7 main_arg8 main_arg9 main_arg10 main_arg11 main_arg12 main_v13 main_v16
-- ==== Kernel.lean ====
abbrev S8192x300 : Shape := ⟨2, ![8192, 300]⟩
abbrev S2x262144 : Shape := ⟨2, ![2, 262144]⟩
abbrev S67108864 : Shape := ⟨1, ![67108864]⟩
abbrev S8192x8192 : Shape := ⟨2, ![8192, 8192]⟩
abbrev S600x64 : Shape := ⟨2, ![600, 64]⟩
abbrev S64 : Shape := ⟨1, ![64]⟩
abbrev S192x64 : Shape := ⟨2, ![192, 64]⟩
abbrev S300x64 : Shape := ⟨2, ![300, 64]⟩
abbrev S8192x64 : Shape := ⟨2, ![8192, 64]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x64 : Shape := ⟨2, ![262144, 64]⟩
abbrev S8192x1 : Shape := ⟨2, ![8192, 1]⟩
abbrev S1x64 : Shape := ⟨2, ![1, 64]⟩
abbrev S8192 : Shape := ⟨1, ![8192]⟩
abbrev S8192x192 : Shape := ⟨2, ![8192, 192]⟩
abbrev S8192x128 : Shape := ⟨2, ![8192, 128]⟩
abbrev S1024x128 : Shape := ⟨2, ![1024, 128]⟩
abbrev S1024x512 : Shape := ⟨2, ![1024, 512]⟩
abbrev S1024x1 : Shape := ⟨2, ![1024, 1]⟩
abbrev S512x128 : Shape := ⟨2, ![512, 128]⟩
abbrev S1024 : Shape := ⟨1, ![1024]⟩

abbrev nBuf : Space → Nat
  | .hbm => 270
  | .vmem => 12
  | .smem => 0
  | _ => 0

abbrev hbmTy0_0 (i : Nat) : BufTy := match i % 128 with
  | 0 => ⟨S8192x300, .f32⟩
  | 1 => ⟨S2x262144, .i32⟩
  | 2 => ⟨S2x262144, .i32⟩
  | 3 => ⟨S67108864, .f32⟩
  | 4 => ⟨S8192x8192, .f32⟩
  | 5 => ⟨S600x64, .f32⟩
  | 6 => ⟨S64, .f32⟩
  | 7 => ⟨S600x64, .f32⟩
  | 8 => ⟨S64, .f32⟩
  | 9 => ⟨S192x64, .f32⟩
  | 10 => ⟨S64, .f32⟩
  | 11 => ⟨S192x64, .f32⟩
  | 12 => ⟨S64, .f32⟩
  | 13 => ⟨S300x64, .f32⟩
  | 14 => ⟨S300x64, .f32⟩
  | 15 => ⟨S8192x64, .f32⟩
  | 16 => ⟨S1x262144, .i32⟩
  | 17 => ⟨S262144, .i32⟩
  | 18 => ⟨S1x262144, .i32⟩
  | 19 => ⟨S262144, .i32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S262144x64, .f32⟩
  | 29 => ⟨S_, .f32⟩
  | 30 => ⟨S8192x64, .f32⟩
  | 31 => ⟨S262144x1, .i32⟩
  | 32 => ⟨S8192x64, .f32⟩
  | 33 => ⟨S_, .f32⟩
  | 34 => ⟨S262144x1, .f32⟩
  | 35 => ⟨S_, .f32⟩
  | 36 => ⟨S8192x1, .f32⟩
  | 37 => ⟨S262144x1, .i32⟩
  | 38 => ⟨S8192x1, .f32⟩
  | 39 => ⟨S_, .f32⟩
  | 40 => ⟨S8192x1, .f32⟩
  | 41 => ⟨S8192x1, .f32⟩
  | 42 => ⟨S8192x64, .f32⟩
  | 43 => ⟨S8192x64, .f32⟩
  | 44 => ⟨S8192x64, .f32⟩
  | 45 => ⟨S8192x64, .f32⟩
  | 46 => ⟨S1x64, .f32⟩
  | 47 => ⟨S8192x64, .f32⟩
  | 48 => ⟨S8192x64, .f32⟩
  | 49 => ⟨S8192x64, .f32⟩
  | 50 => ⟨S_, .f32⟩
  | 51 => ⟨S8192, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x64, .f32⟩
  | 58 => ⟨S8192x64, .f32⟩
  | 59 => ⟨S8192x64, .f32⟩
  | 60 => ⟨S300x64, .f32⟩
  | 61 => ⟨S300x64, .f32⟩
  | 62 => ⟨S8192x64, .f32⟩
  | 63 => ⟨S1x262144, .i32⟩
  | 64 => ⟨S262144, .i32⟩
  | 65 => ⟨S1x262144, .i32⟩
  | 66 => ⟨S262144, .i32⟩
  | 67 => ⟨S_, .i32⟩
  | 68 => ⟨S262144, .i32⟩
  | 69 => ⟨S262144, .i1⟩
  | 70 => ⟨S_, .i32⟩
  | 71 => ⟨S262144, .i32⟩
  | 72 => ⟨S262144, .i32⟩
  | 73 => ⟨S262144, .i32⟩
  | 74 => ⟨S262144x1, .i32⟩
  | 75 => ⟨S262144x64, .f32⟩
  | 76 => ⟨S_, .f32⟩
  | 77 => ⟨S8192x64, .f32⟩
  | 78 => ⟨S262144x1, .i32⟩
  | 79 => ⟨S8192x64, .f32⟩
  | 80 => ⟨S_, .f32⟩
  | 81 => ⟨S262144x1, .f32⟩
  | 82 => ⟨S_, .f32⟩
  | 83 => ⟨S8192x1, .f32⟩
  | 84 => ⟨S262144x1, .i32⟩
  | 85 => ⟨S8192x1, .f32⟩
  | 86 => ⟨S_, .f32⟩
  | 87 => ⟨S8192x1, .f32⟩
  | 88 => ⟨S8192x1, .f32⟩
  | 89 => ⟨S8192x64, .f32⟩
  | 90 => ⟨S8192x64, .f32⟩
  | 91 => ⟨S8192x64, .f32⟩
  | 92 => ⟨S8192x64, .f32⟩
  | 93 => ⟨S1x64, .f32⟩
  | 94 => ⟨S8192x64, .f32⟩
  | 95 => ⟨S8192x64, .f32⟩
  | 96 => ⟨S8192x64, .f32⟩
  | 97 => ⟨S_, .f32⟩
  | 98 => ⟨S8192, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x64, .f32⟩
  | 105 => ⟨S8192x64, .f32⟩
  | 106 => ⟨S8192x64, .f32⟩
  | 107 => ⟨S1x262144, .i32⟩
  | 108 => ⟨S262144, .i32⟩
  | 109 => ⟨S1x262144, .i32⟩
  | 110 => ⟨S262144, .i32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x64, .f32⟩
  | 120 => ⟨S_, .f32⟩
  | 121 => ⟨S8192x64, .f32⟩
  | 122 => ⟨S262144x1, .i32⟩
  | 123 => ⟨S8192x64, .f32⟩
  | 124 => ⟨S_, .f32⟩
  | 125 => ⟨S262144x1, .f32⟩
  | 126 => ⟨S_, .f32⟩
  | 127 => ⟨S8192x1, .f32⟩
  | _ => ⟨S8192x300, .f32⟩

abbrev hbmTy0_1 (i : Nat) : BufTy := match i % 128 with
  | 0 => ⟨S262144x1, .i32⟩
  | 1 => ⟨S8192x1, .f32⟩
  | 2 => ⟨S_, .f32⟩
  | 3 => ⟨S8192x1, .f32⟩
  | 4 => ⟨S8192x1, .f32⟩
  | 5 => ⟨S8192x64, .f32⟩
  | 6 => ⟨S8192x64, .f32⟩
  | 7 => ⟨S1x262144, .i32⟩
  | 8 => ⟨S262144, .i32⟩
  | 9 => ⟨S1x262144, .i32⟩
  | 10 => ⟨S262144, .i32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x64, .f32⟩
  | 20 => ⟨S_, .f32⟩
  | 21 => ⟨S8192x64, .f32⟩
  | 22 => ⟨S262144x1, .i32⟩
  | 23 => ⟨S8192x64, .f32⟩
  | 24 => ⟨S_, .f32⟩
  | 25 => ⟨S262144x1, .f32⟩
  | 26 => ⟨S_, .f32⟩
  | 27 => ⟨S8192x1, .f32⟩
  | 28 => ⟨S262144x1, .i32⟩
  | 29 => ⟨S8192x1, .f32⟩
  | 30 => ⟨S_, .f32⟩
  | 31 => ⟨S8192x1, .f32⟩
  | 32 => ⟨S8192x1, .f32⟩
  | 33 => ⟨S8192x64, .f32⟩
  | 34 => ⟨S8192x64, .f32⟩
  | 35 => ⟨S8192x192, .f32⟩
  | 36 => ⟨S8192x64, .f32⟩
  | 37 => ⟨S1x64, .f32⟩
  | 38 => ⟨S8192x64, .f32⟩
  | 39 => ⟨S8192x64, .f32⟩
  | 40 => ⟨S8192x64, .f32⟩
  | 41 => ⟨S_, .f32⟩
  | 42 => ⟨S8192, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x64, .f32⟩
  | 49 => ⟨S8192x64, .f32⟩
  | 50 => ⟨S8192x64, .f32⟩
  | 51 => ⟨S1x262144, .i32⟩
  | 52 => ⟨S262144, .i32⟩
  | 53 => ⟨S1x262144, .i32⟩
  | 54 => ⟨S262144, .i32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S262144x64, .f32⟩
  | 64 => ⟨S_, .f32⟩
  | 65 => ⟨S8192x64, .f32⟩
  | 66 => ⟨S262144x1, .i32⟩
  | 67 => ⟨S8192x64, .f32⟩
  | 68 => ⟨S_, .f32⟩
  | 69 => ⟨S262144x1, .f32⟩
  | 70 => ⟨S_, .f32⟩
  | 71 => ⟨S8192x1, .f32⟩
  | 72 => ⟨S262144x1, .i32⟩
  | 73 => ⟨S8192x1, .f32⟩
  | 74 => ⟨S_, .f32⟩
  | 75 => ⟨S8192x1, .f32⟩
  | 76 => ⟨S8192x1, .f32⟩
  | 77 => ⟨S8192x64, .f32⟩
  | 78 => ⟨S8192x64, .f32⟩
  | 79 => ⟨S1x262144, .i32⟩
  | 80 => ⟨S262144, .i32⟩
  | 81 => ⟨S1x262144, .i32⟩
  | 82 => ⟨S262144, .i32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S262144x64, .f32⟩
  | 92 => ⟨S_, .f32⟩
  | 93 => ⟨S8192x64, .f32⟩
  | 94 => ⟨S262144x1, .i32⟩
  | 95 => ⟨S8192x64, .f32⟩
  | 96 => ⟨S_, .f32⟩
  | 97 => ⟨S262144x1, .f32⟩
  | 98 => ⟨S_, .f32⟩
  | 99 => ⟨S8192x1, .f32⟩
  | 100 => ⟨S262144x1, .i32⟩
  | 101 => ⟨S8192x1, .f32⟩
  | 102 => ⟨S_, .f32⟩
  | 103 => ⟨S8192x1, .f32⟩
  | 104 => ⟨S8192x1, .f32⟩
  | 105 => ⟨S8192x64, .f32⟩
  | 106 => ⟨S8192x64, .f32⟩
  | 107 => ⟨S8192x192, .f32⟩
  | 108 => ⟨S8192x64, .f32⟩
  | 109 => ⟨S1x64, .f32⟩
  | 110 => ⟨S8192x64, .f32⟩
  | 111 => ⟨S8192x64, .f32⟩
  | 112 => ⟨S8192x64, .f32⟩
  | 113 => ⟨S_, .f32⟩
  | 114 => ⟨S8192, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x64, .f32⟩
  | 121 => ⟨S8192x64, .f32⟩
  | 122 => ⟨S8192x64, .f32⟩
  | 123 => ⟨S8192x128, .f32⟩
  | 124 => ⟨S8192x128, .f32⟩
  | 125 => ⟨S_, .f32⟩
  | 126 => ⟨S8192, .f32⟩
  | 127 => ⟨S8192x1, .f32⟩
  | _ => ⟨S8192x300, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x128, .f32⟩
  | 5 => ⟨S8192x128, .f32⟩
  | 6 => ⟨S8192x8192, .f32⟩
  | 7 => ⟨S8192x8192, .f32⟩
  | 8 => ⟨S8192x1, .f32⟩
  | 9 => ⟨S_, .f32⟩
  | 10 => ⟨S_, .f32⟩
  | 11 => ⟨S_, .f32⟩
  | 12 => ⟨S_, .f32⟩
  | 13 => ⟨S67108864, .f32⟩
  | _ => ⟨S8192x300, .f32⟩

abbrev hbmTy (i : Nat) : BufTy := match i / 128 with
  | 0 => hbmTy0_0 i
  | 1 => hbmTy0_1 i
  | 2 => hbmTy0_2 i
  | _ => ⟨S8192x300, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_6 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_14 : Ref sig .tc := ⟨.hbm, 111, rfl⟩
abbrev main_v82 : Ref sig .tc := ⟨.hbm, 112, rfl⟩
abbrev main_v83 : Ref sig .tc := ⟨.hbm, 113, rfl⟩
abbrev main_c_15 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_17 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_19 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_20 : Ref sig .tc := ⟨.hbm, 139, rfl⟩
abbrev main_v104 : Ref sig .tc := ⟨.hbm, 140, rfl⟩
abbrev main_v105 : Ref sig .tc := ⟨.hbm, 141, rfl⟩
abbrev main_c_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_22 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_25 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_26 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_27 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_28 : Ref sig .tc := ⟨.hbm, 183, rfl⟩
abbrev main_v140 : Ref sig .tc := ⟨.hbm, 184, rfl⟩
abbrev main_v141 : Ref sig .tc := ⟨.hbm, 185, rfl⟩
abbrev main_c_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_30 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_31 : Ref sig .tc := ⟨.hbm, 196, rfl⟩
abbrev main_v150 : Ref sig .tc := ⟨.hbm, 197, rfl⟩
abbrev main_cst_32 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_33 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_34 : Ref sig .tc := ⟨.hbm, 211, rfl⟩
abbrev main_v162 : Ref sig .tc := ⟨.hbm, 212, rfl⟩
abbrev main_v163 : Ref sig .tc := ⟨.hbm, 213, rfl⟩
abbrev main_c_35 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_36 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_37 : Ref sig .tc := ⟨.hbm, 224, rfl⟩
abbrev main_v172 : Ref sig .tc := ⟨.hbm, 225, rfl⟩
abbrev main_cst_38 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_39 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_40 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_41 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_cst_42 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_cst_43 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204_0 : Ref sig .tc := ⟨.hbm, 263, rfl⟩
abbrev main_v204_1 : Ref sig .tc := ⟨.hbm, 264, rfl⟩
abbrev main_cst_44 : Ref sig .tc := ⟨.hbm, 265, rfl⟩
abbrev main_v205 : Ref sig .tc := ⟨.hbm, 266, rfl⟩
abbrev main_cst_45 : Ref sig .tc := ⟨.hbm, 267, rfl⟩
abbrev main_v206 : Ref sig .tc := ⟨.hbm, 268, rfl⟩
abbrev main_v207 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_2 : Index := 0#32
  ![v8.toNat, 0]
def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S600x64_S300x64_0_0 : S600x64.Slices ![0, 0] S300x64
  slices_S600x64_S300x64_300_0 : S600x64.Slices ![300, 0] S300x64
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S8192x64 : S_.BroadcastsInDim S8192x64 (![] : Fin 0 → Fin S8192x64.rank)
  bcast_S_S262144x1 : S_.BroadcastsInDim S262144x1 (![] : Fin 0 → Fin S262144x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  concatenates_S8192x64_S8192x64_S8192x64_S8192x192_d1 : Shape.Concatenates [S8192x64, S8192x64, S8192x64] S8192x192 1
  concatenates_S8192x64_S8192x64_S8192x128_d1 : Shape.Concatenates [S8192x64, S8192x64] S8192x128 1
  reducesTo_S8192x128_S8192_d1 : S8192x128.ReducesTo [1] S8192
  bcast_S8192x1_S8192x128_0_1 : S8192x1.BroadcastsInDim S8192x128 (![0, 1] : Fin 2 → Fin S8192x128.rank)
  shapeCasts_S67108864_S8192x8192 : S67108864.ShapeCasts S8192x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  h_S512x128 : 0 < S512x128.numel
  shapeCasts_S512x128_S512x128 : S512x128.ShapeCasts S512x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  reducesTo_S8192x1_S_d0_1 : S8192x1.ReducesTo [0, 1] S_
  shapeCasts_S8192x8192_S67108864 : S8192x8192.ShapeCasts S67108864
  dot_S8192x300_S300x64_S8192x64_1_0_0_1_n_n_wf : DotDims.WF S8192x300 S300x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  scatter_S8192x1_S262144x1_S262144x1_1_0_0_1_wf : ScatterDims.WF S8192x1 S262144x1 S262144x1 [1] [0] [0] 1
  dot_S8192x192_S192x64_S8192x64_1_0_0_1_n_n_wf : DotDims.WF S8192x192 S192x64 S8192x64 [1] [0] [0] [1] [] []
  dot_S1024x128_S512x128_S1024x512_1_1_0_0_n_n_wf : DotDims.WF S1024x128 S512x128 S1024x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x8192.size a
  hwx0_3 : ∀ i : grid0.Coords, EltTy.bits .f32 = 32 ∨ (Rect.block (s := S8192x8192) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S8192x300_S300x64_S8192x64_1_0_0_1_n_n : DotDims S8192x300 S300x64 S8192x64 where
  lhsContracting := [1]
  rhsContracting := [0]
  lhsNonContracting := [0]
  rhsNonContracting := [1]
  lhsBatch := []
  rhsBatch := []
  wf := dot_S8192x300_S300x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def scatter_S8192x1_S262144x1_S262144x1_1_0_0_1 : ScatterDims S8192x1 S262144x1 S262144x1 where
  updateWindowDims := [1]
  insertedWindowDims := [0]
  scatterDimsToOperandDims := [0]
  indexVectorDim := 1
  wf := scatter_S8192x1_S262144x1_S262144x1_1_0_0_1_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_v202) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v202) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v203) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v204_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v204_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x300 : Shape := ⟨2, ![8192, 300]⟩
abbrev S2x262144 : Shape := ⟨2, ![2, 262144]⟩
abbrev S67108864 : Shape := ⟨1, ![67108864]⟩
abbrev S8192x8192 : Shape := ⟨2, ![8192, 8192]⟩
abbrev S600x64 : Shape := ⟨2, ![600, 64]⟩
abbrev S64 : Shape := ⟨1, ![64]⟩
abbrev S192x64 : Shape := ⟨2, ![192, 64]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x300 : Shape := ⟨2, ![262144, 300]⟩
abbrev S8192x1 : Shape := ⟨2, ![8192, 1]⟩
abbrev S8192x600 : Shape := ⟨2, ![8192, 600]⟩
abbrev S8192x64 : Shape := ⟨2, ![8192, 64]⟩
abbrev S1x64 : Shape := ⟨2, ![1, 64]⟩
abbrev S8192 : Shape := ⟨1, ![8192]⟩
abbrev S262144x64 : Shape := ⟨2, ![262144, 64]⟩
abbrev S8192x192 : Shape := ⟨2, ![8192, 192]⟩
abbrev S8192x128 : Shape := ⟨2, ![8192, 128]⟩
abbrev S128x8192 : Shape := ⟨2, ![128, 8192]⟩

abbrev nBuf : Space → Nat
  | .hbm => 266
  | .vmem => 0
  | .smem => 0
  | _ => 0

abbrev hbmTy0_0 (i : Nat) : BufTy := match i % 128 with
  | 0 => ⟨S8192x300, .f32⟩
  | 1 => ⟨S2x262144, .i32⟩
  | 2 => ⟨S2x262144, .i32⟩
  | 3 => ⟨S67108864, .f32⟩
  | 4 => ⟨S8192x8192, .f32⟩
  | 5 => ⟨S600x64, .f32⟩
  | 6 => ⟨S64, .f32⟩
  | 7 => ⟨S600x64, .f32⟩
  | 8 => ⟨S64, .f32⟩
  | 9 => ⟨S192x64, .f32⟩
  | 10 => ⟨S64, .f32⟩
  | 11 => ⟨S192x64, .f32⟩
  | 12 => ⟨S64, .f32⟩
  | 13 => ⟨S1x262144, .i32⟩
  | 14 => ⟨S262144, .i32⟩
  | 15 => ⟨S1x262144, .i32⟩
  | 16 => ⟨S262144, .i32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x300, .f32⟩
  | 26 => ⟨S_, .f32⟩
  | 27 => ⟨S8192x300, .f32⟩
  | 28 => ⟨S262144x1, .i32⟩
  | 29 => ⟨S8192x300, .f32⟩
  | 30 => ⟨S_, .f32⟩
  | 31 => ⟨S262144x1, .f32⟩
  | 32 => ⟨S_, .f32⟩
  | 33 => ⟨S8192x1, .f32⟩
  | 34 => ⟨S262144x1, .i32⟩
  | 35 => ⟨S8192x1, .f32⟩
  | 36 => ⟨S_, .f32⟩
  | 37 => ⟨S8192x1, .f32⟩
  | 38 => ⟨S8192x1, .f32⟩
  | 39 => ⟨S8192x300, .f32⟩
  | 40 => ⟨S8192x300, .f32⟩
  | 41 => ⟨S8192x600, .f32⟩
  | 42 => ⟨S8192x64, .f32⟩
  | 43 => ⟨S1x64, .f32⟩
  | 44 => ⟨S8192x64, .f32⟩
  | 45 => ⟨S8192x64, .f32⟩
  | 46 => ⟨S8192x64, .f32⟩
  | 47 => ⟨S_, .f32⟩
  | 48 => ⟨S8192, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x64, .f32⟩
  | 55 => ⟨S8192x64, .f32⟩
  | 56 => ⟨S8192x64, .f32⟩
  | 57 => ⟨S1x262144, .i32⟩
  | 58 => ⟨S262144, .i32⟩
  | 59 => ⟨S1x262144, .i32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x300, .f32⟩
  | 70 => ⟨S_, .f32⟩
  | 71 => ⟨S8192x300, .f32⟩
  | 72 => ⟨S262144x1, .i32⟩
  | 73 => ⟨S8192x300, .f32⟩
  | 74 => ⟨S_, .f32⟩
  | 75 => ⟨S262144x1, .f32⟩
  | 76 => ⟨S_, .f32⟩
  | 77 => ⟨S8192x1, .f32⟩
  | 78 => ⟨S262144x1, .i32⟩
  | 79 => ⟨S8192x1, .f32⟩
  | 80 => ⟨S_, .f32⟩
  | 81 => ⟨S8192x1, .f32⟩
  | 82 => ⟨S8192x1, .f32⟩
  | 83 => ⟨S8192x300, .f32⟩
  | 84 => ⟨S8192x300, .f32⟩
  | 85 => ⟨S8192x600, .f32⟩
  | 86 => ⟨S8192x64, .f32⟩
  | 87 => ⟨S1x64, .f32⟩
  | 88 => ⟨S8192x64, .f32⟩
  | 89 => ⟨S8192x64, .f32⟩
  | 90 => ⟨S8192x64, .f32⟩
  | 91 => ⟨S_, .f32⟩
  | 92 => ⟨S8192, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x64, .f32⟩
  | 99 => ⟨S8192x64, .f32⟩
  | 100 => ⟨S8192x64, .f32⟩
  | 101 => ⟨S1x262144, .i32⟩
  | 102 => ⟨S262144, .i32⟩
  | 103 => ⟨S1x262144, .i32⟩
  | 104 => ⟨S262144, .i32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S262144x64, .f32⟩
  | 114 => ⟨S_, .f32⟩
  | 115 => ⟨S8192x64, .f32⟩
  | 116 => ⟨S262144x1, .i32⟩
  | 117 => ⟨S8192x64, .f32⟩
  | 118 => ⟨S_, .f32⟩
  | 119 => ⟨S262144x1, .f32⟩
  | 120 => ⟨S_, .f32⟩
  | 121 => ⟨S8192x1, .f32⟩
  | 122 => ⟨S262144x1, .i32⟩
  | 123 => ⟨S8192x1, .f32⟩
  | 124 => ⟨S_, .f32⟩
  | 125 => ⟨S8192x1, .f32⟩
  | 126 => ⟨S8192x1, .f32⟩
  | 127 => ⟨S8192x64, .f32⟩
  | _ => ⟨S8192x300, .f32⟩

abbrev hbmTy0_1 (i : Nat) : BufTy := match i % 128 with
  | 0 => ⟨S8192x64, .f32⟩
  | 1 => ⟨S1x262144, .i32⟩
  | 2 => ⟨S262144, .i32⟩
  | 3 => ⟨S1x262144, .i32⟩
  | 4 => ⟨S262144, .i32⟩
  | 5 => ⟨S_, .i32⟩
  | 6 => ⟨S262144, .i32⟩
  | 7 => ⟨S262144, .i1⟩
  | 8 => ⟨S_, .i32⟩
  | 9 => ⟨S262144, .i32⟩
  | 10 => ⟨S262144, .i32⟩
  | 11 => ⟨S262144, .i32⟩
  | 12 => ⟨S262144x1, .i32⟩
  | 13 => ⟨S262144x64, .f32⟩
  | 14 => ⟨S_, .f32⟩
  | 15 => ⟨S8192x64, .f32⟩
  | 16 => ⟨S262144x1, .i32⟩
  | 17 => ⟨S8192x64, .f32⟩
  | 18 => ⟨S_, .f32⟩
  | 19 => ⟨S262144x1, .f32⟩
  | 20 => ⟨S_, .f32⟩
  | 21 => ⟨S8192x1, .f32⟩
  | 22 => ⟨S262144x1, .i32⟩
  | 23 => ⟨S8192x1, .f32⟩
  | 24 => ⟨S_, .f32⟩
  | 25 => ⟨S8192x1, .f32⟩
  | 26 => ⟨S8192x1, .f32⟩
  | 27 => ⟨S8192x64, .f32⟩
  | 28 => ⟨S8192x64, .f32⟩
  | 29 => ⟨S8192x192, .f32⟩
  | 30 => ⟨S8192x64, .f32⟩
  | 31 => ⟨S1x64, .f32⟩
  | 32 => ⟨S8192x64, .f32⟩
  | 33 => ⟨S8192x64, .f32⟩
  | 34 => ⟨S8192x64, .f32⟩
  | 35 => ⟨S_, .f32⟩
  | 36 => ⟨S8192, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x64, .f32⟩
  | 43 => ⟨S8192x64, .f32⟩
  | 44 => ⟨S8192x64, .f32⟩
  | 45 => ⟨S1x262144, .i32⟩
  | 46 => ⟨S262144, .i32⟩
  | 47 => ⟨S1x262144, .i32⟩
  | 48 => ⟨S262144, .i32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x64, .f32⟩
  | 58 => ⟨S_, .f32⟩
  | 59 => ⟨S8192x64, .f32⟩
  | 60 => ⟨S262144x1, .i32⟩
  | 61 => ⟨S8192x64, .f32⟩
  | 62 => ⟨S_, .f32⟩
  | 63 => ⟨S262144x1, .f32⟩
  | 64 => ⟨S_, .f32⟩
  | 65 => ⟨S8192x1, .f32⟩
  | 66 => ⟨S262144x1, .i32⟩
  | 67 => ⟨S8192x1, .f32⟩
  | 68 => ⟨S_, .f32⟩
  | 69 => ⟨S8192x1, .f32⟩
  | 70 => ⟨S8192x1, .f32⟩
  | 71 => ⟨S8192x64, .f32⟩
  | 72 => ⟨S8192x64, .f32⟩
  | 73 => ⟨S1x262144, .i32⟩
  | 74 => ⟨S262144, .i32⟩
  | 75 => ⟨S1x262144, .i32⟩
  | 76 => ⟨S262144, .i32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S262144x1, .i32⟩
  | 85 => ⟨S262144x64, .f32⟩
  | 86 => ⟨S_, .f32⟩
  | 87 => ⟨S8192x64, .f32⟩
  | 88 => ⟨S262144x1, .i32⟩
  | 89 => ⟨S8192x64, .f32⟩
  | 90 => ⟨S_, .f32⟩
  | 91 => ⟨S262144x1, .f32⟩
  | 92 => ⟨S_, .f32⟩
  | 93 => ⟨S8192x1, .f32⟩
  | 94 => ⟨S262144x1, .i32⟩
  | 95 => ⟨S8192x1, .f32⟩
  | 96 => ⟨S_, .f32⟩
  | 97 => ⟨S8192x1, .f32⟩
  | 98 => ⟨S8192x1, .f32⟩
  | 99 => ⟨S8192x64, .f32⟩
  | 100 => ⟨S8192x64, .f32⟩
  | 101 => ⟨S8192x192, .f32⟩
  | 102 => ⟨S8192x64, .f32⟩
  | 103 => ⟨S1x64, .f32⟩
  | 104 => ⟨S8192x64, .f32⟩
  | 105 => ⟨S8192x64, .f32⟩
  | 106 => ⟨S8192x64, .f32⟩
  | 107 => ⟨S_, .f32⟩
  | 108 => ⟨S8192, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x64, .f32⟩
  | 115 => ⟨S8192x64, .f32⟩
  | 116 => ⟨S8192x64, .f32⟩
  | 117 => ⟨S8192x128, .f32⟩
  | 118 => ⟨S8192x128, .f32⟩
  | 119 => ⟨S_, .f32⟩
  | 120 => ⟨S8192, .f32⟩
  | 121 => ⟨S8192x1, .f32⟩
  | 122 => ⟨S8192x1, .f32⟩
  | 123 => ⟨S_, .f32⟩
  | 124 => ⟨S8192x1, .f32⟩
  | 125 => ⟨S8192x1, .f32⟩
  | 126 => ⟨S8192x128, .f32⟩
  | 127 => ⟨S8192x128, .f32⟩
  | _ => ⟨S8192x300, .f32⟩

abbrev hbmTy0_2 (i : Nat) : BufTy := match i % 128 with
  | 0 => ⟨S128x8192, .f32⟩
  | 1 => ⟨S8192x8192, .f32⟩
  | 2 => ⟨S8192x8192, .f32⟩
  | 3 => ⟨S67108864, .f32⟩
  | 4 => ⟨S67108864, .f32⟩
  | 5 => ⟨S67108864, .f32⟩
  | 6 => ⟨S_, .f32⟩
  | 7 => ⟨S_, .f32⟩
  | 8 => ⟨S_, .f32⟩
  | 9 => ⟨S_, .f32⟩
  | _ => ⟨S8192x300, .f32⟩

abbrev hbmTy (i : Nat) : BufTy := match i / 128 with
  | 0 => hbmTy0_0 i
  | 1 => hbmTy0_1 i
  | 2 => hbmTy0_2 i
  | _ => ⟨S8192x300, .f32⟩

abbrev bufTy : (tb : Table) → Fin (tcTables nBuf tb) → BufTy
  | .hbm, ⟨i, _⟩ => hbmTy i
  | _, _ => ⟨S8192x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_14 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_20 : Ref sig .tc := ⟨.hbm, 133, rfl⟩
abbrev main_v98 : Ref sig .tc := ⟨.hbm, 134, rfl⟩
abbrev main_v99 : Ref sig .tc := ⟨.hbm, 135, rfl⟩
abbrev main_c_21 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_26 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_27 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_28 : Ref sig .tc := ⟨.hbm, 177, rfl⟩
abbrev main_v134 : Ref sig .tc := ⟨.hbm, 178, rfl⟩
abbrev main_v135 : Ref sig .tc := ⟨.hbm, 179, rfl⟩
abbrev main_c_29 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_30 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_31 : Ref sig .tc := ⟨.hbm, 190, rfl⟩
abbrev main_v144 : Ref sig .tc := ⟨.hbm, 191, rfl⟩
abbrev main_cst_32 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_33 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_34 : Ref sig .tc := ⟨.hbm, 205, rfl⟩
abbrev main_v156 : Ref sig .tc := ⟨.hbm, 206, rfl⟩
abbrev main_v157 : Ref sig .tc := ⟨.hbm, 207, rfl⟩
abbrev main_c_35 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_36 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_37 : Ref sig .tc := ⟨.hbm, 218, rfl⟩
abbrev main_v166 : Ref sig .tc := ⟨.hbm, 219, rfl⟩
abbrev main_cst_38 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_39 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_40 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_41 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_42 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_43 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_cst_44 : Ref sig .tc := ⟨.hbm, 262, rfl⟩
abbrev main_v203 : Ref sig .tc := ⟨.hbm, 263, rfl⟩
abbrev main_cst_45 : Ref sig .tc := ⟨.hbm, 264, rfl⟩
abbrev main_v204 : Ref sig .tc := ⟨.hbm, 265, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S8192x300 : S_.BroadcastsInDim S8192x300 (![] : Fin 0 → Fin S8192x300.rank)
  bcast_S_S262144x1 : S_.BroadcastsInDim S262144x1 (![] : Fin 0 → Fin S262144x1.rank)
  bcast_S_S8192x1 : S_.BroadcastsInDim S8192x1 (![] : Fin 0 → Fin S8192x1.rank)
  bcast_S8192x1_S8192x300_0_1 : S8192x1.BroadcastsInDim S8192x300 (![0, 1] : Fin 2 → Fin S8192x300.rank)
  concatenates_S8192x300_S8192x300_S8192x600_d1 : Shape.Concatenates [S8192x300, S8192x300] S8192x600 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  concatenates_S8192x64_S8192x64_S8192x64_S8192x192_d1 : Shape.Concatenates [S8192x64, S8192x64, S8192x64] S8192x192 1
  concatenates_S8192x64_S8192x64_S8192x128_d1 : Shape.Concatenates [S8192x64, S8192x64] S8192x128 1
  reducesTo_S8192x128_S8192_d1 : S8192x128.ReducesTo [1] S8192
  bcast_S8192x1_S8192x128_0_1 : S8192x1.BroadcastsInDim S8192x128 (![0, 1] : Fin 2 → Fin S8192x128.rank)
  transposes_S8192x128_S128x8192_1_0 : S8192x128.Transposes [1, 0] S128x8192
  shapeCasts_S8192x8192_S67108864 : S8192x8192.ShapeCasts S67108864
  reducesTo_S67108864_S_d0 : S67108864.ReducesTo [0] S_
  gather_S8192x300_S262144x1_S262144x300_1_0_n_n_0_1_1300_wf : GatherDims.WF S8192x300 S262144x1 S262144x300 [1] [0] [] [0] [] 1 ![1, 300]
  scatter_S8192x300_S262144x1_S262144x300_1_0_0_1_wf : ScatterDims.WF S8192x300 S262144x1 S262144x300 [1] [0] [0] 1
  scatter_S8192x1_S262144x1_S262144x1_1_0_0_1_wf : ScatterDims.WF S8192x1 S262144x1 S262144x1 [1] [0] [0] 1
  dot_S8192x600_S600x64_S8192x64_1_0_0_1_n_n_wf : DotDims.WF S8192x600 S600x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x192_S192x64_S8192x64_1_0_0_1_n_n_wf : DotDims.WF S8192x192 S192x64 S8192x64 [1] [0] [0] [1] [] []
  dot_S8192x128_S128x8192_S8192x8192_1_0_0_1_n_n_wf : DotDims.WF S8192x128 S128x8192 S8192x8192 [1] [0] [0] [1] [] []

variable [Facts₀]

def gather_S8192x300_S262144x1_S262144x300_1_0_n_n_0_1_1300 : GatherDims S8192x300 S262144x1 S262144x300 where
  offsetDims := [1]
  collapsedSliceDims := [0]
  operandBatchingDims := []
  startIndicesBatchingDims := []
  startIndexMap := [0]
  indexVectorDim := 1
  sliceSizes := ![1, 300]
  wf := gather_S8192x300_S262144x1_S262144x300_1_0_n_n_0_1_1300_wf
def scatter_S8192x300_S262144x1_S262144x300_1_0_0_1 : ScatterDims S8192x300 S262144x1 S262144x300 where
  updateWindowDims := [1]
  insertedWindowDims := [0]
  scatterDimsToOperandDims := [0]
  indexVectorDim := 1
  wf := scatter_S8192x300_S262144x1_S262144x300_1_0_0_1_wf
def scatter_S8192x1_S262144x1_S262144x1_1_0_0_1 : ScatterDims S8192x1 S262144x1 S262144x1 where
  updateWindowDims := [1]
  insertedWindowDims := [0]
  scatterDimsToOperandDims := [0]
  indexVectorDim := 1
  wf := scatter_S8192x1_S262144x1_S262144x1_1_0_0_1_wf
def dot_S8192x600_S600x64_S8192x64_1_0_0_1_n_n : DotDims S8192x600 S600x64 S8192x64 where
  lhsContracting := [1]
  rhsContracting := [0]
  lhsNonContracting := [0]
  rhsNonContracting := [1]
  lhsBatch := []
  rhsBatch := []
  wf := dot_S8192x600_S600x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibSharedFrameTail.lean ====
/-
  The frame run of a one-region pipeline kernel whose input windows may SHARE AN ARRAY and whose @main GOES ON after
  the region with straight lines of host operations (slices, reductions, a scale of the kernel's result into fresh
  buffers).

  For distinct arrays the library's frame run around the region hands the later lines every array of the pipeline whole,
  at the full share, beside the buffers that bypass the region. When two input windows read one array the array's full
  share is DEALT among the windows on it (the caller's entailment hsplit, as in the frame run for shared arrays with
  no later lines), and the arrays are no longer pairwise distinct whole buffers. What the later lines may then touch
  is said by the caller as a set O of windows: windows on pairwise distinct arrays, each held at the full share by the
  proof data (an output window always is). The lines run within the arrays of O — which they may read, not write —
  and the buffers that bypass the region, which they may read and write (tailRefsOn); every other window's array
  stays framed, at whatever share the proof data hold it. The post is the library's FramePost read at the contents
  after the lines: every array at Dat.arrAt … N, every bypassing buffer at the lines' StableHlo.after from the
  region-exit contents W₁ — the arrays of O at Dat.arrAt … N, the bypassing buffers at their region-entry contents.

  No program is imported: the statements are over any configuration.
-/
import Idealize.ShloMosaic.Lib.Pipeline.FrameSuffix

noncomputable section

namespace Idealize.ShloMosaic

open Idealize.SL
open Idealize.SL.BI (sProp bigSep bigSep_map bigSep_union bigSep_congr bigSep_image_of_injOn bigSep_sdiff_split)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

/-! ## The lines after the region, within the arrays of some windows and the bypassing buffers -/

section TailOn

variable {Ix : Type} [DecidableEq Ix] {Name : Type} [DecidableEq Name] {U : Type} [URA U] {Lvl : Type}
variable {Λ₀ : SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The device buffers a line after the region may touch when windows may share arrays: the arrays of the windows O
    and the buffers that bypass the region. -/
def tailRefsOn {gr : Nat} {W : Nat} (win : Fin W → WinSpec sig gr) (O : Finset (Fin W)) : Finset (DevRef τ sig) :=
  (O.image (arrRef win) ∪ restRefs sig win).map ⟨Proc.devRef (sig := sig) .tc, Proc.devRef_injective _⟩

/-- An operation on TensorCore references that touches no array of a window outside O touches only buffers of
    tailRefsOn. -/
theorem sub_tailRefsOn {gr : Nat} {W : Nat} (win : Fin W → WinSpec sig gr) (O : Finset (Fin W))
    (op : HloOp τ sig Val) (h₁ : op.bufs ⊆ StableHlo.tcRefs τ sig)
    (h₂ : ∀ w, w ∉ O → Proc.devRef .tc (arrRef win w) ∈ op.bufs → ∃ w' ∈ O, arrRef win w' = arrRef win w) :
    op.bufs ⊆ tailRefsOn (τ := τ) sig win O := by
  classical
  intro b hb
  have hu : b ∈ ucRefs τ sig := sub_ucRefs op h₁ hb
  simp only [tailRefsOn, ucRefs, StableHlo.tcRefs, restRefs, Finset.mem_map, Finset.mem_filter, Finset.mem_union,
    Finset.mem_sdiff, Finset.mem_image, Finset.mem_univ, true_and, Function.Embedding.coeFn_mk] at hu ⊢
  obtain ⟨⟨r, rfl⟩, hr⟩ := hu
  refine ⟨r, ?_, rfl⟩
  by_cases h : ∃ w, arrRef win w = r
  · obtain ⟨w, rfl⟩ := h
    by_cases hw : w ∈ O
    · exact Or.inl ⟨w, hw, rfl⟩
    · exact Or.inl (h₂ w hw hb)
  · exact Or.inr ⟨hr, h⟩

/-- Those buffers held at Wv are the arrays of O, each whole at the full share, and the bypassing buffers, at Wv. -/
theorem held_tailRefsOn {gr : Nat} {W : Nat} (win : Fin W → WinSpec sig gr) (O : Finset (Fin W))
    (hO : Set.InjOn (arrRef win) O) (c : Dev nD) (Wv : Valuation τ sig Val) :
    (StableHlo.held (c.tc : Thread nD τ) (tailRefsOn sig win O) Wv : sProp 𝕄)
      = iprop((bigSep O fun w => (((c.tc : Thread nD τ).loc (arrRef win w)) ↦{fullShare} Wv (Proc.devRef .tc (arrRef win w)) : sProp 𝕄))
          ∗ unscopedRest win c (fun b => Wv (Proc.devRef .tc b))) := by
  classical
  have hdisj : Disjoint (O.image (arrRef win)) (restRefs sig win) :=
    Finset.disjoint_left.mpr fun b hb hr =>
      (Finset.mem_sdiff.mp hr).2 (Finset.image_subset_image (Finset.subset_univ O) hb)
  unfold StableHlo.held tailRefsOn unscopedRest
  rw [bigSep_map, bigSep_union hdisj, bigSep_image_of_injOn hO]
  rfl

set_option backward.isDefEq.respectTransparency.types false in
/-- THE LINES AFTER THE REGION within the arrays of the windows O and the bypassing buffers: from the boundary, the
    arrays of O whole at the full share and the bypassing buffers, all at Wv, the lines — touching only those
    (hsub), allocating nothing (hfresh), writing no array of O (hkeep) — run and hand back the arrays of O at Wv
    and the bypassing buffers at StableHlo.after of the lines from Wv. -/
theorem tail_seqs_on [Preorder Lvl] {gr : Nat} {W : Nat} (win : Fin W → WinSpec sig gr) (O : Finset (Fin W))
    (hO : Set.InjOn (arrRef win) O) (c : Dev nD) (Wv : Valuation τ sig Val)
    (opss : List (List (HloOp τ sig Val)))
    (hsub : ∀ ops ∈ opss, ∀ op ∈ ops, op.bufs ⊆ tailRefsOn sig win O)
    (hfresh : ∀ ops ∈ opss, ∀ op ∈ ops, op.fresh = ∅)
    (hkeep : ∀ ops ∈ opss, ∀ op ∈ ops, ∀ w ∈ O, Proc.devRef .tc (arrRef win w) ∉ op.writes)
    (Q' : PUnit → sProp 𝕄) :
    iprop((iprop((bigSep O fun w => (((c.tc : Thread nD τ).loc (arrRef win w)) ↦{fullShare} Wv (Proc.devRef .tc (arrRef win w)) : sProp 𝕄))
              ∗ unscopedRest win c (fun b => StableHlo.after opss.flatten Wv (Proc.devRef .tc b))) -∗ Q' ⟨⟩)
        ∗ boundary (c.tc : Thread nD τ)
        ∗ (bigSep O fun w => (((c.tc : Thread nD τ).loc (arrRef win w)) ↦{fullShare} Wv (Proc.devRef .tc (arrRef win w)) : sProp 𝕄))
        ∗ unscopedRest win c (fun b => Wv (Proc.devRef .tc b)))
      ⊢ wp frame (wpE 𝔻 𝕍 (c.tc : Thread nD τ) none) Set.univ (chain (opss.map StableHlo.seq)) Q' := by
  classical
  have hW' : (StableHlo.held (c.tc : Thread nD τ) (tailRefsOn sig win O) (StableHlo.after opss.flatten Wv) : sProp 𝕄)
      = iprop((bigSep O fun w => (((c.tc : Thread nD τ).loc (arrRef win w)) ↦{fullShare} Wv (Proc.devRef .tc (arrRef win w)) : sProp 𝕄))
          ∗ unscopedRest win c (fun b => StableHlo.after opss.flatten Wv (Proc.devRef .tc b))) := by
    rw [held_tailRefsOn win O hO]
    congr 1
    exact bigSep_congr fun w hw => by
      rw [StableHlo.after_of_forall_not_mem _ _ fun op hop => ?_]
      obtain ⟨ops, hops, hop⟩ := List.mem_flatten.mp hop
      exact hkeep ops hops op hop w hw
  rw [← List.append_nil (opss.map StableHlo.seq), ← held_tailRefsOn win O hO c Wv]
  iintro ⟨Hk, Hb⟩
  iapply (wp_seqs_then pcs defs₀ 𝒱₀ c (tailRefsOn sig win O) [] opss hsub hfresh Wv) $$ Hb
  iintro Hb
  rw [chain_nil, wp_pure, hW']
  imodintro
  iapply Hk
  icases Hb with ⟨-, H⟩
  iexact H

end TailOn

/-! ## The frame run around the region, the arrays' shares dealt by the caller -/

section SharedFrameTail

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀) (p : P) (defs₀ : Defs nD τ sig Val Λ₀) (𝒱₀ : Variants)

local notation "cfg" => cfgs p
local notation "𝔻" => Pipeline.defs (fun q => Cfg.toPCfg (Val := Val) (cfgs q)) defs₀

/-- THE FRAME RUN for windows that may share arrays, of an @main that continues after the region with the host lines
    opss (hmain: the library's hmain_around): every weakly fair execution of @main terminates, and every final state
    has each array of the pipeline at Dat.arrAt … N and every other unscoped buffer at the lines' StableHlo.after from
    the region-exit contents W₁ (FramePost). The caller supplies how the arrays' full shares are dealt among the windows
    (hsplit), the windows O whose arrays the lines may read — on pairwise distinct arrays (hO), each held at the full
    share (hOshare) —, the region-exit contents W₁ — an array of O at Dat.arrAt … N (hW₁O), a bypassing buffer at its
    region-entry contents (hW₁rest) — and that the lines touch only the arrays of O and the bypassing buffers (hsub),
    allocate nothing (hfresh) and write no array of O (hkeep); the proof data's invariant is the class's (hΦ). -/
theorem θ_run_frame_split_around
    (dats : (p : P) → (c : Dev nD) → Dat τ Val Unit ℕ (UR sig nD τ) ℕ (cfgs p) c)
    (hcell : Function.Injective (cellOf (nD := nD) (τ := τ) cfgs)) (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (O : Finset (Fin (cfg).W)) (hO : Set.InjOn (arrRef (cfg).spec) O)
    (hOshare : ∀ c, ∀ w ∈ O, (dats p c).share w = fullShare)
    (W₁ : Dev nD → Valuation τ sig Val)
    (hW₁O : ∀ c, ∀ w ∈ O, W₁ c (Proc.devRef .tc (arrRef (cfg).spec w)) = (dats p c).arrAt w (cfg).N)
    (hW₁rest : ∀ c, ∀ b ∈ restRefs sig (cfg).spec, W₁ c (Proc.devRef .tc b) = V₀ c (Proc.devRef .tc b))
    (hsub : ∀ ops ∈ opss, ∀ op ∈ ops, op.bufs ⊆ tailRefsOn sig (cfg).spec O)
    (hfresh : ∀ ops ∈ opss, ∀ op ∈ ops, op.fresh = ∅)
    (hkeep : ∀ ops ∈ opss, ∀ op ∈ ops, ∀ w ∈ O, Proc.devRef .tc (arrRef (cfg).spec w) ∉ op.writes)
    (hΦ : ∀ c t, (dats p c).Φ t = ΦA (cfg).spec c) :
    θ_run 𝔻 (onTc main) (s₀ m g)
      (FramePost cfgs dats p (fun c b => StableHlo.after opss.flatten (W₁ c) (Proc.devRef .tc b))) := by
  classical
  have hcell' : Function.Injective (cellOf (nD := nD) (τ := τ)
      (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp))
    (u₀ := initOf (cells (pin (fun q => (cfgs q).toPCfg (Val := Val)) (fun q => (cfgs q).toPCfg_adm)) hcell')
      (launchToks (pin (fun q => (cfgs q).toPCfg (Val := Val)) (fun q => (cfgs q).toPCfg_adm)) hcell'))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm)) hcell')
          (launchToks (pin (fun q => (cfgs q).toPCfg (Val := Val)) (fun q => (cfgs q).toPCfg_adm)) hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (W₁ c) (Proc.devRef .tc b)))
    (hX := fun c => by
      iintro ⟨HU, -, -, -, Hp, -⟩; imodintro
      isplitl [Hp]; · iexists _; iexact Hp
      iexact HU)
    (hin := fun c => by
      rw [hΦ]
      unfold ΦA; iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' => by
      have hA : ∀ F : (w : Fin (cfg).W) → Buf Val (((cfg).spec w).arr.view.loc (c.tc : Thread nD τ)),
          (∀ w ∈ O, F w = W₁ c (Proc.devRef .tc (arrRef (cfg).spec w))) →
          ((dats p c).arrays F : sProp 𝕄)
            = iprop((bigSep O fun w => ((((c.tc : Thread nD τ).loc (arrRef (cfg).spec w)) ↦{fullShare} W₁ c (Proc.devRef .tc (arrRef (cfg).spec w))) : sProp 𝕄))
                ∗ bigSep (Finset.univ \ O) fun w : Fin (cfg).W =>
                    ((((cfg).spec w).arr.view.loc (c.tc : Thread nD τ)) ↦[((cfg).spec w).arr.view.set]{(dats p c).share w} F w : sProp 𝕄)) := by
        intro F hF
        unfold Dat.arrays
        rw [bigSep_sdiff_split (Finset.subset_univ O)]
        congr 1
        exact bigSep_congr fun w hw => by rw [(harr w).set_eq_univ, hOshare c w hw, hF w hw]
      have hZ : (unscopedRestP (Ix := Unit) (Name := ℕ) (U := UR sig nD τ) (Lvl := ℕ) Prefetch.none (cfg).spec c (fun b => V₀ c (Proc.devRef .tc b)) : sProp 𝕄)
          = unscopedRest (cfg).spec c (fun b => W₁ c (Proc.devRef .tc b)) := by
        rw [unscopedRestP_none]
        unfold unscopedRest
        exact bigSep_congr fun b hb => by beta_reduce; rw [hW₁rest c b hb]
      rw [hA _ (fun w hw => (hW₁O c w hw).symm), hZ, unscopedRestP_none]
      iintro ⟨Hk, Hb, ⟨HO, HR⟩, HZ⟩
      iapply (tail_seqs_on (Ix := Unit) (Name := ℕ) (U := UR sig nD τ) (Lvl := ℕ) (fun q => (cfgs q).toPCfg (Val := Val)) defs₀ 𝒱₀
        (cfg).spec O hO c (W₁ c) opss hsub hfresh hkeep Q')
      isplitl [Hk HR]
      · iintro ⟨HO, HZ⟩
        iapply Hk
        isplitr [HZ]
        · isplitl [HO]; · iexact HO
          iexact HR
        · iexact HZ
      isplitl [Hb]; · iexact Hb
      isplitl [HO]; · iexact HO
      iexact HZ)
    (QY := fun c s => ∀ b ∈ restRefsP sig Prefetch.none (cfg).spec,
      s.mem ((c.tc : Thread nD τ).loc b) = StableHlo.after opss.flatten (W₁ c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (W₁ c) (Proc.devRef .tc b)) s')
      isplitl [HU] <;> iassumption)
    (hQ := fun s h c => ⟨(h c).1,
      rest_of_restP Prefetch.none (cfg).spec (fun k => k.elim0) c
        (fun b => StableHlo.after opss.flatten (W₁ c) (Proc.devRef .tc b)) s (fun k => k.elim0) (h c).2.1 (h c).2.2⟩)

end SharedFrameTail

end Pipeline

end Idealize.ShloMosaic

end
-- ==== Proof.LibSharedFrameTrack.lean ====
/-
  The frame run of a one-region pipeline kernel whose input windows may share an array, whose @main goes on after the
  region with host lines, and whose body CARRIES something between grid points in its scratch: the invariant of the
  proof data is any point-by-point statement, provided the class's invariant (every scratch at some contents, the
  generator register at some state) yields it before the first point and it yields the class's invariant back after
  the last one. The statement without a carried scratch is the case where both entailments are identities.

  No program is imported: the statement is over any configuration.
-/
import proofs.«181554_j91190745628895_2_alg».proof.Proof.LibSharedFrameTail

noncomputable section

namespace Idealize.ShloMosaic

open Idealize.SL
open Idealize.SL.BI (sProp bigSep bigSep_map bigSep_union bigSep_congr bigSep_image_of_injOn bigSep_sdiff_split)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrameTailTrack

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀) (p : P) (defs₀ : Defs nD τ sig Val Λ₀) (𝒱₀ : Variants)

local notation "cfg" => cfgs p
local notation "𝔻" => Pipeline.defs (fun q => Cfg.toPCfg (Val := Val) (cfgs q)) defs₀

/-- The frame run for windows that may share arrays, of an @main that continues after the region with the host lines
    opss, with a TRACKING invariant: as the run whose invariant is the class's at every point, the proof data's
    invariant now any statement per point such that the class's invariant gives it before point 0 (hin: there every
    scratch holds anything) and it gives the class's invariant back after the last point (hout: what the scratch
    holds is forgotten). Every final state has each array of the pipeline at Dat.arrAt … N and every other unscoped
    buffer at the lines' StableHlo.after from the region-exit contents W₁ (FramePost). -/
theorem θ_run_frame_split_around_track
    (dats : (p : P) → (c : Dev nD) → Dat τ Val Unit ℕ (UR sig nD τ) ℕ (cfgs p) c)
    (hcell : Function.Injective (cellOf (nD := nD) (τ := τ) cfgs)) (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (O : Finset (Fin (cfg).W)) (hO : Set.InjOn (arrRef (cfg).spec) O)
    (hOshare : ∀ c, ∀ w ∈ O, (dats p c).share w = fullShare)
    (W₁ : Dev nD → Valuation τ sig Val)
    (hW₁O : ∀ c, ∀ w ∈ O, W₁ c (Proc.devRef .tc (arrRef (cfg).spec w)) = (dats p c).arrAt w (cfg).N)
    (hW₁rest : ∀ c, ∀ b ∈ restRefs sig (cfg).spec, W₁ c (Proc.devRef .tc b) = V₀ c (Proc.devRef .tc b))
    (hsub : ∀ ops ∈ opss, ∀ op ∈ ops, op.bufs ⊆ tailRefsOn sig (cfg).spec O)
    (hfresh : ∀ ops ∈ opss, ∀ op ∈ ops, op.fresh = ∅)
    (hkeep : ∀ ops ∈ opss, ∀ op ∈ ops, ∀ w ∈ O, Proc.devRef .tc (arrRef (cfg).spec w) ∉ op.writes)
    (hin : ∀ c, ΦA (cfg).spec c ⊢ (dats p c).Φ 0)
    (hout : ∀ c, (dats p c).Φ (Fin.last (cfg).N) ⊢ ΦA (cfg).spec c) :
    θ_run 𝔻 (onTc main) (s₀ m g)
      (FramePost cfgs dats p (fun c b => StableHlo.after opss.flatten (W₁ c) (Proc.devRef .tc b))) := by
  classical
  have hcell' : Function.Injective (cellOf (nD := nD) (τ := τ)
      (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp))
    (u₀ := initOf (cells (pin (fun q => (cfgs q).toPCfg (Val := Val)) (fun q => (cfgs q).toPCfg_adm)) hcell')
      (launchToks (pin (fun q => (cfgs q).toPCfg (Val := Val)) (fun q => (cfgs q).toPCfg_adm)) hcell'))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm)) hcell')
          (launchToks (pin (fun q => (cfgs q).toPCfg (Val := Val)) (fun q => (cfgs q).toPCfg_adm)) hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (W₁ c) (Proc.devRef .tc b)))
    (hX := fun c => by
      iintro ⟨HU, -, -, -, Hp, -⟩; imodintro
      isplitl [Hp]; · iexists _; iexact Hp
      iexact HU)
    (hin := fun c => by
      exact (show _ ⊢ ΦA (cfg).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (htail := fun c Q' => by
      have hA : ∀ F : (w : Fin (cfg).W) → Buf Val (((cfg).spec w).arr.view.loc (c.tc : Thread nD τ)),
          (∀ w ∈ O, F w = W₁ c (Proc.devRef .tc (arrRef (cfg).spec w))) →
          ((dats p c).arrays F : sProp 𝕄)
            = iprop((bigSep O fun w => ((((c.tc : Thread nD τ).loc (arrRef (cfg).spec w)) ↦{fullShare} W₁ c (Proc.devRef .tc (arrRef (cfg).spec w))) : sProp 𝕄))
                ∗ bigSep (Finset.univ \ O) fun w : Fin (cfg).W =>
                    ((((cfg).spec w).arr.view.loc (c.tc : Thread nD τ)) ↦[((cfg).spec w).arr.view.set]{(dats p c).share w} F w : sProp 𝕄)) := by
        intro F hF
        unfold Dat.arrays
        rw [bigSep_sdiff_split (Finset.subset_univ O)]
        congr 1
        exact bigSep_congr fun w hw => by rw [(harr w).set_eq_univ, hOshare c w hw, hF w hw]
      have hZ : (unscopedRestP (Ix := Unit) (Name := ℕ) (U := UR sig nD τ) (Lvl := ℕ) Prefetch.none (cfg).spec c (fun b => V₀ c (Proc.devRef .tc b)) : sProp 𝕄)
          = unscopedRest (cfg).spec c (fun b => W₁ c (Proc.devRef .tc b)) := by
        rw [unscopedRestP_none]
        unfold unscopedRest
        exact bigSep_congr fun b hb => by beta_reduce; rw [hW₁rest c b hb]
      rw [hA _ (fun w hw => (hW₁O c w hw).symm), hZ, unscopedRestP_none]
      iintro ⟨Hk, Hb, ⟨HO, HR⟩, HZ⟩
      iapply (tail_seqs_on (Ix := Unit) (Name := ℕ) (U := UR sig nD τ) (Lvl := ℕ) (fun q => (cfgs q).toPCfg (Val := Val)) defs₀ 𝒱₀
        (cfg).spec O hO c (W₁ c) opss hsub hfresh hkeep Q')
      isplitl [Hk HR]
      · iintro ⟨HO, HZ⟩
        iapply Hk
        isplitr [HZ]
        · isplitl [HO]; · iexact HO
          iexact HR
        · iexact HZ
      isplitl [Hb]; · iexact Hb
      isplitl [HO]; · iexact HO
      iexact HZ)
    (QY := fun c s => ∀ b ∈ restRefsP sig Prefetch.none (cfg).spec,
      s.mem ((c.tc : Thread nD τ).loc b) = StableHlo.after opss.flatten (W₁ c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (W₁ c) (Proc.devRef .tc b)) s')
      isplitl [HU] <;> iassumption)
    (hQ := fun s h c => ⟨(h c).1,
      rest_of_restP Prefetch.none (cfg).spec (fun k => k.elim0) c
        (fun b => StableHlo.after opss.flatten (W₁ c) (Proc.devRef .tc b)) s (fun k => k.elim0) (h c).2.1 (h c).2.2⟩)

end SharedFrameTailTrack

end Pipeline

end Idealize.ShloMosaic

end
-- ==== Proof.K.Runs.lean ====
/-
  The pairwise-loss region of the program: a grid of 8 row tiles by 16 column tiles; at tile (i, j) the body reads the
  row tile i of the normalised embedding (1024 × 128), rows 512·j … 512·j+511 of the whole embedding kept resident
  (the same array, handed to the region a second time), the (i, j) tiles of the mask and of the labels, writes the
  (i, j) tile of the prediction, and adds the tile's row sums of squared residuals to a 1024 × 1 accumulator kept in
  scratch, which is zeroed at j = 0 and copied to the row-sum output at j = 15.
  This module holds what the three control cases (j = 0, 0 < j < 15, j = 15) share: the contents of the buffers when
  the region is entered, the program around the region, each input window's block, the closed forms of the two
  conditions, and where the row-sum window is idle.
-/
import proofs.«181554_j91190745628895_2_alg».proof.Proof.Gen.Kernel.Launch
import proofs.«181554_j91190745628895_2_alg».proof.Proof.Gen.Kernel.Skeleton
import proofs.«181554_j91190745628895_2_alg».proof.Proof.Gen.Kernel.Points
import proofs.«181554_j91190745628895_2_alg».proof.Proof.LibSharedFrameTrack
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents on core c when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host operations before the region, the region, and the five host operations after it; it
    reduces to the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (where it is not fetched its block index has not moved), for any proof data whose array is the region-entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column tile" (j = 0), from the grid coordinates. -/
abbrev condFirst (i : grid0.Coords) : Prop := (Scalar.cmpi .ne (Scalar.extui (Scalar.cmpi .eq (BitVec.ofNat 32 (i 1).val) 0#32)) 0#32) = 1#1
/-- It holds at the points ≡ 0 (mod 16). -/
theorem hcondFirst : ∀ t : Fin cfg0.N, condFirst (grid0.coords t) ↔ t.val % 16 = 0 :=
  (by decide +kernel : ∀ t : Fin grid0.N, condFirst (grid0.coords t) ↔ t.val % 16 = 0)

/-- "This is the last column tile" (j = 15). -/
abbrev condLast (i : grid0.Coords) : Prop := k0_cond2 i = 1#1
/-- It holds at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last column tile the body stores nothing into the row-sum window, and the pipeline does not write it back. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
/-- At the last column tile it stores into it. -/
theorem live5 : ∀ t : Fin cfg0.N, condLast (grid0.coords t) → cfg0.idle 5 (grid0.coords t) = false := by decide +kernel

/-! ## The memrefs the body is called with -/

abbrev VO4 : View sig .tc .vmem S1024x512 .f32 := (Memref.whole cc0_stg4_0 : Memref sig .tc .vmem S1024x512 .f32).view
abbrev VO5 : View sig .tc .vmem S1024x1 .f32 := (Memref.whole cc0_stg5_0 : Memref sig .tc .vmem S1024x1 .f32).view
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S1024x1 .f32 := Memref.whole cc0_scratch0
abbrev VAcc : View sig .tc .vmem S1024x1 .f32 := accM.view

/-- The class's invariant with the accumulator as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Pair

end
-- ==== Proof.K.RunFirst.lean ====
/-
  The body at a first column tile (j = 0): the accumulator is zeroed, the tile of the prediction is stored, the tile's
  row sums of squared residuals are added to the zeroed accumulator; nothing is stored into the row-sum window.
-/
import proofs.«181554_j91190745628895_2_alg».proof.Proof.K.Runs

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the prediction window's buffer and in the accumulator at a first column tile,
    with the body's run: from the inputs' buffers at their contents, the prediction window's at anything, the row-sum
    window's at contents handed back untouched and the accumulator at anything, to the continuation holding the
    inputs as they were and the two written buffers with their pieces written. The pieces are found by the run. -/
noncomputable def runFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) :
    Σ' (L4 : List (View.Piece (Elt F) S1024x512 .f32)) (L5 : List (View.Piece (Elt F) S1024x1 .f32)), { LS : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, [], ?_, fun xi5 E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.Kernel.Pair

end
-- ==== Proof.K.RunMid.lean ====
/-
  The body at a middle column tile (0 < j < 15): the tile of the prediction is stored and the tile's row sums of
  squared residuals are added to the accumulator as the tile before left it.
-/
import proofs.«181554_j91190745628895_2_alg».proof.Proof.K.RunFirst

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a middle column tile, with the body's run: as at a first tile, the accumulator
    now arriving at the contents xs the tile before left. -/
noncomputable def runMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) :
    Σ' (L4 : List (View.Piece (Elt F) S1024x512 .f32)) (L5 : List (View.Piece (Elt F) S1024x1 .f32)), { LS : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, [], ?_, fun xi5 E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.Kernel.Pair

end
-- ==== Proof.K.RunLast.lean ====
/-
  The body at a last column tile (j = 15): as at a middle tile, and then the accumulator is copied into the row-sum
  window's buffer.
-/
import proofs.«181554_j91190745628895_2_alg».proof.Proof.K.RunMid

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a last column tile, with the body's run: the row-sum window's buffer, arriving
    at anything, is written too. -/
noncomputable def runLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) :
    Σ' (L4 : List (View.Piece (Elt F) S1024x512 .f32)) (L5 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.Kernel.Pair

end
-- ==== Proof.K.Points.lean ====
/-
  What the region computes, point by point, and its run. After the body at grid point t (row tile t / 16, column tile
  t % 16) the prediction window's buffer holds the tile's prediction, the accumulator holds the row sums of squared
  residuals of the column tiles 0 … t % 16 of the row tile, and at a last column tile the row-sum window's buffer holds
  that accumulator. The proof data say so by recursion on the point; the body obligation takes the case the point is in
  and applies that case's run; the run of the whole program follows from the launch theorem for windows that share an
  array, the normalised embedding's full share dealt in two halves to the two windows that read it.
-/
import proofs.«181554_j91190745628895_2_alg».proof.Proof.K.RunLast

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What stands for the row-sum window's contents at a point that stores nothing into it: never consulted (the window
    is idle there and not written back). -/
def noRows : Vec F S1024x1 .f32 := VO5.read (Elt F) VO5.junk

/-- The prediction tile the body leaves at a first column tile: its pieces read back. -/
def predFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) : Vec F S1024x512 .f32 :=
  VO4.read (Elt F) (VO4.writes (Elt F) VO4.junk (runFirst c i arg2 harg2 arg3 harg3 arg4 harg4 arg5 harg5 arg6 harg6 arg7 harg7 arg8 harg8 hc0 hc1 x0 x1 x2 x3).1)
/-- Those pieces cover the tile (one store of the whole tile). -/
theorem predCoverFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) (y : S1024x512.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S1024x512.size (by sl_kernel_rfl) y
/-- The accumulator the body leaves at a first column tile. -/
def accFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) : Vec F S1024x1 .f32 :=
  VAcc.read (Elt F) (VAcc.writes (Elt F) VAcc.junk (runFirst c i arg2 harg2 arg3 harg3 arg4 harg4 arg5 harg5 arg6 harg6 arg7 harg7 arg8 harg8 hc0 hc1 x0 x1 x2 x3).2.2.1)
theorem accCoverFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) (y : S1024x1.Idx) :
    ∃ pc ∈ (runFirst c i arg2 harg2 arg3 harg3 arg4 harg4 arg5 harg5 arg6 harg6 arg7 harg7 arg8 harg8 hc0 hc1 x0 x1 x2 x3).2.2.1, y ∈ pc.1.set :=
  View.cover_of_tiledL (runFirst c i arg2 harg2 arg3 harg3 arg4 harg4 arg5 harg5 arg6 harg6 arg7 harg7 arg8 harg8 hc0 hc1 x0 x1 x2 x3).2.2.1 S1024x1.size (by sl_kernel_rfl) y

/-- The prediction tile the body leaves at a mid column tile: its pieces read back. -/
def predMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) : Vec F S1024x512 .f32 :=
  VO4.read (Elt F) (VO4.writes (Elt F) VO4.junk (runMid c i arg2 harg2 arg3 harg3 arg4 harg4 arg5 harg5 arg6 harg6 arg7 harg7 arg8 harg8 hc0 hc1 x0 x1 x2 x3 xs).1)
/-- Those pieces cover the tile (one store of the whole tile). -/
theorem predCoverMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) (y : S1024x512.Idx) :
    ∃ pc ∈ (runMid c i arg2 harg2 arg3 harg3 arg4 harg4 arg5 harg5 arg6 harg6 arg7 harg7 arg8 harg8 hc0 hc1 x0 x1 x2 x3 xs).1, y ∈ pc.1.set :=
  View.cover_of_tiledL (runMid c i arg2 harg2 arg3 harg3 arg4 harg4 arg5 harg5 arg6 harg6 arg7 harg7 arg8 harg8 hc0 hc1 x0 x1 x2 x3 xs).1 S1024x512.size (by sl_kernel_rfl) y
/-- The accumulator the body leaves at a mid column tile. -/
def accMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) : Vec F S1024x1 .f32 :=
  VAcc.read (Elt F) (VAcc.writes (Elt F) VAcc.junk (runMid c i arg2 harg2 arg3 harg3 arg4 harg4 arg5 harg5 arg6 harg6 arg7 harg7 arg8 harg8 hc0 hc1 x0 x1 x2 x3 xs).2.2.1)
theorem accCoverMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) (y : S1024x1.Idx) :
    ∃ pc ∈ (runMid c i arg2 harg2 arg3 harg3 arg4 harg4 arg5 harg5 arg6 harg6 arg7 harg7 arg8 harg8 hc0 hc1 x0 x1 x2 x3 xs).2.2.1, y ∈ pc.1.set :=
  View.cover_of_tiledL (runMid c i arg2 harg2 arg3 harg3 arg4 harg4 arg5 harg5 arg6 harg6 arg7 harg7 arg8 harg8 hc0 hc1 x0 x1 x2 x3 xs).2.2.1 S1024x1.size (by sl_kernel_rfl) y

/-- The prediction tile the body leaves at a last column tile: its pieces read back. -/
def predLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) : Vec F S1024x512 .f32 :=
  VO4.read (Elt F) (VO4.writes (Elt F) VO4.junk (runLast c i arg2 harg2 arg3 harg3 arg4 harg4 arg5 harg5 arg6 harg6 arg7 harg7 arg8 harg8 hc0 hc1 x0 x1 x2 x3 xs).1)
/-- Those pieces cover the tile (one store of the whole tile). -/
theorem predCoverLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) (y : S1024x512.Idx) :
    ∃ pc ∈ (runLast c i arg2 harg2 arg3 harg3 arg4 harg4 arg5 harg5 arg6 harg6 arg7 harg7 arg8 harg8 hc0 hc1 x0 x1 x2 x3 xs).1, y ∈ pc.1.set :=
  View.cover_of_tiledL (runLast c i arg2 harg2 arg3 harg3 arg4 harg4 arg5 harg5 arg6 harg6 arg7 harg7 arg8 harg8 hc0 hc1 x0 x1 x2 x3 xs).1 S1024x512.size (by sl_kernel_rfl) y
/-- The accumulator the body leaves at a last column tile. -/
def accLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) : Vec F S1024x1 .f32 :=
  VAcc.read (Elt F) (VAcc.writes (Elt F) VAcc.junk (runLast c i arg2 harg2 arg3 harg3 arg4 harg4 arg5 harg5 arg6 harg6 arg7 harg7 arg8 harg8 hc0 hc1 x0 x1 x2 x3 xs).2.2.1)
theorem accCoverLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs).2.2.1, y ∈ pc.1.set :=
  View.cover_of_tiledL (runLast c i arg2 harg2 arg3 harg3 arg4 harg4 arg5 harg5 arg6 harg6 arg7 harg7 arg8 harg8 hc0 hc1 x0 x1 x2 x3 xs).2.2.1 S1024x1.size (by sl_kernel_rfl) y

/-- The row sums the body copies out at a last column tile. -/
def rowsLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) : Vec F S1024x1 .f32 :=
  VO5.read (Elt F) (VO5.writes (Elt F) VO5.junk (runLast c i arg2 harg2 arg3 harg3 arg4 harg4 arg5 harg5 arg6 harg6 arg7 harg7 arg8 harg8 hc0 hc1 x0 x1 x2 x3 xs).2.1)
theorem rowsCoverLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs).2.1, y ∈ pc.1.set :=
  View.cover_of_tiledL (runLast c i arg2 harg2 arg3 harg3 arg4 harg4 arg5 harg5 arg6 harg6 arg7 harg7 arg8 harg8 hc0 hc1 x0 x1 x2 x3 xs).2.1 S1024x1.size (by sl_kernel_rfl) y

/-! ## Point by point -/

/-- After the body at position n: the prediction window's buffer, the row-sum window's buffer, the accumulator. -/
def outsAt (c : Dev nD) : (n : ℕ) → n < cfg0.N → Vec F S1024x512 .f32 × Vec F S1024x1 .f32 × Vec F S1024x1 .f32
  | 0, hn => (predFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondFirst ⟨0, hn⟩).mpr (Nat.zero_mod _)) (fun h => absurd ((hcondLast ⟨0, hn⟩).mp h) (by show ¬0 % 16 = 15; omega)) (iblk m c 0 ⟨0, hn⟩) (iblk m c 1 ⟨0, hn⟩) (iblk m c 2 ⟨0, hn⟩) (iblk m c 3 ⟨0, hn⟩), noRows, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondFirst ⟨0, hn⟩).mpr (Nat.zero_mod _)) (fun h => absurd ((hcondLast ⟨0, hn⟩).mp h) (by show ¬0 % 16 = 15; omega)) (iblk m c 0 ⟨0, hn⟩) (iblk m c 1 ⟨0, hn⟩) (iblk m c 2 ⟨0, hn⟩) (iblk m c 3 ⟨0, hn⟩))
  | n + 1, hn =>
    if h0 : (n + 1) % 16 = 0 then
      (predFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondFirst ⟨n + 1, hn⟩).mpr h0) (fun h => absurd ((hcondLast ⟨n + 1, hn⟩).mp h) (by show ¬(n + 1) % 16 = 15; omega)) (iblk m c 0 ⟨n + 1, hn⟩) (iblk m c 1 ⟨n + 1, hn⟩) (iblk m c 2 ⟨n + 1, hn⟩) (iblk m c 3 ⟨n + 1, hn⟩), noRows, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondFirst ⟨n + 1, hn⟩).mpr h0) (fun h => absurd ((hcondLast ⟨n + 1, hn⟩).mp h) (by show ¬(n + 1) % 16 = 15; omega)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (predLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2, rowsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2)
      else
        (predMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2, noRows, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2)

theorem outsAt_first (c : Dev nD) (t : Fin cfg0.N) (h0 : t.val % 16 = 0) (h1 : ¬t.val % 16 = 15) :
    outsAt m c t.val t.isLt = (predFirst c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t), noRows, accFirst c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (dif_pos h0).trans rfl

theorem outsAt_mid (c : Dev nD) (t : Fin cfg0.N) (h0 : ¬t.val % 16 = 0) (h1 : ¬t.val % 16 = 15) :
    outsAt m c t.val t.isLt = (predMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.2, noRows, accMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 16 = 0) (h1 : t.val % 16 = 15) :
    outsAt m c t.val t.isLt = (predLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2, rowsLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2, accLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulator holds anything; afterwards what
    the point before left in it. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2.2)) ∗ (∃ r, prngReg c r)) := by
  cases n with
  | zero => exact absurd rfl hz
  | succ n => rfl

/-! ## The proof data -/

/-- The arrays as the region finds them; after the body at point t each input's buffer at its block, the prediction
    window's and the row-sum window's at outsAt; the two windows on the normalised embedding hold it at half the full
    share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

end Cert.Kernel.Pair

end
-- ==== Proof.K.Region.lean ====
/-
  The body obligation of the pairwise-loss region at every grid point, and the run of the whole program: every weakly
  fair execution terminates, the prediction and the row sums end at what the proof data compute point by point, and
  every buffer the region does not touch ends as the five host operations after it leave it.
-/
import proofs.«181554_j91190745628895_2_alg».proof.Proof.K.Points

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the point is a first, a middle or a last column tile;
    that case's run applies, the accumulator arriving at what the point before left (at anything at the very first
    point, and at a first column tile it is zeroed whatever it held). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases h0 : t.val % 16 = 0
  · have h1 : ¬t.val % 16 = 15 := by omega
    rw [Dat.leavesExact_idle (dats m 0 c) 5 t (idle5 t (fun h => h1 ((hcondLast t).mp h))) (noFlush5 t (fun h => h1 ((hcondLast t).mp h)))]
    rw [outsAt_first m c t h0 h1]
    unfold predFirst accFirst; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverFirst c _ _ _ _ _ _ _ _ _ _ _ _ _ _ _ _ _ _ _ _ _)
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverFirst c _ _ _ _ _ _ _ _ _ _ _ _ _ _ _ _ _ _ _ _ _)
      iexists _; iexact H5
  · have hz : t.val ≠ 0 := fun h => h0 (by rw [h])
    by_cases h1 : t.val % 16 = 15
    · rw [show (dats m 0 c).leavesExact 5 t = owns (c : Thread nD τ) (ms5 t) fullShare ((dats m 0 c).after 5 t) from by
        unfold Dat.leavesExact; rw [live5 t ((hcondLast t).mpr h1)], after5]
      rw [outsAt_last m c t h0 h1]
      unfold predLast accLast rowsLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((hcondFirst t).mp h)) ((hcondLast t).mpr h1) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverLast c _ _ _ _ _ _ _ _ _ _ _ _ _ _ _ _ _ _ _ _ _ _)
      unfold owns; iexists _; isplitr
      swap; · iexact H5
      ipureintro; exact View.read_writes_of_cover _ _ _ _ _ (rowsCoverLast c _ _ _ _ _ _ _ _ _ _ _ _ _ _ _ _ _ _ _ _ _ _)
    · rw [Dat.leavesExact_idle (dats m 0 c) 5 t (idle5 t (fun h => h1 ((hcondLast t).mp h))) (noFlush5 t (fun h => h1 ((hcondLast t).mp h)))]
      rw [outsAt_mid m c t h0 h1]
      unfold predMid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((hcondFirst t).mp h)) (fun h => h1 ((hcondLast t).mp h)) (iblk m c 0 t) (iblk m c 1 t) (iblk m c 2 t) (iblk m c 3 t) _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (accCoverMid c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverMid c _ _ _ _ _ _ _ _ _ _ _ _ _ _ _ _ _ _ _ _ _ _)
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Pair

end
-- ==== Proof.K.Prefix.lean ====
/-
  The host operations before the region write 250 buffers of their own, each once; every other buffer — the thirteen
  argument arrays among them — holds, when the region is entered, what it held at the launch.
-/
import proofs.«181554_j91190745628895_2_alg».proof.Proof.Gen.Kernel.Launch
import Idealize.ShloMosaic.Lib.StableHlo.Run

set_option maxRecDepth 16384

noncomputable section

namespace Cert.Kernel.Pair

open Idealize.ShloMosaic Idealize.ShloMosaic.TcCoe Idealize.SL.Sem
open Cert.Kernel Cert.Kernel.Gen

variable {F : FTy → Type} [FloatOps F]

/-- The buffers the host operations before the region write, in order. -/
abbrev prefixWrites : List (Ref sig .tc) := [main_v0, main_v1, main_v2, main_v3, main_v4, main_v5, main_v6, main_c, main_v7, main_v8, main_c_0, main_v9, main_v10, main_v11, main_v12, main_v13, main_cst, main_v14, main_v15, main_v16, main_cst_1, main_v17, main_cst_2, main_v18, main_v19, main_v20, main_cst_3, main_v21, main_v22, main_v23, main_v24, main_v25, main_v26, main_v27, main_v28, main_v29, main_v30, main_cst_4, main_v31, main_v32, main_v33, main_cst_5, main_v34, main_v35, main_v36, main_v37, main_v38, main_v39, main_v40, main_v41, main_v42, main_v43, main_v44, main_v45, main_c_6, main_v46, main_v47, main_c_7, main_v48, main_v49, main_v50, main_v51, main_v52, main_cst_8, main_v53, main_v54, main_v55, main_cst_9, main_v56, main_cst_10, main_v57, main_v58, main_v59, main_cst_11, main_v60, main_v61, main_v62, main_v63, main_v64, main_v65, main_v66, main_v67, main_v68, main_v69, main_cst_12, main_v70, main_v71, main_v72, main_cst_13, main_v73, main_v74, main_v75, main_v76, main_v77, main_v78, main_v79, main_v80, main_v81, main_c_14, main_v82, main_v83, main_c_15, main_v84, main_v85, main_v86, main_v87, main_v88, main_cst_16, main_v89, main_v90, main_v91, main_cst_17, main_v92, main_cst_18, main_v93, main_v94, main_v95, main_cst_19, main_v96, main_v97, main_v98, main_v99, main_v100, main_v101, main_v102, main_v103, main_c_20, main_v104, main_v105, main_c_21, main_v106, main_v107, main_v108, main_v109, main_v110, main_cst_22, main_v111, main_v112, main_v113, main_cst_23, main_v114, main_cst_24, main_v115, main_v116, main_v117, main_cst_25, main_v118, main_v119, main_v120, main_v121, main_v122, main_v123, main_v124, main_v125, main_v126, main_v127, main_cst_26, main_v128, main_v129, main_v130, main_cst_27, main_v131, main_v132, main_v133, main_v134, main_v135, main_v136, main_v137, main_v138, main_v139, main_c_28, main_v140, main_v141, main_c_29, main_v142, main_v143, main_v144, main_v145, main_v146, main_cst_30, main_v147, main_v148, main_v149, main_cst_31, main_v150, main_cst_32, main_v151, main_v152, main_v153, main_cst_33, main_v154, main_v155, main_v156, main_v157, main_v158, main_v159, main_v160, main_v161, main_c_34, main_v162, main_v163, main_c_35, main_v164, main_v165, main_v166, main_v167, main_v168, main_cst_36, main_v169, main_v170, main_v171, main_cst_37, main_v172, main_cst_38, main_v173, main_v174, main_v175, main_cst_39, main_v176, main_v177, main_v178, main_v179, main_v180, main_v181, main_v182, main_v183, main_v184, main_v185, main_cst_40, main_v186, main_v187, main_v188, main_cst_41, main_v189, main_v190, main_v191, main_v192, main_v193, main_v194, main_v195, main_cst_42, main_v196, main_v197, main_v198, main_cst_43, main_v199, main_v200, main_v201, main_v202, main_v203]

set_option maxHeartbeats 40000000 in
theorem hostOps0_writes : (hostOps0 : List (HloOp τ sig (Elt F))).Forall fun op => op.writes ⊆ (prefixWrites.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩

/-- A buffer the host operations before the region do not write keeps its contents through them. -/
theorem prefix_keep (Vv : Valuation τ sig (Elt F)) (r : Ref sig .tc) (h : r ∉ prefixWrites) :
    StableHlo.after hostOps0 Vv (Proc.devRef .tc r) = Vv (Proc.devRef .tc r) :=
  StableHlo.after_of_writes_sub hostOps0 _ hostOps0_writes h

end Cert.Kernel.Pair

end
-- ==== Proof.K.Whole.lean ====
/-
  The run of the whole program and its frame. The normalised embedding is read through two windows; its buffer, whole at
  the full share when the region is entered, is the same buffer at the left and at the right half share, one for each of
  the two windows. The five host operations after the region read the prediction and the row sums (whose windows are
  alone on their arrays) and write buffers of their own; no argument array is written anywhere.
-/
import proofs.«181554_j91190745628895_2_alg».proof.Proof.K.Region
import proofs.«181554_j91190745628895_2_alg».proof.Proof.K.Prefix

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

abbrev outWins : Finset (Fin 6) := {4, 5}

theorem tail_sub : ∀ ops ∈ ([hostOps1] : List (List (HloOp τ sig (Elt F)))), ∀ op ∈ ops,
    op.bufs ⊆ Pipeline.tailRefsOn sig spec0 outWins := by
  intro ops hops op hop
  simp only [List.mem_cons, List.mem_nil_iff, or_false] at hops
  subst hops
  refine Pipeline.sub_tailRefsOn spec0 _ op ((List.forall_iff_forall_mem.mp hostOps1_sub) op hop) ?_
  intro w hw hmem
  exfalso
  simp only [hostOps1, List.mem_cons, List.mem_nil_iff, or_false] at hop
  rcases hop with rfl | rfl | rfl | rfl | rfl <;>
    (simp only [StableHlo.nullary_bufs, StableHlo.binary_bufs, StableHlo.reshape_bufs, Finset.mem_insert, Finset.mem_singleton] at hmem
     fin_cases w <;> first
       | exact hw (by decide)
       | (rcases hmem with h | h | h <;> exact StableHlo.devRef_ne_of_ne (by decide) h)
       | (rcases hmem with h | h <;> exact StableHlo.devRef_ne_of_ne (by decide) h)
       | exact StableHlo.devRef_ne_of_ne (by decide) hmem)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem tail_keeps : ∀ ops ∈ ([hostOps1] : List (List (HloOp τ sig (Elt F)))), ∀ op ∈ ops,
    ∀ w ∈ outWins, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w _; fin_cases w <;> simp only [StableHlo.nullary_writes, StableHlo.binary_writes, StableHlo.reshape_writes, Finset.mem_singleton] <;> exact StableHlo.devRef_ne_of_ne (by decide)

/-! ## The contents when the region is left -/

/-- A window that is alone on its array reads its own entry of an override at the arrays. -/
theorem withArrays_alone (c : Dev nD) (Vv : Valuation τ sig (Elt F))
    (A : (w : Fin 6) → Buf (Elt F) ((spec0 w).arr.view.loc (c.tc : Thread nD τ))) (w : Fin 6)
    (hw : ∀ w', Pipeline.arrRef spec0 w' = Pipeline.arrRef spec0 w → w' = w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 6) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := hw w' (Proc.devRef_injective _ e)
  rfl

/-- The buffers' contents when the region is left: the prediction and the row sums as the write-backs left them, every
    other buffer as the region found it. -/
def W1 (c : Dev nD) : Valuation τ sig (Elt F) :=
  Pipeline.withArrays spec0 c (V0 m c) (fun w => (dats m 0 c).arrAt w cfg0.N)

theorem W1_out (c : Dev nD) : ∀ w ∈ outWins, W1 m c (Proc.devRef .tc (Pipeline.arrRef spec0 w)) = (dats m 0 c).arrAt w cfg0.N := by
  intro w hw
  refine withArrays_alone c _ _ w ?_
  rcases Finset.mem_insert.mp hw with rfl | hw
  · decide
  · obtain rfl := Finset.mem_singleton.mp hw; decide

theorem W1_rest (c : Dev nD) : ∀ b ∈ Pipeline.restRefs sig spec0, W1 m c (Proc.devRef .tc b) = V0 m c (Proc.devRef .tc b) :=
  fun b hb => Pipeline.withArrays_of_ne spec0 c _ _ b
    (fun w e => (Finset.mem_sdiff.mp hb).2 (Finset.mem_image.mpr ⟨w, Finset.mem_univ _, e⟩))

/-! ## The shared array's share, dealt -/

/-- The five distinct buffers behind the six windows, one by one. -/
theorem bigSep_arrs {M : Type} [URA M] (Φ : Ref sig .tc → sProp M) :
    bigSep (Finset.univ.image (Pipeline.arrRef spec0)) Φ
      = iprop(Φ main_v202 ∗ Φ main_arg4 ∗ Φ main_v203 ∗ Φ main_v204_0 ∗ Φ main_v204_1) :=
  BI.bigSep_eq_bigSepL_of_eq [main_v202, main_arg4, main_v203, main_v204_0, main_v204_1] (by decide) (by decide) Φ

set_option maxHeartbeats 4000000 in
theorem hsplit (c : Dev nD) : (Pipeline.arrBufs spec0 c (fun b => V0 m c (Proc.devRef .tc b)) : sProp 𝕄)
    ⊢ (dats m 0 c).arrays ((dats m 0 c).arrAt · 0) := by
  unfold Pipeline.arrBufs Dat.arrays
  rw [bigSep_W0]
  rw [bigSep_arrs]
  rw [(arr_whole0 0).set_eq_univ, (arr_whole0 2).set_eq_univ, (arr_whole0 3).set_eq_univ,
    (arr_whole0 4).set_eq_univ, (arr_whole0 5).set_eq_univ]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]
  iintro ⟨HX, HM, HL, HP, HR⟩
  ihave HX := (pointsTo_share (PosShare.mem_left_op_right fullShare)).1 $$ HX
  icases HX with ⟨HXl, HXr⟩
  isplitl [HXl]; · iexact HXl
  isplitl [HXr]; · iexact HXr
  isplitl [HM]; · iexact HM
  isplitl [HL]; · iexact HL
  isplitl [HP]; · iexact HP
  iexact HR

/-! ## The run -/

set_option backward.isDefEq.respectTransparency.types false in
/-- Every weakly fair execution of the program terminates; every array of the region ends at what the proof data compute
    and every other unscoped buffer as the host operations after the region leave it. -/
theorem run_main : θ_run defs (onTc (τ := τ) (main (F := F))) (s₀ m ρ)
    (Pipeline.FramePost cfgs (dats m) 0 (fun c b => StableHlo.after (List.flatten [hostOps1]) (W1 m c) (Proc.devRef .tc b))) :=
  Pipeline.θ_run_frame_split_around_track cfgs (0 : Fin 1) defs₀ Variants.none (dats m) cellOf_inj winFacts₀0 block_pos0 arr_whole0 stage_whole0
    m ρ main (hbody := fun c => (body_obligation m c).loose) (howed := fun _ _ => rfl) (V₀ := V0 m) (opss := [hostOps1])
    (hmain := hmain m Variants.none) (hsplit := hsplit m) (O := outWins)
    (hO := by
      intro a ha b hb h
      simp only [outWins, Finset.coe_insert, Finset.coe_singleton, Set.mem_insert_iff, Set.mem_singleton_iff] at ha hb
      rcases ha with rfl | rfl <;> rcases hb with rfl | rfl <;> first | rfl | exact absurd h (by decide))
    (hOshare := fun c w hw => by
      rcases Finset.mem_insert.mp hw with rfl | hw
      · rfl
      · obtain rfl := Finset.mem_singleton.mp hw; rfl)
    (W₁ := W1 m) (hW₁O := W1_out m) (hW₁rest := W1_rest m)
    (hsub := tail_sub) (hfresh := tail_fresh) (hkeep := tail_keeps) (hin := hin m) (hout := hout m)

/-! ## The frame -/

/-- A buffer the host operations before the region do not write holds, when the region is entered, its launch contents. -/
theorem V0_arg (c : Dev nD) (a : Ref sig .tc) (ha : a ∉ prefixWrites) :
    V0 m c (Proc.devRef .tc a) = m ((c.tc : Thread nD τ).loc a) := by
  dsimp only [V0]
  simp only [List.flatten_cons, List.flatten_nil, List.append_nil]
  exact prefix_keep _ a ha

theorem tail_writes : (hostOps1 : List (HloOp τ sig (Elt F))).Forall fun op => op.writes ⊆ (([main_cst_44, main_v205, main_cst_45, main_v206, main_v207] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩

/-- An argument array that is no window's array ends at its launch contents: no host operation, before or after the
    region, writes it, and the region passes it by. -/
theorem arg_kept (c : Dev nD) (a : Ref sig .tc) (ha : a ∉ prefixWrites) (ha1 : a ∉ ([main_cst_44, main_v205, main_cst_45, main_v206, main_v207] : List (Ref sig .tc))) (hs : a.isScoped = false)
    (hw : ∀ w, (spec0 w).arr.view.ref ≠ a) (r : PUnit × MemSt nD τ sig (Elt F))
    (h : Pipeline.FramePost cfgs (dats m) 0 (fun c b => StableHlo.after (List.flatten [hostOps1]) (W1 m c) (Proc.devRef .tc b)) r) :
    r.2.mem ((c.tc : Thread nD τ).loc a) = m ((c.tc : Thread nD τ).loc a) :=
  ((h c).2 a (Pipeline.mem_restRefs_of a hs hw)).trans (by
    simp only [List.flatten_cons, List.flatten_nil, List.append_nil]
    exact (StableHlo.after_of_writes_sub hostOps1 _ tail_writes ha1).trans
      ((W1_rest m c a (Pipeline.mem_restRefs_of a hs hw)).trans (V0_arg m c a ha)))

/-- The program runs to the end, faults nowhere, and leaves its thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨arg_kept m c main_arg0 (by decide) (by decide) rfl (by decide) r h,
    arg_kept m c main_arg1 (by decide) (by decide) rfl (by decide) r h,
    arg_kept m c main_arg2 (by decide) (by decide) rfl (by decide) r h,
    arg_kept m c main_arg3 (by decide) (by decide) rfl (by decide) r h,
    ((h c).1 2).trans (((dats m 0 c).arrAt_in 2 rfl _).trans ((A_eq m c 2).trans (V0_arg m c main_arg4 (by decide)))),
    arg_kept m c main_arg5 (by decide) (by decide) rfl (by decide) r h,
    arg_kept m c main_arg6 (by decide) (by decide) rfl (by decide) r h,
    arg_kept m c main_arg7 (by decide) (by decide) rfl (by decide) r h,
    arg_kept m c main_arg8 (by decide) (by decide) rfl (by decide) r h,
    arg_kept m c main_arg9 (by decide) (by decide) rfl (by decide) r h,
    arg_kept m c main_arg10 (by decide) (by decide) rfl (by decide) r h,
    arg_kept m c main_arg11 (by decide) (by decide) rfl (by decide) r h,
    arg_kept m c main_arg12 (by decide) (by decide) rfl (by decide) r h⟩) (run_main m ρ)

end Cert.Kernel.Pair

end
-- ==== Proof.KI.Runs.lean ====
/-
  The pairwise-loss region of the program: a grid of 8 row tiles by 16 column tiles; at tile (i, j) the body reads the
  row tile i of the normalised embedding (1024 × 128), rows 512·j … 512·j+511 of the whole embedding kept resident
  (the same array, handed to the region a second time), the (i, j) tiles of the mask and of the labels, writes the
  (i, j) tile of the prediction, and adds the tile's row sums of squared residuals to a 1024 × 1 accumulator kept in
  scratch, which is zeroed at j = 0 and copied to the row-sum output at j = 15.
  This module holds what the three control cases (j = 0, 0 < j < 15, j = 15) share: the contents of the buffers when
  the region is entered, the program around the region, each input window's block, the closed forms of the two
  conditions, and where the row-sum window is idle.
-/
import proofs.«181554_j91190745628895_2_alg».proof.Proof.Gen.KernelIdeal.Launch
import proofs.«181554_j91190745628895_2_alg».proof.Proof.Gen.KernelIdeal.Skeleton
import proofs.«181554_j91190745628895_2_alg».proof.Proof.Gen.KernelIdeal.Points
import proofs.«181554_j91190745628895_2_alg».proof.Proof.LibSharedFrameTrack
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents on core c when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host operations before the region, the region, and the five host operations after it; it
    reduces to the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (where it is not fetched its block index has not moved), for any proof data whose array is the region-entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column tile" (j = 0), from the grid coordinates. -/
abbrev condFirst (i : grid0.Coords) : Prop := (Scalar.cmpi .ne (Scalar.extui (Scalar.cmpi .eq (BitVec.ofNat 32 (i 1).val) 0#32)) 0#32) = 1#1
/-- It holds at the points ≡ 0 (mod 16). -/
theorem hcondFirst : ∀ t : Fin cfg0.N, condFirst (grid0.coords t) ↔ t.val % 16 = 0 :=
  (by decide +kernel : ∀ t : Fin grid0.N, condFirst (grid0.coords t) ↔ t.val % 16 = 0)

/-- "This is the last column tile" (j = 15). -/
abbrev condLast (i : grid0.Coords) : Prop := k0_cond2 i = 1#1
/-- It holds at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last column tile the body stores nothing into the row-sum window, and the pipeline does not write it back. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
/-- At the last column tile it stores into it. -/
theorem live5 : ∀ t : Fin cfg0.N, condLast (grid0.coords t) → cfg0.idle 5 (grid0.coords t) = false := by decide +kernel

/-! ## The memrefs the body is called with -/

abbrev VO4 : View sig .tc .vmem S1024x512 .f32 := (Memref.whole cc0_stg4_0 : Memref sig .tc .vmem S1024x512 .f32).view
abbrev VO5 : View sig .tc .vmem S1024x1 .f32 := (Memref.whole cc0_stg5_0 : Memref sig .tc .vmem S1024x1 .f32).view
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S1024x1 .f32 := Memref.whole cc0_scratch0
abbrev VAcc : View sig .tc .vmem S1024x1 .f32 := accM.view

/-- The class's invariant with the accumulator as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Pair

end
-- ==== Proof.KI.RunFirst.lean ====
/-
  The body at a first column tile (j = 0): the accumulator is zeroed, the tile of the prediction is stored, the tile's
  row sums of squared residuals are added to the zeroed accumulator; nothing is stored into the row-sum window.
-/
import proofs.«181554_j91190745628895_2_alg».proof.Proof.KI.Runs

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the prediction window's buffer and in the accumulator at a first column tile,
    with the body's run: from the inputs' buffers at their contents, the prediction window's at anything, the row-sum
    window's at contents handed back untouched and the accumulator at anything, to the continuation holding the
    inputs as they were and the two written buffers with their pieces written. The pieces are found by the run. -/
noncomputable def runFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) :
    Σ' (L4 : List (View.Piece (Elt F) S1024x512 .f32)) (L5 : List (View.Piece (Elt F) S1024x1 .f32)), { LS : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, [], ?_, fun xi5 E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.KernelIdeal.Pair

end
-- ==== Proof.KI.RunMid.lean ====
/-
  The body at a middle column tile (0 < j < 15): the tile of the prediction is stored and the tile's row sums of
  squared residuals are added to the accumulator as the tile before left it.
-/
import proofs.«181554_j91190745628895_2_alg».proof.Proof.KI.RunFirst

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a middle column tile, with the body's run: as at a first tile, the accumulator
    now arriving at the contents xs the tile before left. -/
noncomputable def runMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) :
    Σ' (L4 : List (View.Piece (Elt F) S1024x512 .f32)) (L5 : List (View.Piece (Elt F) S1024x1 .f32)), { LS : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, [], ?_, fun xi5 E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.KernelIdeal.Pair

end
-- ==== Proof.KI.RunLast.lean ====
/-
  The body at a last column tile (j = 15): as at a middle tile, and then the accumulator is copied into the row-sum
  window's buffer.
-/
import proofs.«181554_j91190745628895_2_alg».proof.Proof.KI.RunMid

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a last column tile, with the body's run: the row-sum window's buffer, arriving
    at anything, is written too. -/
noncomputable def runLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) :
    Σ' (L4 : List (View.Piece (Elt F) S1024x512 .f32)) (L5 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.KernelIdeal.Pair

end
-- ==== Proof.KI.Points.lean ====
/-
  What the region computes, point by point, and its run. After the body at grid point t (row tile t / 16, column tile
  t % 16) the prediction window's buffer holds the tile's prediction, the accumulator holds the row sums of squared
  residuals of the column tiles 0 … t % 16 of the row tile, and at a last column tile the row-sum window's buffer holds
  that accumulator. The proof data say so by recursion on the point; the body obligation takes the case the point is in
  and applies that case's run; the run of the whole program follows from the launch theorem for windows that share an
  array, the normalised embedding's full share dealt in two halves to the two windows that read it.
-/
import proofs.«181554_j91190745628895_2_alg».proof.Proof.KI.RunLast

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What stands for the row-sum window's contents at a point that stores nothing into it: never consulted (the window
    is idle there and not written back). -/
def noRows : Vec F S1024x1 .f32 := VO5.read (Elt F) VO5.junk

/-- The prediction tile the body leaves at a first column tile: its pieces read back. -/
def predFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) : Vec F S1024x512 .f32 :=
  VO4.read (Elt F) (VO4.writes (Elt F) VO4.junk (runFirst c i arg2 harg2 arg3 harg3 arg4 harg4 arg5 harg5 arg6 harg6 arg7 harg7 arg8 harg8 hc0 hc1 x0 x1 x2 x3).1)
/-- Those pieces cover the tile (one store of the whole tile). -/
theorem predCoverFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) (y : S1024x512.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S1024x512.size (by sl_kernel_rfl) y
/-- The accumulator the body leaves at a first column tile. -/
def accFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) : Vec F S1024x1 .f32 :=
  VAcc.read (Elt F) (VAcc.writes (Elt F) VAcc.junk (runFirst c i arg2 harg2 arg3 harg3 arg4 harg4 arg5 harg5 arg6 harg6 arg7 harg7 arg8 harg8 hc0 hc1 x0 x1 x2 x3).2.2.1)
theorem accCoverFirst (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .f32) (x1 : Vec F S8192x128 .f32) (x2 : Vec F S1024x512 .f32) (x3 : Vec F S1024x512 .f32) (y : S1024x1.Idx) :
    ∃ pc ∈ (runFirst c i arg2 harg2 arg3 harg3 arg4 harg4 arg5 harg5 arg6 harg6 arg7 harg7 arg8 harg8 hc0 hc1 x0 x1 x2 x3).2.2.1, y ∈ pc.1.set :=
  View.cover_of_tiledL (runFirst c i arg2 harg2 arg3 harg3 arg4 harg4 arg5 harg5 arg6 harg6 arg7 harg7 arg8 harg8 hc0 hc1 x0 x1 x2 x3).2.2.1 S1024x1.size (by sl_kernel_rfl) y

/-- The prediction tile the body leaves at a mid column tile: its pieces read back. -/
def predMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) : Vec F S1024x512 .f32 :=
  VO4.read (Elt F) (VO4.writes (Elt F) VO4.junk (runMid c i arg2 harg2 arg3 harg3 arg4 harg4 arg5 harg5 arg6 harg6 arg7 harg7 arg8 harg8 hc0 hc1 x0 x1 x2 x3 xs).1)
/-- Those pieces cover the tile (one store of the whole tile). -/
theorem predCoverMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) (y : S1024x512.Idx) :
    ∃ pc ∈ (runMid c i arg2 harg2 arg3 harg3 arg4 harg4 arg5 harg5 arg6 harg6 arg7 harg7 arg8 harg8 hc0 hc1 x0 x1 x2 x3 xs).1, y ∈ pc.1.set :=
  View.cover_of_tiledL (runMid c i arg2 harg2 arg3 harg3 arg4 harg4 arg5 harg5 arg6 harg6 arg7 harg7 arg8 harg8 hc0 hc1 x0 x1 x2 x3 xs).1 S1024x512.size (by sl_kernel_rfl) y
/-- The accumulator the body leaves at a mid column tile. -/
def accMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) : Vec F S1024x1 .f32 :=
  VAcc.read (Elt F) (VAcc.writes (Elt F) VAcc.junk (runMid c i arg2 harg2 arg3 harg3 arg4 harg4 arg5 harg5 arg6 harg6 arg7 harg7 arg8 harg8 hc0 hc1 x0 x1 x2 x3 xs).2.2.1)
theorem accCoverMid (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .f32) (x1 : Vec F S8192x128 .f32) (x2 : Vec F S1024x512 .f32) (x3 : Vec F S1024x512 .f32) (xs : Vec F S1024x1 .f32) (y : S1024x1.Idx) :
    ∃ pc ∈ (runMid c i arg2 harg2 arg3 harg3 arg4 harg4 arg5 harg5 arg6 harg6 arg7 harg7 arg8 harg8 hc0 hc1 x0 x1 x2 x3 xs).2.2.1, y ∈ pc.1.set :=
  View.cover_of_tiledL (runMid c i arg2 harg2 arg3 harg3 arg4 harg4 arg5 harg5 arg6 harg6 arg7 harg7 arg8 harg8 hc0 hc1 x0 x1 x2 x3 xs).2.2.1 S1024x1.size (by sl_kernel_rfl) y

/-- The prediction tile the body leaves at a last column tile: its pieces read back. -/
def predLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) : Vec F S1024x512 .f32 :=
  VO4.read (Elt F) (VO4.writes (Elt F) VO4.junk (runLast c i arg2 harg2 arg3 harg3 arg4 harg4 arg5 harg5 arg6 harg6 arg7 harg7 arg8 harg8 hc0 hc1 x0 x1 x2 x3 xs).1)
/-- Those pieces cover the tile (one store of the whole tile). -/
theorem predCoverLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) (y : S1024x512.Idx) :
    ∃ pc ∈ (runLast c i arg2 harg2 arg3 harg3 arg4 harg4 arg5 harg5 arg6 harg6 arg7 harg7 arg8 harg8 hc0 hc1 x0 x1 x2 x3 xs).1, y ∈ pc.1.set :=
  View.cover_of_tiledL (runLast c i arg2 harg2 arg3 harg3 arg4 harg4 arg5 harg5 arg6 harg6 arg7 harg7 arg8 harg8 hc0 hc1 x0 x1 x2 x3 xs).1 S1024x512.size (by sl_kernel_rfl) y
/-- The accumulator the body leaves at a last column tile. -/
def accLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) : Vec F S1024x1 .f32 :=
  VAcc.read (Elt F) (VAcc.writes (Elt F) VAcc.junk (runLast c i arg2 harg2 arg3 harg3 arg4 harg4 arg5 harg5 arg6 harg6 arg7 harg7 arg8 harg8 hc0 hc1 x0 x1 x2 x3 xs).2.2.1)
theorem accCoverLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs).2.2.1, y ∈ pc.1.set :=
  View.cover_of_tiledL (runLast c i arg2 harg2 arg3 harg3 arg4 harg4 arg5 harg5 arg6 harg6 arg7 harg7 arg8 harg8 hc0 hc1 x0 x1 x2 x3 xs).2.2.1 S1024x1.size (by sl_kernel_rfl) y

/-- The row sums the body copies out at a last column tile. -/
def rowsLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) : Vec F S1024x1 .f32 :=
  VO5.read (Elt F) (VO5.writes (Elt F) VO5.junk (runLast c i arg2 harg2 arg3 harg3 arg4 harg4 arg5 harg5 arg6 harg6 arg7 harg7 arg8 harg8 hc0 hc1 x0 x1 x2 x3 xs).2.1)
theorem rowsCoverLast (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .f32) (x1 : Vec F S8192x128 .f32) (x2 : Vec F S1024x512 .f32) (x3 : Vec F S1024x512 .f32) (xs : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs).2.1, y ∈ pc.1.set :=
  View.cover_of_tiledL (runLast c i arg2 harg2 arg3 harg3 arg4 harg4 arg5 harg5 arg6 harg6 arg7 harg7 arg8 harg8 hc0 hc1 x0 x1 x2 x3 xs).2.1 S1024x1.size (by sl_kernel_rfl) y

/-! ## Point by point -/

/-- After the body at position n: the prediction window's buffer, the row-sum window's buffer, the accumulator. -/
def outsAt (c : Dev nD) : (n : ℕ) → n < cfg0.N → Vec F S1024x512 .f32 × Vec F S1024x1 .f32 × Vec F S1024x1 .f32
  | 0, hn => (predFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondFirst ⟨0, hn⟩).mpr (Nat.zero_mod _)) (fun h => absurd ((hcondLast ⟨0, hn⟩).mp h) (by show ¬0 % 16 = 15; omega)) (iblk m c 0 ⟨0, hn⟩) (iblk m c 1 ⟨0, hn⟩) (iblk m c 2 ⟨0, hn⟩) (iblk m c 3 ⟨0, hn⟩), noRows, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondFirst ⟨0, hn⟩).mpr (Nat.zero_mod _)) (fun h => absurd ((hcondLast ⟨0, hn⟩).mp h) (by show ¬0 % 16 = 15; omega)) (iblk m c 0 ⟨0, hn⟩) (iblk m c 1 ⟨0, hn⟩) (iblk m c 2 ⟨0, hn⟩) (iblk m c 3 ⟨0, hn⟩))
  | n + 1, hn =>
    if h0 : (n + 1) % 16 = 0 then
      (predFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondFirst ⟨n + 1, hn⟩).mpr h0) (fun h => absurd ((hcondLast ⟨n + 1, hn⟩).mp h) (by show ¬(n + 1) % 16 = 15; omega)) (iblk m c 0 ⟨n + 1, hn⟩) (iblk m c 1 ⟨n + 1, hn⟩) (iblk m c 2 ⟨n + 1, hn⟩) (iblk m c 3 ⟨n + 1, hn⟩), noRows, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondFirst ⟨n + 1, hn⟩).mpr h0) (fun h => absurd ((hcondLast ⟨n + 1, hn⟩).mp h) (by show ¬(n + 1) % 16 = 15; omega)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (predLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2, rowsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2)
      else
        (predMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2, noRows, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2)

theorem outsAt_first (c : Dev nD) (t : Fin cfg0.N) (h0 : t.val % 16 = 0) (h1 : ¬t.val % 16 = 15) :
    outsAt m c t.val t.isLt = (predFirst c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t), noRows, accFirst c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (dif_pos h0).trans rfl

theorem outsAt_mid (c : Dev nD) (t : Fin cfg0.N) (h0 : ¬t.val % 16 = 0) (h1 : ¬t.val % 16 = 15) :
    outsAt m c t.val t.isLt = (predMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.2, noRows, accMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 16 = 0) (h1 : t.val % 16 = 15) :
    outsAt m c t.val t.isLt = (predLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2, rowsLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2, accLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulator holds anything; afterwards what
    the point before left in it. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2.2)) ∗ (∃ r, prngReg c r)) := by
  cases n with
  | zero => exact absurd rfl hz
  | succ n => rfl

/-! ## The proof data -/

/-- The arrays as the region finds them; after the body at point t each input's buffer at its block, the prediction
    window's and the row-sum window's at outsAt; the two windows on the normalised embedding hold it at half the full
    share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

end Cert.KernelIdeal.Pair

end
-- ==== Proof.KI.Region.lean ====
/-
  The body obligation of the pairwise-loss region at every grid point, and the run of the whole program: every weakly
  fair execution terminates, the prediction and the row sums end at what the proof data compute point by point, and
  every buffer the region does not touch ends as the five host operations after it leave it.
-/
import proofs.«181554_j91190745628895_2_alg».proof.Proof.KI.Points

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the point is a first, a middle or a last column tile;
    that case's run applies, the accumulator arriving at what the point before left (at anything at the very first
    point, and at a first column tile it is zeroed whatever it held). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases h0 : t.val % 16 = 0
  · have h1 : ¬t.val % 16 = 15 := by omega
    rw [Dat.leavesExact_idle (dats m 0 c) 5 t (idle5 t (fun h => h1 ((hcondLast t).mp h))) (noFlush5 t (fun h => h1 ((hcondLast t).mp h)))]
    rw [outsAt_first m c t h0 h1]
    unfold predFirst accFirst; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverFirst c _ _ _ _ _ _ _ _ _ _ _ _ _ _ _ _ _ _ _ _ _)
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverFirst c _ _ _ _ _ _ _ _ _ _ _ _ _ _ _ _ _ _ _ _ _)
      iexists _; iexact H5
  · have hz : t.val ≠ 0 := fun h => h0 (by rw [h])
    by_cases h1 : t.val % 16 = 15
    · rw [show (dats m 0 c).leavesExact 5 t = owns (c : Thread nD τ) (ms5 t) fullShare ((dats m 0 c).after 5 t) from by
        unfold Dat.leavesExact; rw [live5 t ((hcondLast t).mpr h1)], after5]
      rw [outsAt_last m c t h0 h1]
      unfold predLast accLast rowsLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((hcondFirst t).mp h)) ((hcondLast t).mpr h1) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverLast c _ _ _ _ _ _ _ _ _ _ _ _ _ _ _ _ _ _ _ _ _ _)
      unfold owns; iexists _; isplitr
      swap; · iexact H5
      ipureintro; exact View.read_writes_of_cover _ _ _ _ _ (rowsCoverLast c _ _ _ _ _ _ _ _ _ _ _ _ _ _ _ _ _ _ _ _ _ _)
    · rw [Dat.leavesExact_idle (dats m 0 c) 5 t (idle5 t (fun h => h1 ((hcondLast t).mp h))) (noFlush5 t (fun h => h1 ((hcondLast t).mp h)))]
      rw [outsAt_mid m c t h0 h1]
      unfold predMid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((hcondFirst t).mp h)) (fun h => h1 ((hcondLast t).mp h)) (iblk m c 0 t) (iblk m c 1 t) (iblk m c 2 t) (iblk m c 3 t) _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (accCoverMid c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (predCoverMid c _ _ _ _ _ _ _ _ _ _ _ _ _ _ _ _ _ _ _ _ _ _)
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Pair

end
-- ==== Proof.KI.Prefix.lean ====
/-
  The host operations before the region write 250 buffers of their own, each once; every other buffer — the thirteen
  argument arrays among them — holds, when the region is entered, what it held at the launch.
-/
import proofs.«181554_j91190745628895_2_alg».proof.Proof.Gen.KernelIdeal.Launch
import Idealize.ShloMosaic.Lib.StableHlo.Run

set_option maxRecDepth 16384

noncomputable section

namespace Cert.KernelIdeal.Pair

open Idealize.ShloMosaic Idealize.ShloMosaic.TcCoe Idealize.SL.Sem
open Cert.KernelIdeal Cert.KernelIdeal.Gen

variable {F : FTy → Type} [FloatOps F]

/-- The buffers the host operations before the region write, in order. -/
abbrev prefixWrites : List (Ref sig .tc) := [main_v0, main_v1, main_v2, main_v3, main_v4, main_v5, main_v6, main_c, main_v7, main_v8, main_c_0, main_v9, main_v10, main_v11, main_v12, main_v13, main_cst, main_v14, main_v15, main_v16, main_cst_1, main_v17, main_cst_2, main_v18, main_v19, main_v20, main_cst_3, main_v21, main_v22, main_v23, main_v24, main_v25, main_v26, main_v27, main_v28, main_v29, main_v30, main_cst_4, main_v31, main_v32, main_v33, main_cst_5, main_v34, main_v35, main_v36, main_v37, main_v38, main_v39, main_v40, main_v41, main_v42, main_v43, main_v44, main_v45, main_c_6, main_v46, main_v47, main_c_7, main_v48, main_v49, main_v50, main_v51, main_v52, main_cst_8, main_v53, main_v54, main_v55, main_cst_9, main_v56, main_cst_10, main_v57, main_v58, main_v59, main_cst_11, main_v60, main_v61, main_v62, main_v63, main_v64, main_v65, main_v66, main_v67, main_v68, main_v69, main_cst_12, main_v70, main_v71, main_v72, main_cst_13, main_v73, main_v74, main_v75, main_v76, main_v77, main_v78, main_v79, main_v80, main_v81, main_c_14, main_v82, main_v83, main_c_15, main_v84, main_v85, main_v86, main_v87, main_v88, main_cst_16, main_v89, main_v90, main_v91, main_cst_17, main_v92, main_cst_18, main_v93, main_v94, main_v95, main_cst_19, main_v96, main_v97, main_v98, main_v99, main_v100, main_v101, main_v102, main_v103, main_c_20, main_v104, main_v105, main_c_21, main_v106, main_v107, main_v108, main_v109, main_v110, main_cst_22, main_v111, main_v112, main_v113, main_cst_23, main_v114, main_cst_24, main_v115, main_v116, main_v117, main_cst_25, main_v118, main_v119, main_v120, main_v121, main_v122, main_v123, main_v124, main_v125, main_v126, main_v127, main_cst_26, main_v128, main_v129, main_v130, main_cst_27, main_v131, main_v132, main_v133, main_v134, main_v135, main_v136, main_v137, main_v138, main_v139, main_c_28, main_v140, main_v141, main_c_29, main_v142, main_v143, main_v144, main_v145, main_v146, main_cst_30, main_v147, main_v148, main_v149, main_cst_31, main_v150, main_cst_32, main_v151, main_v152, main_v153, main_cst_33, main_v154, main_v155, main_v156, main_v157, main_v158, main_v159, main_v160, main_v161, main_c_34, main_v162, main_v163, main_c_35, main_v164, main_v165, main_v166, main_v167, main_v168, main_cst_36, main_v169, main_v170, main_v171, main_cst_37, main_v172, main_cst_38, main_v173, main_v174, main_v175, main_cst_39, main_v176, main_v177, main_v178, main_v179, main_v180, main_v181, main_v182, main_v183, main_v184, main_v185, main_cst_40, main_v186, main_v187, main_v188, main_cst_41, main_v189, main_v190, main_v191, main_v192, main_v193, main_v194, main_v195, main_cst_42, main_v196, main_v197, main_v198, main_cst_43, main_v199, main_v200, main_v201, main_v202, main_v203]

set_option maxHeartbeats 40000000 in
theorem hostOps0_writes : (hostOps0 : List (HloOp τ sig (Elt F))).Forall fun op => op.writes ⊆ (prefixWrites.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩

/-- A buffer the host operations before the region do not write keeps its contents through them. -/
theorem prefix_keep (Vv : Valuation τ sig (Elt F)) (r : Ref sig .tc) (h : r ∉ prefixWrites) :
    StableHlo.after hostOps0 Vv (Proc.devRef .tc r) = Vv (Proc.devRef .tc r) :=
  StableHlo.after_of_writes_sub hostOps0 _ hostOps0_writes h

end Cert.KernelIdeal.Pair

end
-- ==== Proof.KI.Whole.lean ====
/-
  The run of the whole program and its frame. The normalised embedding is read through two windows; its buffer, whole at
  the full share when the region is entered, is the same buffer at the left and at the right half share, one for each of
  the two windows. The five host operations after the region read the prediction and the row sums (whose windows are
  alone on their arrays) and write buffers of their own; no argument array is written anywhere.
-/
import proofs.«181554_j91190745628895_2_alg».proof.Proof.KI.Region
import proofs.«181554_j91190745628895_2_alg».proof.Proof.KI.Prefix

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

abbrev outWins : Finset (Fin 6) := {4, 5}

theorem tail_sub : ∀ ops ∈ ([hostOps1] : List (List (HloOp τ sig (Elt F)))), ∀ op ∈ ops,
    op.bufs ⊆ Pipeline.tailRefsOn sig spec0 outWins := by
  intro ops hops op hop
  simp only [List.mem_cons, List.mem_nil_iff, or_false] at hops
  subst hops
  refine Pipeline.sub_tailRefsOn spec0 _ op ((List.forall_iff_forall_mem.mp hostOps1_sub) op hop) ?_
  intro w hw hmem
  exfalso
  simp only [hostOps1, List.mem_cons, List.mem_nil_iff, or_false] at hop
  rcases hop with rfl | rfl | rfl | rfl | rfl <;>
    (simp only [StableHlo.nullary_bufs, StableHlo.binary_bufs, StableHlo.reshape_bufs, Finset.mem_insert, Finset.mem_singleton] at hmem
     fin_cases w <;> first
       | exact hw (by decide)
       | (rcases hmem with h | h | h <;> exact StableHlo.devRef_ne_of_ne (by decide) h)
       | (rcases hmem with h | h <;> exact StableHlo.devRef_ne_of_ne (by decide) h)
       | exact StableHlo.devRef_ne_of_ne (by decide) hmem)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem tail_keeps : ∀ ops ∈ ([hostOps1] : List (List (HloOp τ sig (Elt F)))), ∀ op ∈ ops,
    ∀ w ∈ outWins, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w _; fin_cases w <;> simp only [StableHlo.nullary_writes, StableHlo.binary_writes, StableHlo.reshape_writes, Finset.mem_singleton] <;> exact StableHlo.devRef_ne_of_ne (by decide)

/-! ## The contents when the region is left -/

/-- A window that is alone on its array reads its own entry of an override at the arrays. -/
theorem withArrays_alone (c : Dev nD) (Vv : Valuation τ sig (Elt F))
    (A : (w : Fin 6) → Buf (Elt F) ((spec0 w).arr.view.loc (c.tc : Thread nD τ))) (w : Fin 6)
    (hw : ∀ w', Pipeline.arrRef spec0 w' = Pipeline.arrRef spec0 w → w' = w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 6) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := hw w' (Proc.devRef_injective _ e)
  rfl

/-- The buffers' contents when the region is left: the prediction and the row sums as the write-backs left them, every
    other buffer as the region found it. -/
def W1 (c : Dev nD) : Valuation τ sig (Elt F) :=
  Pipeline.withArrays spec0 c (V0 m c) (fun w => (dats m 0 c).arrAt w cfg0.N)

theorem W1_out (c : Dev nD) : ∀ w ∈ outWins, W1 m c (Proc.devRef .tc (Pipeline.arrRef spec0 w)) = (dats m 0 c).arrAt w cfg0.N := by
  intro w hw
  refine withArrays_alone c _ _ w ?_
  rcases Finset.mem_insert.mp hw with rfl | hw
  · decide
  · obtain rfl := Finset.mem_singleton.mp hw; decide

theorem W1_rest (c : Dev nD) : ∀ b ∈ Pipeline.restRefs sig spec0, W1 m c (Proc.devRef .tc b) = V0 m c (Proc.devRef .tc b) :=
  fun b hb => Pipeline.withArrays_of_ne spec0 c _ _ b
    (fun w e => (Finset.mem_sdiff.mp hb).2 (Finset.mem_image.mpr ⟨w, Finset.mem_univ _, e⟩))

/-! ## The shared array's share, dealt -/

/-- The five distinct buffers behind the six windows, one by one. -/
theorem bigSep_arrs {M : Type} [URA M] (Φ : Ref sig .tc → sProp M) :
    bigSep (Finset.univ.image (Pipeline.arrRef spec0)) Φ
      = iprop(Φ main_v202 ∗ Φ main_arg4 ∗ Φ main_v203 ∗ Φ main_v204_0 ∗ Φ main_v204_1) :=
  BI.bigSep_eq_bigSepL_of_eq [main_v202, main_arg4, main_v203, main_v204_0, main_v204_1] (by decide) (by decide) Φ

set_option maxHeartbeats 4000000 in
theorem hsplit (c : Dev nD) : (Pipeline.arrBufs spec0 c (fun b => V0 m c (Proc.devRef .tc b)) : sProp 𝕄)
    ⊢ (dats m 0 c).arrays ((dats m 0 c).arrAt · 0) := by
  unfold Pipeline.arrBufs Dat.arrays
  rw [bigSep_W0]
  rw [bigSep_arrs]
  rw [(arr_whole0 0).set_eq_univ, (arr_whole0 2).set_eq_univ, (arr_whole0 3).set_eq_univ,
    (arr_whole0 4).set_eq_univ, (arr_whole0 5).set_eq_univ]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]
  iintro ⟨HX, HM, HL, HP, HR⟩
  ihave HX := (pointsTo_share (PosShare.mem_left_op_right fullShare)).1 $$ HX
  icases HX with ⟨HXl, HXr⟩
  isplitl [HXl]; · iexact HXl
  isplitl [HXr]; · iexact HXr
  isplitl [HM]; · iexact HM
  isplitl [HL]; · iexact HL
  isplitl [HP]; · iexact HP
  iexact HR

/-! ## The run -/

set_option backward.isDefEq.respectTransparency.types false in
/-- Every weakly fair execution of the program terminates; every array of the region ends at what the proof data compute
    and every other unscoped buffer as the host operations after the region leave it. -/
theorem run_main : θ_run defs (onTc (τ := τ) (main (F := F))) (s₀ m ρ)
    (Pipeline.FramePost cfgs (dats m) 0 (fun c b => StableHlo.after (List.flatten [hostOps1]) (W1 m c) (Proc.devRef .tc b))) :=
  Pipeline.θ_run_frame_split_around_track cfgs (0 : Fin 1) defs₀ Variants.none (dats m) cellOf_inj winFacts₀0 block_pos0 arr_whole0 stage_whole0
    m ρ main (hbody := fun c => (body_obligation m c).loose) (howed := fun _ _ => rfl) (V₀ := V0 m) (opss := [hostOps1])
    (hmain := hmain m Variants.none) (hsplit := hsplit m) (O := outWins)
    (hO := by
      intro a ha b hb h
      simp only [outWins, Finset.coe_insert, Finset.coe_singleton, Set.mem_insert_iff, Set.mem_singleton_iff] at ha hb
      rcases ha with rfl | rfl <;> rcases hb with rfl | rfl <;> first | rfl | exact absurd h (by decide))
    (hOshare := fun c w hw => by
      rcases Finset.mem_insert.mp hw with rfl | hw
      · rfl
      · obtain rfl := Finset.mem_singleton.mp hw; rfl)
    (W₁ := W1 m) (hW₁O := W1_out m) (hW₁rest := W1_rest m)
    (hsub := tail_sub) (hfresh := tail_fresh) (hkeep := tail_keeps) (hin := hin m) (hout := hout m)

/-! ## The frame -/

/-- A buffer the host operations before the region do not write holds, when the region is entered, its launch contents. -/
theorem V0_arg (c : Dev nD) (a : Ref sig .tc) (ha : a ∉ prefixWrites) :
    V0 m c (Proc.devRef .tc a) = m ((c.tc : Thread nD τ).loc a) := by
  dsimp only [V0]
  simp only [List.flatten_cons, List.flatten_nil, List.append_nil]
  exact prefix_keep _ a ha

theorem tail_writes : (hostOps1 : List (HloOp τ sig (Elt F))).Forall fun op => op.writes ⊆ (([main_cst_44, main_v205, main_cst_45, main_v206, main_v207] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩

/-- An argument array that is no window's array ends at its launch contents: no host operation, before or after the
    region, writes it, and the region passes it by. -/
theorem arg_kept (c : Dev nD) (a : Ref sig .tc) (ha : a ∉ prefixWrites) (ha1 : a ∉ ([main_cst_44, main_v205, main_cst_45, main_v206, main_v207] : List (Ref sig .tc))) (hs : a.isScoped = false)
    (hw : ∀ w, (spec0 w).arr.view.ref ≠ a) (r : PUnit × MemSt nD τ sig (Elt F))
    (h : Pipeline.FramePost cfgs (dats m) 0 (fun c b => StableHlo.after (List.flatten [hostOps1]) (W1 m c) (Proc.devRef .tc b)) r) :
    r.2.mem ((c.tc : Thread nD τ).loc a) = m ((c.tc : Thread nD τ).loc a) :=
  ((h c).2 a (Pipeline.mem_restRefs_of a hs hw)).trans (by
    simp only [List.flatten_cons, List.flatten_nil, List.append_nil]
    exact (StableHlo.after_of_writes_sub hostOps1 _ tail_writes ha1).trans
      ((W1_rest m c a (Pipeline.mem_restRefs_of a hs hw)).trans (V0_arg m c a ha)))

/-- The program runs to the end, faults nowhere, and leaves its thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨arg_kept m c main_arg0 (by decide) (by decide) rfl (by decide) r h,
    arg_kept m c main_arg1 (by decide) (by decide) rfl (by decide) r h,
    arg_kept m c main_arg2 (by decide) (by decide) rfl (by decide) r h,
    arg_kept m c main_arg3 (by decide) (by decide) rfl (by decide) r h,
    ((h c).1 2).trans (((dats m 0 c).arrAt_in 2 rfl _).trans ((A_eq m c 2).trans (V0_arg m c main_arg4 (by decide)))),
    arg_kept m c main_arg5 (by decide) (by decide) rfl (by decide) r h,
    arg_kept m c main_arg6 (by decide) (by decide) rfl (by decide) r h,
    arg_kept m c main_arg7 (by decide) (by decide) rfl (by decide) r h,
    arg_kept m c main_arg8 (by decide) (by decide) rfl (by decide) r h,
    arg_kept m c main_arg9 (by decide) (by decide) rfl (by decide) r h,
    arg_kept m c main_arg10 (by decide) (by decide) rfl (by decide) r h,
    arg_kept m c main_arg11 (by decide) (by decide) rfl (by decide) r h,
    arg_kept m c main_arg12 (by decide) (by decide) rfl (by decide) r h⟩) (run_main m ρ)

end Cert.KernelIdeal.Pair

end
-- ==== Proof.KI.Stages.lean ====
/-
  The host operations before the region, read as named stages: each stage is one buffer's contents as a composed term of the
  argument arrays and of the stages before it (a stage is named when later operations read it more than once). In order:
  the edge lists' rows and columns, the two base layers before normalisation (main_v29, main_v68) and after it
  (main_v38, main_v77), the two deep layers (main_v126, main_v184), their normalised concatenation (main_v194), the
  normalised embedding (main_v202), and the labels laid out as a matrix (main_v203).
-/
import proofs.«181554_j91190745628895_2_alg».proof.Proof.Gen.KernelIdeal.Launch
import Idealize.ShloMosaic.Lib.StableHlo.Run

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
/-- The contents of `main_v4` as a term of the argument arrays and the stages before it. -/
def kres_main_v4 (V0 : Valuation τ sig (Elt F)) : (Proc.devRef .tc main_v4 : DevRef τ sig).ty.Contents (Elt F) :=
  (shapeCast _ (extractStridedSlice S1x262144 ![0, 0] (V0 (Proc.devRef .tc main_arg1)) slices_S2x262144_S1x262144_0_0) shapeCasts_S1x262144_S262144)

set_option maxRecDepth 8192 in
/-- The contents of `main_v6` as a term of the argument arrays and the stages before it. -/
def kres_main_v6 (V0 : Valuation τ sig (Elt F)) : (Proc.devRef .tc main_v6 : DevRef τ sig).ty.Contents (Elt F) :=
  (shapeCast _ (extractStridedSlice S1x262144 ![1, 0] (V0 (Proc.devRef .tc main_arg1)) slices_S2x262144_S1x262144_1_0) shapeCasts_S1x262144_S262144)

set_option maxRecDepth 8192 in
/-- The contents of `main_v29` as a term of the argument arrays and the stages before it. -/
def kres_main_v29 (V0 : Valuation τ sig (Elt F)) : (Proc.devRef .tc main_v29 : DevRef τ sig).ty.Contents (Elt F) :=
  (addf (addf (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v4 V0)) (Host.gather gather_S8192x64_S262144x1_S262144x64_1_0_n_n_0_1_164 (Host.dotGeneral dot_S8192x300_S300x64_S8192x64_1_0_0_1_n_n none (V0 (Proc.devRef .tc main_arg0)) (extractStridedSlice S300x64 ![0, 0] (V0 (Proc.devRef .tc main_arg5)) slices_S600x64_S300x64_0_0)) (broadcastInDim S262144x1 ![0] bcast_S262144_S262144x1_0 (select (cmpi .slt (kres_main_v6 V0) (broadcastInDim S262144 ![] bcast_S_S262144 (constantI S_ 32 0#32))) (addi (kres_main_v6 V0) (broadcastInDim S262144 ![] bcast_S_S262144 (constantI S_ 32 8192#32))) (kres_main_v6 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v4 V0)) (broadcastInDim S262144x1 ![] bcast_S_S262144x1 (constant S_ .f32 0x3F800000#32))) (broadcastInDim S8192x1 ![] bcast_S_S8192x1 (constant S_ .f32 0x3F800000#32))))) (Host.dotGeneral dot_S8192x300_S300x64_S8192x64_1_0_0_1_n_n none (V0 (Proc.devRef .tc main_arg0)) (extractStridedSlice S300x64 ![300, 0] (V0 (Proc.devRef .tc main_arg5)) slices_S600x64_S300x64_300_0))) (broadcastInDim S8192x64 ![0, 1] bcast_S1x64_S8192x64_0_1 (broadcastInDim S1x64 ![1] bcast_S64_S1x64_1 (V0 (Proc.devRef .tc main_arg6)))))

set_option maxRecDepth 8192 in
/-- The contents of `main_v38` as a term of the argument arrays and the stages before it. -/
def kres_main_v38 (V0 : Valuation τ sig (Elt F)) : (Proc.devRef .tc main_v38 : DevRef τ sig).ty.Contents (Elt F) :=
  (Host.tanh (Host.divf (kres_main_v29 V0) (broadcastInDim S8192x64 ![0, 1] bcast_S8192x1_S8192x64_0_1 (maximumf (Host.sqrt (broadcastInDim S8192x1 ![0] bcast_S8192_S8192x1_0 (Host.reduceAdd (mulf (kres_main_v29 V0) (kres_main_v29 V0)) (constant S_ .f32 0x00000000#32) reducesTo_S8192x64_S8192_d1 h_S_))) (broadcastInDim S8192x1 ![] bcast_S_S8192x1 (constant S_ .f32 0x2B8CBCCC#32))))))

set_option maxRecDepth 8192 in
/-- The contents of `main_v43` as a term of the argument arrays and the stages before it. -/
def kres_main_v43 (V0 : Valuation τ sig (Elt F)) : (Proc.devRef .tc main_v43 : DevRef τ sig).ty.Contents (Elt F) :=
  (shapeCast _ (extractStridedSlice S1x262144 ![0, 0] (V0 (Proc.devRef .tc main_arg2)) slices_S2x262144_S1x262144_0_0) shapeCasts_S1x262144_S262144)

set_option maxRecDepth 8192 in
/-- The contents of `main_v45` as a term of the argument arrays and the stages before it. -/
def kres_main_v45 (V0 : Valuation τ sig (Elt F)) : (Proc.devRef .tc main_v45 : DevRef τ sig).ty.Contents (Elt F) :=
  (shapeCast _ (extractStridedSlice S1x262144 ![1, 0] (V0 (Proc.devRef .tc main_arg2)) slices_S2x262144_S1x262144_1_0) shapeCasts_S1x262144_S262144)

set_option maxRecDepth 8192 in
/-- The contents of `main_v68` as a term of the argument arrays and the stages before it. -/
def kres_main_v68 (V0 : Valuation τ sig (Elt F)) : (Proc.devRef .tc main_v68 : DevRef τ sig).ty.Contents (Elt F) :=
  (addf (addf (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v43 V0)) (Host.gather gather_S8192x64_S262144x1_S262144x64_1_0_n_n_0_1_164 (Host.dotGeneral dot_S8192x300_S300x64_S8192x64_1_0_0_1_n_n none (V0 (Proc.devRef .tc main_arg0)) (extractStridedSlice S300x64 ![0, 0] (V0 (Proc.devRef .tc main_arg7)) slices_S600x64_S300x64_0_0)) (broadcastInDim S262144x1 ![0] bcast_S262144_S262144x1_0 (select (cmpi .slt (kres_main_v45 V0) (broadcastInDim S262144 ![] bcast_S_S262144 (constantI S_ 32 0#32))) (addi (kres_main_v45 V0) (broadcastInDim S262144 ![] bcast_S_S262144 (constantI S_ 32 8192#32))) (kres_main_v45 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v43 V0)) (broadcastInDim S262144x1 ![] bcast_S_S262144x1 (constant S_ .f32 0x3F800000#32))) (broadcastInDim S8192x1 ![] bcast_S_S8192x1 (constant S_ .f32 0x3F800000#32))))) (Host.dotGeneral dot_S8192x300_S300x64_S8192x64_1_0_0_1_n_n none (V0 (Proc.devRef .tc main_arg0)) (extractStridedSlice S300x64 ![300, 0] (V0 (Proc.devRef .tc main_arg7)) slices_S600x64_S300x64_300_0))) (broadcastInDim S8192x64 ![0, 1] bcast_S1x64_S8192x64_0_1 (broadcastInDim S1x64 ![1] bcast_S64_S1x64_1 (V0 (Proc.devRef .tc main_arg8)))))

set_option maxRecDepth 8192 in
/-- The contents of `main_v77` as a term of the argument arrays and the stages before it. -/
def kres_main_v77 (V0 : Valuation τ sig (Elt F)) : (Proc.devRef .tc main_v77 : DevRef τ sig).ty.Contents (Elt F) :=
  (Host.tanh (Host.divf (kres_main_v68 V0) (broadcastInDim S8192x64 ![0, 1] bcast_S8192x1_S8192x64_0_1 (maximumf (Host.sqrt (broadcastInDim S8192x1 ![0] bcast_S8192_S8192x1_0 (Host.reduceAdd (mulf (kres_main_v68 V0) (kres_main_v68 V0)) (constant S_ .f32 0x00000000#32) reducesTo_S8192x64_S8192_d1 h_S_))) (broadcastInDim S8192x1 ![] bcast_S_S8192x1 (constant S_ .f32 0x2B8CBCCC#32))))))

set_option maxRecDepth 8192 in
/-- The contents of `main_v79` as a term of the argument arrays and the stages before it. -/
def kres_main_v79 (V0 : Valuation τ sig (Elt F)) : (Proc.devRef .tc main_v79 : DevRef τ sig).ty.Contents (Elt F) :=
  (shapeCast _ (extractStridedSlice S1x262144 ![0, 0] (V0 (Proc.devRef .tc main_arg1)) slices_S2x262144_S1x262144_0_0) shapeCasts_S1x262144_S262144)

set_option maxRecDepth 8192 in
/-- The contents of `main_v81` as a term of the argument arrays and the stages before it. -/
def kres_main_v81 (V0 : Valuation τ sig (Elt F)) : (Proc.devRef .tc main_v81 : DevRef τ sig).ty.Contents (Elt F) :=
  (shapeCast _ (extractStridedSlice S1x262144 ![1, 0] (V0 (Proc.devRef .tc main_arg1)) slices_S2x262144_S1x262144_1_0) shapeCasts_S1x262144_S262144)

set_option maxRecDepth 8192 in
/-- The contents of `main_v101` as a term of the argument arrays and the stages before it. -/
def kres_main_v101 (V0 : Valuation τ sig (Elt F)) : (Proc.devRef .tc main_v101 : DevRef τ sig).ty.Contents (Elt F) :=
  (shapeCast _ (extractStridedSlice S1x262144 ![0, 0] (V0 (Proc.devRef .tc main_arg2)) slices_S2x262144_S1x262144_0_0) shapeCasts_S1x262144_S262144)

set_option maxRecDepth 8192 in
/-- The contents of `main_v103` as a term of the argument arrays and the stages before it. -/
def kres_main_v103 (V0 : Valuation τ sig (Elt F)) : (Proc.devRef .tc main_v103 : DevRef τ sig).ty.Contents (Elt F) :=
  (shapeCast _ (extractStridedSlice S1x262144 ![1, 0] (V0 (Proc.devRef .tc main_arg2)) slices_S2x262144_S1x262144_1_0) shapeCasts_S1x262144_S262144)

set_option maxRecDepth 8192 in
/-- The contents of `main_v126` as a term of the argument arrays and the stages before it. -/
def kres_main_v126 (V0 : Valuation τ sig (Elt F)) : (Proc.devRef .tc main_v126 : DevRef τ sig).ty.Contents (Elt F) :=
  (addf (Host.dotGeneral dot_S8192x192_S192x64_S8192x64_1_0_0_1_n_n none (concatenate S8192x192 1 [⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v79 V0)) (Host.gather gather_S8192x64_S262144x1_S262144x64_1_0_n_n_0_1_164 (kres_main_v38 V0) (broadcastInDim S262144x1 ![0] bcast_S262144_S262144x1_0 (select (cmpi .slt (kres_main_v81 V0) (broadcastInDim S262144 ![] bcast_S_S262144 (constantI S_ 32 0#32))) (addi (kres_main_v81 V0) (broadcastInDim S262144 ![] bcast_S_S262144 (constantI S_ 32 8192#32))) (kres_main_v81 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v79 V0)) (broadcastInDim S262144x1 ![] bcast_S_S262144x1 (constant S_ .f32 0x3F800000#32))) (broadcastInDim S8192x1 ![] bcast_S_S8192x1 (constant S_ .f32 0x3F800000#32)))))⟩, ⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v101 V0)) (Host.gather gather_S8192x64_S262144x1_S262144x64_1_0_n_n_0_1_164 (kres_main_v77 V0) (broadcastInDim S262144x1 ![0] bcast_S262144_S262144x1_0 (select (cmpi .slt (kres_main_v103 V0) (broadcastInDim S262144 ![] bcast_S_S262144 (constantI S_ 32 0#32))) (addi (kres_main_v103 V0) (broadcastInDim S262144 ![] bcast_S_S262144 (constantI S_ 32 8192#32))) (kres_main_v103 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v101 V0)) (broadcastInDim S262144x1 ![] bcast_S_S262144x1 (constant S_ .f32 0x3F800000#32))) (broadcastInDim S8192x1 ![] bcast_S_S8192x1 (constant S_ .f32 0x3F800000#32)))))⟩, ⟨S8192x64, (kres_main_v38 V0)⟩] concatenates_S8192x64_S8192x64_S8192x64_S8192x192_d1) (V0 (Proc.devRef .tc main_arg9))) (broadcastInDim S8192x64 ![0, 1] bcast_S1x64_S8192x64_0_1 (broadcastInDim S1x64 ![1] bcast_S64_S1x64_1 (V0 (Proc.devRef .tc main_arg10)))))

set_option maxRecDepth 8192 in
/-- The contents of `main_v137` as a term of the argument arrays and the stages before it. -/
def kres_main_v137 (V0 : Valuation τ sig (Elt F)) : (Proc.devRef .tc main_v137 : DevRef τ sig).ty.Contents (Elt F) :=
  (shapeCast _ (extractStridedSlice S1x262144 ![0, 0] (V0 (Proc.devRef .tc main_arg1)) slices_S2x262144_S1x262144_0_0) shapeCasts_S1x262144_S262144)

set_option maxRecDepth 8192 in
/-- The contents of `main_v139` as a term of the argument arrays and the stages before it. -/
def kres_main_v139 (V0 : Valuation τ sig (Elt F)) : (Proc.devRef .tc main_v139 : DevRef τ sig).ty.Contents (Elt F) :=
  (shapeCast _ (extractStridedSlice S1x262144 ![1, 0] (V0 (Proc.devRef .tc main_arg1)) slices_S2x262144_S1x262144_1_0) shapeCasts_S1x262144_S262144)

set_option maxRecDepth 8192 in
/-- The contents of `main_v159` as a term of the argument arrays and the stages before it. -/
def kres_main_v159 (V0 : Valuation τ sig (Elt F)) : (Proc.devRef .tc main_v159 : DevRef τ sig).ty.Contents (Elt F) :=
  (shapeCast _ (extractStridedSlice S1x262144 ![0, 0] (V0 (Proc.devRef .tc main_arg2)) slices_S2x262144_S1x262144_0_0) shapeCasts_S1x262144_S262144)

set_option maxRecDepth 8192 in
/-- The contents of `main_v161` as a term of the argument arrays and the stages before it. -/
def kres_main_v161 (V0 : Valuation τ sig (Elt F)) : (Proc.devRef .tc main_v161 : DevRef τ sig).ty.Contents (Elt F) :=
  (shapeCast _ (extractStridedSlice S1x262144 ![1, 0] (V0 (Proc.devRef .tc main_arg2)) slices_S2x262144_S1x262144_1_0) shapeCasts_S1x262144_S262144)

set_option maxRecDepth 8192 in
/-- The contents of `main_v184` as a term of the argument arrays and the stages before it. -/
def kres_main_v184 (V0 : Valuation τ sig (Elt F)) : (Proc.devRef .tc main_v184 : DevRef τ sig).ty.Contents (Elt F) :=
  (addf (Host.dotGeneral dot_S8192x192_S192x64_S8192x64_1_0_0_1_n_n none (concatenate S8192x192 1 [⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v137 V0)) (Host.gather gather_S8192x64_S262144x1_S262144x64_1_0_n_n_0_1_164 (kres_main_v77 V0) (broadcastInDim S262144x1 ![0] bcast_S262144_S262144x1_0 (select (cmpi .slt (kres_main_v139 V0) (broadcastInDim S262144 ![] bcast_S_S262144 (constantI S_ 32 0#32))) (addi (kres_main_v139 V0) (broadcastInDim S262144 ![] bcast_S_S262144 (constantI S_ 32 8192#32))) (kres_main_v139 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v137 V0)) (broadcastInDim S262144x1 ![] bcast_S_S262144x1 (constant S_ .f32 0x3F800000#32))) (broadcastInDim S8192x1 ![] bcast_S_S8192x1 (constant S_ .f32 0x3F800000#32)))))⟩, ⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v159 V0)) (Host.gather gather_S8192x64_S262144x1_S262144x64_1_0_n_n_0_1_164 (kres_main_v38 V0) (broadcastInDim S262144x1 ![0] bcast_S262144_S262144x1_0 (select (cmpi .slt (kres_main_v161 V0) (broadcastInDim S262144 ![] bcast_S_S262144 (constantI S_ 32 0#32))) (addi (kres_main_v161 V0) (broadcastInDim S262144 ![] bcast_S_S262144 (constantI S_ 32 8192#32))) (kres_main_v161 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v159 V0)) (broadcastInDim S262144x1 ![] bcast_S_S262144x1 (constant S_ .f32 0x3F800000#32))) (broadcastInDim S8192x1 ![] bcast_S_S8192x1 (constant S_ .f32 0x3F800000#32)))))⟩, ⟨S8192x64, (kres_main_v77 V0)⟩] concatenates_S8192x64_S8192x64_S8192x64_S8192x192_d1) (V0 (Proc.devRef .tc main_arg11))) (broadcastInDim S8192x64 ![0, 1] bcast_S1x64_S8192x64_0_1 (broadcastInDim S1x64 ![1] bcast_S64_S1x64_1 (V0 (Proc.devRef .tc main_arg12)))))

set_option maxRecDepth 8192 in
/-- The contents of `main_v194` as a term of the argument arrays and the stages before it. -/
def kres_main_v194 (V0 : Valuation τ sig (Elt F)) : (Proc.devRef .tc main_v194 : DevRef τ sig).ty.Contents (Elt F) :=
  (concatenate S8192x128 1 [⟨S8192x64, (Host.tanh (Host.divf (kres_main_v126 V0) (broadcastInDim S8192x64 ![0, 1] bcast_S8192x1_S8192x64_0_1 (maximumf (Host.sqrt (broadcastInDim S8192x1 ![0] bcast_S8192_S8192x1_0 (Host.reduceAdd (mulf (kres_main_v126 V0) (kres_main_v126 V0)) (constant S_ .f32 0x00000000#32) reducesTo_S8192x64_S8192_d1 h_S_))) (broadcastInDim S8192x1 ![] bcast_S_S8192x1 (constant S_ .f32 0x2B8CBCCC#32))))))⟩, ⟨S8192x64, (Host.tanh (Host.divf (kres_main_v184 V0) (broadcastInDim S8192x64 ![0, 1] bcast_S8192x1_S8192x64_0_1 (maximumf (Host.sqrt (broadcastInDim S8192x1 ![0] bcast_S8192_S8192x1_0 (Host.reduceAdd (mulf (kres_main_v184 V0) (kres_main_v184 V0)) (constant S_ .f32 0x00000000#32) reducesTo_S8192x64_S8192_d1 h_S_))) (broadcastInDim S8192x1 ![] bcast_S_S8192x1 (constant S_ .f32 0x2B8CBCCC#32))))))⟩] concatenates_S8192x64_S8192x64_S8192x128_d1)

set_option maxRecDepth 8192 in
/-- The contents of `main_v202` as a term of the argument arrays and the stages before it. -/
def kres_main_v202 (V0 : Valuation τ sig (Elt F)) : (Proc.devRef .tc main_v202 : DevRef τ sig).ty.Contents (Elt F) :=
  (Host.divf (kres_main_v194 V0) (broadcastInDim S8192x128 ![0, 1] bcast_S8192x1_S8192x128_0_1 (maximumf (Host.sqrt (broadcastInDim S8192x1 ![0] bcast_S8192_S8192x1_0 (Host.reduceAdd (mulf (kres_main_v194 V0) (kres_main_v194 V0)) (constant S_ .f32 0x00000000#32) reducesTo_S8192x128_S8192_d1 h_S_))) (broadcastInDim S8192x1 ![] bcast_S_S8192x1 (constant S_ .f32 0x2B8CBCCC#32)))))

set_option maxRecDepth 8192 in
/-- The contents of `main_v203` as a term of the argument arrays and the stages before it. -/
def kres_main_v203 (V0 : Valuation τ sig (Elt F)) : (Proc.devRef .tc main_v203 : DevRef τ sig).ty.Contents (Elt F) :=
  (shapeCast _ (V0 (Proc.devRef .tc main_arg3)) shapeCasts_S67108864_S8192x8192)

end Cert.KernelIdeal.Stages

end
-- ==== Proof.KI.Rb0.lean ====
/-
  Stretch 0 of the host operations before the region (operations 1 … 60 of 250): the buffers it writes, that a
  buffer it does not write keeps its contents through it, and the contents of the buffers later stretches still read.
-/
import proofs.«181554_j91190745628895_2_alg».proof.Proof.KI.Stages

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The buffers' contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl

/-- The buffers' contents after stretch 0. -/
def val1 (V0 : Valuation τ sig (Elt F)) : Valuation τ sig (Elt F) := after main_part0_ops0 (val0 V0)
/-- The buffers stretch 0 writes. -/
abbrev stretch0_W : List (Ref sig .tc) := [main_v0, main_v1, main_v2, main_v3, main_v4, main_v5, main_v6, main_c, main_v7, main_v8, main_c_0, main_v9, main_v10, main_v11, main_v12, main_v13, main_cst, main_v14, main_v15, main_v16, main_cst_1, main_v17, main_cst_2, main_v18, main_v19, main_v20, main_cst_3, main_v21, main_v22, main_v23, main_v24, main_v25, main_v26, main_v27, main_v28, main_v29, main_v30, main_cst_4, main_v31, main_v32, main_v33, main_cst_5, main_v34, main_v35, main_v36, main_v37, main_v38, main_v39, main_v40, main_v41, main_v42, main_v43, main_v44, main_v45, main_c_6, main_v46, main_v47, main_c_7, main_v48, main_v49]
set_option maxHeartbeats 40000000 in
theorem stretch0_writes : (main_part0_ops0 : List (HloOp τ sig (Elt F))).Forall fun op => op.writes ⊆ (stretch0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ stretch0_W) :
    val1 V0 (Proc.devRef .tc r) = val0 V0 (Proc.devRef .tc r) :=
  after_of_writes_sub main_part0_ops0 _ stretch0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
set_option maxHeartbeats 4000000 in
theorem val1_main_v38 (V0 : Valuation τ sig (Elt F)) : val1 V0 (no_index (Proc.devRef .tc main_v38)) = kres_main_v38 V0 := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl
set_option maxHeartbeats 4000000 in
theorem val1_main_v40 (V0 : Valuation τ sig (Elt F)) : val1 V0 (no_index (Proc.devRef .tc main_v40)) = extractStridedSlice S300x64 ![300, 0] (V0 (Proc.devRef .tc main_arg7)) slices_S600x64_S300x64_300_0 := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl
set_option maxHeartbeats 4000000 in
theorem val1_main_v41 (V0 : Valuation τ sig (Elt F)) : val1 V0 (no_index (Proc.devRef .tc main_v41)) = Host.dotGeneral dot_S8192x300_S300x64_S8192x64_1_0_0_1_n_n none (V0 (Proc.devRef .tc main_arg0)) (extractStridedSlice S300x64 ![0, 0] (V0 (Proc.devRef .tc main_arg7)) slices_S600x64_S300x64_0_0) := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl
set_option maxHeartbeats 4000000 in
theorem val1_main_v43 (V0 : Valuation τ sig (Elt F)) : val1 V0 (no_index (Proc.devRef .tc main_v43)) = kres_main_v43 V0 := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl
set_option maxHeartbeats 4000000 in
theorem val1_main_v45 (V0 : Valuation τ sig (Elt F)) : val1 V0 (no_index (Proc.devRef .tc main_v45)) = kres_main_v45 V0 := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl
set_option maxHeartbeats 4000000 in
theorem val1_main_v47 (V0 : Valuation τ sig (Elt F)) : val1 V0 (no_index (Proc.devRef .tc main_v47)) = cmpi .slt (kres_main_v45 V0) (broadcastInDim S262144 ![] bcast_S_S262144 (constantI S_ 32 0#32)) := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl
set_option maxHeartbeats 4000000 in
theorem val1_main_v49 (V0 : Valuation τ sig (Elt F)) : val1 V0 (no_index (Proc.devRef .tc main_v49)) = addi (kres_main_v45 V0) (broadcastInDim S262144 ![] bcast_S_S262144 (constantI S_ 32 8192#32)) := by
  unfold val1
  simp only [main_part0_ops0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12] <;> rfl

end Cert.KernelIdeal.Stages

end
-- ==== Proof.KI.Rb1.lean ====
/-
  Stretch 1 of the host operations before the region (operations 61 … 120 of 250): the buffers it writes, that a
  buffer it does not write keeps its contents through it, and the contents of the buffers later stretches still read.
-/
import proofs.«181554_j91190745628895_2_alg».proof.Proof.KI.Rb0

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The buffers' contents after stretch 1. -/
def val2 (V0 : Valuation τ sig (Elt F)) : Valuation τ sig (Elt F) := after main_part1_ops0 (val1 V0)
/-- The buffers stretch 1 writes. -/
abbrev stretch1_W : List (Ref sig .tc) := [main_v50, main_v51, main_v52, main_cst_8, main_v53, main_v54, main_v55, main_cst_9, main_v56, main_cst_10, main_v57, main_v58, main_v59, main_cst_11, main_v60, main_v61, main_v62, main_v63, main_v64, main_v65, main_v66, main_v67, main_v68, main_v69, main_cst_12, main_v70, main_v71, main_v72, main_cst_13, main_v73, main_v74, main_v75, main_v76, main_v77, main_v78, main_v79, main_v80, main_v81, main_c_14, main_v82, main_v83, main_c_15, main_v84, main_v85, main_v86, main_v87, main_v88, main_cst_16, main_v89, main_v90, main_v91, main_cst_17, main_v92, main_cst_18, main_v93, main_v94, main_v95, main_cst_19, main_v96, main_v97]
set_option maxHeartbeats 40000000 in
theorem stretch1_writes : (main_part1_ops0 : List (HloOp τ sig (Elt F))).Forall fun op => op.writes ⊆ (stretch1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ stretch1_W) :
    val2 V0 (Proc.devRef .tc r) = val1 V0 (Proc.devRef .tc r) :=
  after_of_writes_sub main_part1_ops0 _ stretch1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_v38 (V0 : Valuation τ sig (Elt F)) : val2 V0 (no_index (Proc.devRef .tc main_v38)) = kres_main_v38 V0 :=
  (val2_keep V0 main_v38 (by decide)).trans (val1_main_v38 V0)
set_option maxHeartbeats 4000000 in
theorem val2_main_v77 (V0 : Valuation τ sig (Elt F)) : val2 V0 (no_index (Proc.devRef .tc main_v77)) = kres_main_v77 V0 := by
  unfold val2
  simp only [main_part1_ops0]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v38, val1_main_v40, val1_main_v41, val1_main_v43, val1_main_v45, val1_main_v47, val1_main_v49] <;> rfl
set_option maxHeartbeats 4000000 in
theorem val2_main_v91 (V0 : Valuation τ sig (Elt F)) : val2 V0 (no_index (Proc.devRef .tc main_v91)) = Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v79 V0)) (Host.gather gather_S8192x64_S262144x1_S262144x64_1_0_n_n_0_1_164 (kres_main_v38 V0) (broadcastInDim S262144x1 ![0] bcast_S262144_S262144x1_0 (select (cmpi .slt (kres_main_v81 V0) (broadcastInDim S262144 ![] bcast_S_S262144 (constantI S_ 32 0#32))) (addi (kres_main_v81 V0) (broadcastInDim S262144 ![] bcast_S_S262144 (constantI S_ 32 8192#32))) (kres_main_v81 V0)))) := by
  unfold val2
  simp only [main_part1_ops0]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v38, val1_main_v40, val1_main_v41, val1_main_v43, val1_main_v45, val1_main_v47, val1_main_v49] <;> rfl
set_option maxHeartbeats 4000000 in
theorem val2_main_v97 (V0 : Valuation τ sig (Elt F)) : val2 V0 (no_index (Proc.devRef .tc main_v97)) = maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v79 V0)) (broadcastInDim S262144x1 ![] bcast_S_S262144x1 (constant S_ .f32 0x3F800000#32))) (broadcastInDim S8192x1 ![] bcast_S_S8192x1 (constant S_ .f32 0x3F800000#32)) := by
  unfold val2
  simp only [main_part1_ops0]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v38, val1_main_v40, val1_main_v41, val1_main_v43, val1_main_v45, val1_main_v47, val1_main_v49] <;> rfl

end Cert.KernelIdeal.Stages

end
-- ==== Proof.KI.Rb2.lean ====
/-
  Stretch 2 of the host operations before the region (operations 121 … 150 of 250): the buffers it writes, that a
  buffer it does not write keeps its contents through it, and the contents of the buffers later stretches still read.
-/
import proofs.«181554_j91190745628895_2_alg».proof.Proof.KI.Rb1

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 121 … 150 of the 250, in order. -/
abbrev stretch2_ops : List (HloOp τ sig (Elt F)) :=
  [ StableHlo.unary main_v97 main_v98 (broadcastInDim S8192x64 ![0, 1] bcast_S8192x1_S8192x64_0_1 : (⟨S8192x1, .f32⟩ : BufTy).Contents (Elt F) → (⟨S8192x64, .f32⟩ : BufTy).Contents (Elt F)),
    StableHlo.binary main_v91 main_v98 main_v99 (Host.divf : (⟨S8192x64, .f32⟩ : BufTy).Contents (Elt F) → (⟨S8192x64, .f32⟩ : BufTy).Contents (Elt F) → (⟨S8192x64, .f32⟩ : BufTy).Contents (Elt F)),
    StableHlo.unary main_arg2 main_v100 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v100 main_v101 rfl shapeCasts_S1x262144_S262144,
    StableHlo.unary main_arg2 main_v102 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v102 main_v103 rfl shapeCasts_S1x262144_S262144,
    StableHlo.nullary main_c_20 (constantI S_ 32 0#32),
    StableHlo.unary main_c_20 main_v104 (broadcastInDim S262144 ![] bcast_S_S262144 : (⟨S_, .i32⟩ : BufTy).Contents (Elt F) → (⟨S262144, .i32⟩ : BufTy).Contents (Elt F)),
    StableHlo.binary main_v103 main_v104 main_v105 (cmpi .slt : (⟨S262144, .i32⟩ : BufTy).Contents (Elt F) → (⟨S262144, .i32⟩ : BufTy).Contents (Elt F) → (⟨S262144, .i1⟩ : BufTy).Contents (Elt F)),
    StableHlo.nullary main_c_21 (constantI S_ 32 8192#32),
    StableHlo.unary main_c_21 main_v106 (broadcastInDim S262144 ![] bcast_S_S262144 : (⟨S_, .i32⟩ : BufTy).Contents (Elt F) → (⟨S262144, .i32⟩ : BufTy).Contents (Elt F)),
    StableHlo.binary main_v103 main_v106 main_v107 (addi : (⟨S262144, .i32⟩ : BufTy).Contents (Elt F) → (⟨S262144, .i32⟩ : BufTy).Contents (Elt F) → (⟨S262144, .i32⟩ : BufTy).Contents (Elt F)),
    StableHlo.ternary main_v105 main_v107 main_v103 main_v108 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v108 main_v109 (broadcastInDim S262144x1 ![0] bcast_S262144_S262144x1_0 : (⟨S262144, .i32⟩ : BufTy).Contents (Elt F) → (⟨S262144x1, .i32⟩ : BufTy).Contents (Elt F)),
    StableHlo.binary main_v77 main_v109 main_v110 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    StableHlo.nullary main_cst_22 (constant S_ .f32 0x00000000#32),
    StableHlo.unary main_cst_22 main_v111 (broadcastInDim S8192x64 ![] bcast_S_S8192x64 : (⟨S_, .f32⟩ : BufTy).Contents (Elt F) → (⟨S8192x64, .f32⟩ : BufTy).Contents (Elt F)),
    StableHlo.unary main_v101 main_v112 (broadcastInDim S262144x1 ![0] bcast_S262144_S262144x1_0 : (⟨S262144, .i32⟩ : BufTy).Contents (Elt F) → (⟨S262144x1, .i32⟩ : BufTy).Contents (Elt F)),
    StableHlo.ternary main_v111 main_v112 main_v110 main_v113 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    StableHlo.nullary main_cst_23 (constant S_ .f32 0x3F800000#32),
    StableHlo.unary main_cst_23 main_v114 (broadcastInDim S262144x1 ![] bcast_S_S262144x1 : (⟨S_, .f32⟩ : BufTy).Contents (Elt F) → (⟨S262144x1, .f32⟩ : BufTy).Contents (Elt F)),
    StableHlo.nullary main_cst_24 (constant S_ .f32 0x00000000#32),
    StableHlo.unary main_cst_24 main_v115 (broadcastInDim S8192x1 ![] bcast_S_S8192x1 : (⟨S_, .f32⟩ : BufTy).Contents (Elt F) → (⟨S8192x1, .f32⟩ : BufTy).Contents (Elt F)),
    StableHlo.unary main_v101 main_v116 (broadcastInDim S262144x1 ![0] bcast_S262144_S262144x1_0 : (⟨S262144, .i32⟩ : BufTy).Contents (Elt F) → (⟨S262144x1, .i32⟩ : BufTy).Contents (Elt F)),
    StableHlo.ternary main_v115 main_v116 main_v114 main_v117 ((fun x i u => Host.scatterAdd scatter_S8192x1_S262144x1_S262144x1_1_0_0_1 x i u) : (⟨S8192x1, .f32⟩ : BufTy).Contents (Elt F) → (⟨S262144x1, .i32⟩ : BufTy).Contents (Elt F) → (⟨S262144x1, .f32⟩ : BufTy).Contents (Elt F) → (⟨S8192x1, .f32⟩ : BufTy).Contents (Elt F)),
    StableHlo.nullary main_cst_25 (constant S_ .f32 0x3F800000#32),
    StableHlo.unary main_cst_25 main_v118 (broadcastInDim S8192x1 ![] bcast_S_S8192x1 : (⟨S_, .f32⟩ : BufTy).Contents (Elt F) → (⟨S8192x1, .f32⟩ : BufTy).Contents (Elt F)),
    StableHlo.binary main_v117 main_v118 main_v119 (maximumf : (⟨S8192x1, .f32⟩ : BufTy).Contents (Elt F) → (⟨S8192x1, .f32⟩ : BufTy).Contents (Elt F) → (⟨S8192x1, .f32⟩ : BufTy).Contents (Elt F)),
    StableHlo.unary main_v119 main_v120 (broadcastInDim S8192x64 ![0, 1] bcast_S8192x1_S8192x64_0_1 : (⟨S8192x1, .f32⟩ : BufTy).Contents (Elt F) → (⟨S8192x64, .f32⟩ : BufTy).Contents (Elt F)),
    StableHlo.binary main_v113 main_v120 main_v121 (Host.divf : (⟨S8192x64, .f32⟩ : BufTy).Contents (Elt F) → (⟨S8192x64, .f32⟩ : BufTy).Contents (Elt F) → (⟨S8192x64, .f32⟩ : BufTy).Contents (Elt F)) ]

/-- The buffers' contents after stretch 2. -/
def val3 (V0 : Valuation τ sig (Elt F)) : Valuation τ sig (Elt F) := after stretch2_ops (val2 V0)
/-- The buffers stretch 2 writes. -/
abbrev stretch2_W : List (Ref sig .tc) := [main_v98, main_v99, main_v100, main_v101, main_v102, main_v103, main_c_20, main_v104, main_v105, main_c_21, main_v106, main_v107, main_v108, main_v109, main_v110, main_cst_22, main_v111, main_v112, main_v113, main_cst_23, main_v114, main_cst_24, main_v115, main_v116, main_v117, main_cst_25, main_v118, main_v119, main_v120, main_v121]
set_option maxHeartbeats 40000000 in
theorem stretch2_writes : (stretch2_ops : List (HloOp τ sig (Elt F))).Forall fun op => op.writes ⊆ (stretch2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ stretch2_W) :
    val3 V0 (Proc.devRef .tc r) = val2 V0 (Proc.devRef .tc r) :=
  after_of_writes_sub stretch2_ops _ stretch2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_v38 (V0 : Valuation τ sig (Elt F)) : val3 V0 (no_index (Proc.devRef .tc main_v38)) = kres_main_v38 V0 :=
  (val3_keep V0 main_v38 (by decide)).trans (val2_main_v38 V0)
theorem val3_main_v77 (V0 : Valuation τ sig (Elt F)) : val3 V0 (no_index (Proc.devRef .tc main_v77)) = kres_main_v77 V0 :=
  (val3_keep V0 main_v77 (by decide)).trans (val2_main_v77 V0)
set_option maxHeartbeats 4000000 in
theorem val3_main_v99 (V0 : Valuation τ sig (Elt F)) : val3 V0 (no_index (Proc.devRef .tc main_v99)) = Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v79 V0)) (Host.gather gather_S8192x64_S262144x1_S262144x64_1_0_n_n_0_1_164 (kres_main_v38 V0) (broadcastInDim S262144x1 ![0] bcast_S262144_S262144x1_0 (select (cmpi .slt (kres_main_v81 V0) (broadcastInDim S262144 ![] bcast_S_S262144 (constantI S_ 32 0#32))) (addi (kres_main_v81 V0) (broadcastInDim S262144 ![] bcast_S_S262144 (constantI S_ 32 8192#32))) (kres_main_v81 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v79 V0)) (broadcastInDim S262144x1 ![] bcast_S_S262144x1 (constant S_ .f32 0x3F800000#32))) (broadcastInDim S8192x1 ![] bcast_S_S8192x1 (constant S_ .f32 0x3F800000#32)))) := by
  unfold val3
  simp only [stretch2_ops]
  after_results_simp
  all_goals (simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_v38, val2_main_v77, val2_main_v91, val2_main_v97] <;> rfl)
set_option maxHeartbeats 4000000 in
theorem val3_main_v121 (V0 : Valuation τ sig (Elt F)) : val3 V0 (no_index (Proc.devRef .tc main_v121)) = Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v101 V0)) (Host.gather gather_S8192x64_S262144x1_S262144x64_1_0_n_n_0_1_164 (kres_main_v77 V0) (broadcastInDim S262144x1 ![0] bcast_S262144_S262144x1_0 (select (cmpi .slt (kres_main_v103 V0) (broadcastInDim S262144 ![] bcast_S_S262144 (constantI S_ 32 0#32))) (addi (kres_main_v103 V0) (broadcastInDim S262144 ![] bcast_S_S262144 (constantI S_ 32 8192#32))) (kres_main_v103 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v101 V0)) (broadcastInDim S262144x1 ![] bcast_S_S262144x1 (constant S_ .f32 0x3F800000#32))) (broadcastInDim S8192x1 ![] bcast_S_S8192x1 (constant S_ .f32 0x3F800000#32)))) := by
  unfold val3
  simp only [stretch2_ops]
  after_results_simp
  all_goals (simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_v38, val2_main_v77, val2_main_v91, val2_main_v97] <;> rfl)

end Cert.KernelIdeal.Stages

end
-- ==== Proof.KI.Rb3.lean ====
/-
  Stretch 3 of the host operations before the region (operations 151 … 151 of 250): the buffers it writes, that a
  buffer it does not write keeps its contents through it, and the contents of the buffers later stretches still read.
-/
import proofs.«181554_j91190745628895_2_alg».proof.Proof.KI.Rb2

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 151 … 151 of the 250, in order. -/
abbrev stretch3_ops : List (HloOp τ sig (Elt F)) :=
  [ StableHlo.nary ![main_v99, main_v121, main_v38] main_v122 (fun u => concatenate S8192x192 1 [⟨S8192x64, u 0⟩, ⟨S8192x64, u 1⟩, ⟨S8192x64, u 2⟩] concatenates_S8192x64_S8192x64_S8192x64_S8192x192_d1) ]

/-- The buffers' contents after stretch 3. -/
def val4 (V0 : Valuation τ sig (Elt F)) : Valuation τ sig (Elt F) := after stretch3_ops (val3 V0)
/-- The buffers stretch 3 writes. -/
abbrev stretch3_W : List (Ref sig .tc) := [main_v122]
set_option maxHeartbeats 40000000 in
theorem stretch3_writes : (stretch3_ops : List (HloOp τ sig (Elt F))).Forall fun op => op.writes ⊆ (stretch3_W.map (Proc.devRef (τ := τ) .tc)).toFinset := by
  simp only [List.Forall]; exact by simp only [nullary_writes, unary_writes, binary_writes, ternary_writes, quaternary_writes, reshape_writes, binaryIndexed_writes, nary_writes, unaryIndexed_writes, Finset.singleton_subset_iff, List.mem_toFinset]; exact List.mem_map_of_mem (by decide)
theorem val4_keep (V0 : Valuation τ sig (Elt F)) (r : Ref sig .tc) (h : r ∉ stretch3_W) :
    val4 V0 (Proc.devRef .tc r) = val3 V0 (Proc.devRef .tc r) :=
  after_of_writes_sub stretch3_ops _ stretch3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_v38 (V0 : Valuation τ sig (Elt F)) : val4 V0 (no_index (Proc.devRef .tc main_v38)) = kres_main_v38 V0 :=
  (val4_keep V0 main_v38 (by decide)).trans (val3_main_v38 V0)
theorem val4_main_v77 (V0 : Valuation τ sig (Elt F)) : val4 V0 (no_index (Proc.devRef .tc main_v77)) = kres_main_v77 V0 :=
  (val4_keep V0 main_v77 (by decide)).trans (val3_main_v77 V0)
theorem val4_main_v122 (V0 : Valuation τ sig (Elt F)) : val4 V0 (no_index (Proc.devRef .tc main_v122)) = concatenate S8192x192 1 [⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v79 V0)) (Host.gather gather_S8192x64_S262144x1_S262144x64_1_0_n_n_0_1_164 (kres_main_v38 V0) (broadcastInDim S262144x1 ![0] bcast_S262144_S262144x1_0 (select (cmpi .slt (kres_main_v81 V0) (broadcastInDim S262144 ![] bcast_S_S262144 (constantI S_ 32 0#32))) (addi (kres_main_v81 V0) (broadcastInDim S262144 ![] bcast_S_S262144 (constantI S_ 32 8192#32))) (kres_main_v81 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v79 V0)) (broadcastInDim S262144x1 ![] bcast_S_S262144x1 (constant S_ .f32 0x3F800000#32))) (broadcastInDim S8192x1 ![] bcast_S_S8192x1 (constant S_ .f32 0x3F800000#32)))))⟩, ⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v101 V0)) (Host.gather gather_S8192x64_S262144x1_S262144x64_1_0_n_n_0_1_164 (kres_main_v77 V0) (broadcastInDim S262144x1 ![0] bcast_S262144_S262144x1_0 (select (cmpi .slt (kres_main_v103 V0) (broadcastInDim S262144 ![] bcast_S_S262144 (constantI S_ 32 0#32))) (addi (kres_main_v103 V0) (broadcastInDim S262144 ![] bcast_S_S262144 (constantI S_ 32 8192#32))) (kres_main_v103 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v101 V0)) (broadcastInDim S262144x1 ![] bcast_S_S262144x1 (constant S_ .f32 0x3F800000#32))) (broadcastInDim S8192x1 ![] bcast_S_S8192x1 (constant S_ .f32 0x3F800000#32)))))⟩, ⟨S8192x64, (kres_main_v38 V0)⟩] concatenates_S8192x64_S8192x64_S8192x64_S8192x192_d1 := by
  unfold val4
  simp only [stretch3_ops, after_cons, after_nil]
  rw [nary_result]
  show concatenate S8192x192 1 [⟨S8192x64, val3 V0 (Proc.devRef .tc main_v99)⟩, ⟨S8192x64, val3 V0 (Proc.devRef .tc main_v121)⟩, ⟨S8192x64, val3 V0 (Proc.devRef .tc main_v38)⟩] concatenates_S8192x64_S8192x64_S8192x64_S8192x192_d1 = _
  rw [val3_main_v99, val3_main_v121, val3_main_v38]

end Cert.KernelIdeal.Stages

end
-- ==== Proof.KI.Rb4.lean ====
/-
  Stretch 4 of the host operations before the region (operations 152 … 180 of 250): the buffers it writes, that a
  buffer it does not write keeps its contents through it, and the contents of the buffers later stretches still read.
-/
import proofs.«181554_j91190745628895_2_alg».proof.Proof.KI.Rb3

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 152 … 180 of the 250, in order. -/
abbrev stretch4_ops : List (HloOp τ sig (Elt F)) :=
  [ StableHlo.binary main_v122 main_arg9 main_v123 ((fun l r => Host.dotGeneral dot_S8192x192_S192x64_S8192x64_1_0_0_1_n_n none l r) : (⟨S8192x192, .f32⟩ : BufTy).Contents (Elt F) → (⟨S192x64, .f32⟩ : BufTy).Contents (Elt F) → (⟨S8192x64, .f32⟩ : BufTy).Contents (Elt F)),
    StableHlo.unary main_arg10 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S8192x64 ![0, 1] bcast_S1x64_S8192x64_0_1 : (⟨S1x64, .f32⟩ : BufTy).Contents (Elt F) → (⟨S8192x64, .f32⟩ : BufTy).Contents (Elt F)),
    StableHlo.binary main_v123 main_v125 main_v126 (addf : (⟨S8192x64, .f32⟩ : BufTy).Contents (Elt F) → (⟨S8192x64, .f32⟩ : BufTy).Contents (Elt F) → (⟨S8192x64, .f32⟩ : BufTy).Contents (Elt F)),
    StableHlo.binary main_v126 main_v126 main_v127 (mulf : (⟨S8192x64, .f32⟩ : BufTy).Contents (Elt F) → (⟨S8192x64, .f32⟩ : BufTy).Contents (Elt F) → (⟨S8192x64, .f32⟩ : BufTy).Contents (Elt F)),
    StableHlo.nullary main_cst_26 (constant S_ .f32 0x00000000#32),
    StableHlo.binary main_v127 main_cst_26 main_v128 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v128 main_v129 (broadcastInDim S8192x1 ![0] bcast_S8192_S8192x1_0 : (⟨S8192, .f32⟩ : BufTy).Contents (Elt F) → (⟨S8192x1, .f32⟩ : BufTy).Contents (Elt F)),
    StableHlo.unary main_v129 main_v130 (Host.sqrt : (⟨S8192x1, .f32⟩ : BufTy).Contents (Elt F) → (⟨S8192x1, .f32⟩ : BufTy).Contents (Elt F)),
    StableHlo.nullary main_cst_27 (constant S_ .f32 0x2B8CBCCC#32),
    StableHlo.unary main_cst_27 main_v131 (broadcastInDim S8192x1 ![] bcast_S_S8192x1 : (⟨S_, .f32⟩ : BufTy).Contents (Elt F) → (⟨S8192x1, .f32⟩ : BufTy).Contents (Elt F)),
    StableHlo.binary main_v130 main_v131 main_v132 (maximumf : (⟨S8192x1, .f32⟩ : BufTy).Contents (Elt F) → (⟨S8192x1, .f32⟩ : BufTy).Contents (Elt F) → (⟨S8192x1, .f32⟩ : BufTy).Contents (Elt F)),
    StableHlo.unary main_v132 main_v133 (broadcastInDim S8192x64 ![0, 1] bcast_S8192x1_S8192x64_0_1 : (⟨S8192x1, .f32⟩ : BufTy).Contents (Elt F) → (⟨S8192x64, .f32⟩ : BufTy).Contents (Elt F)),
    StableHlo.binary main_v126 main_v133 main_v134 (Host.divf : (⟨S8192x64, .f32⟩ : BufTy).Contents (Elt F) → (⟨S8192x64, .f32⟩ : BufTy).Contents (Elt F) → (⟨S8192x64, .f32⟩ : BufTy).Contents (Elt F)),
    StableHlo.unary main_v134 main_v135 (Host.tanh : (⟨S8192x64, .f32⟩ : BufTy).Contents (Elt F) → (⟨S8192x64, .f32⟩ : BufTy).Contents (Elt F)),
    StableHlo.unary main_arg1 main_v136 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v136 main_v137 rfl shapeCasts_S1x262144_S262144,
    StableHlo.unary main_arg1 main_v138 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v138 main_v139 rfl shapeCasts_S1x262144_S262144,
    StableHlo.nullary main_c_28 (constantI S_ 32 0#32),
    StableHlo.unary main_c_28 main_v140 (broadcastInDim S262144 ![] bcast_S_S262144 : (⟨S_, .i32⟩ : BufTy).Contents (Elt F) → (⟨S262144, .i32⟩ : BufTy).Contents (Elt F)),
    StableHlo.binary main_v139 main_v140 main_v141 (cmpi .slt : (⟨S262144, .i32⟩ : BufTy).Contents (Elt F) → (⟨S262144, .i32⟩ : BufTy).Contents (Elt F) → (⟨S262144, .i1⟩ : BufTy).Contents (Elt F)),
    StableHlo.nullary main_c_29 (constantI S_ 32 8192#32),
    StableHlo.unary main_c_29 main_v142 (broadcastInDim S262144 ![] bcast_S_S262144 : (⟨S_, .i32⟩ : BufTy).Contents (Elt F) → (⟨S262144, .i32⟩ : BufTy).Contents (Elt F)),
    StableHlo.binary main_v139 main_v142 main_v143 (addi : (⟨S262144, .i32⟩ : BufTy).Contents (Elt F) → (⟨S262144, .i32⟩ : BufTy).Contents (Elt F) → (⟨S262144, .i32⟩ : BufTy).Contents (Elt F)),
    StableHlo.ternary main_v141 main_v143 main_v139 main_v144 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v144 main_v145 (broadcastInDim S262144x1 ![0] bcast_S262144_S262144x1_0 : (⟨S262144, .i32⟩ : BufTy).Contents (Elt F) → (⟨S262144x1, .i32⟩ : BufTy).Contents (Elt F)),
    StableHlo.binary main_v77 main_v145 main_v146 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    StableHlo.nullary main_cst_30 (constant S_ .f32 0x00000000#32) ]

/-- The buffers' contents after stretch 4. -/
def val5 (V0 : Valuation τ sig (Elt F)) : Valuation τ sig (Elt F) := after stretch4_ops (val4 V0)
/-- The buffers stretch 4 writes. -/
abbrev stretch4_W : List (Ref sig .tc) := [main_v123, main_v124, main_v125, main_v126, main_v127, main_cst_26, main_v128, main_v129, main_v130, main_cst_27, main_v131, main_v132, main_v133, main_v134, main_v135, main_v136, main_v137, main_v138, main_v139, main_c_28, main_v140, main_v141, main_c_29, main_v142, main_v143, main_v144, main_v145, main_v146, main_cst_30]
set_option maxHeartbeats 40000000 in
theorem stretch4_writes : (stretch4_ops : List (HloOp τ sig (Elt F))).Forall fun op => op.writes ⊆ (stretch4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ stretch4_W) :
    val5 V0 (Proc.devRef .tc r) = val4 V0 (Proc.devRef .tc r) :=
  after_of_writes_sub stretch4_ops _ stretch4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_v38 (V0 : Valuation τ sig (Elt F)) : val5 V0 (no_index (Proc.devRef .tc main_v38)) = kres_main_v38 V0 :=
  (val5_keep V0 main_v38 (by decide)).trans (val4_main_v38 V0)
theorem val5_main_v77 (V0 : Valuation τ sig (Elt F)) : val5 V0 (no_index (Proc.devRef .tc main_v77)) = kres_main_v77 V0 :=
  (val5_keep V0 main_v77 (by decide)).trans (val4_main_v77 V0)
set_option maxHeartbeats 4000000 in
theorem val5_main_v135 (V0 : Valuation τ sig (Elt F)) : val5 V0 (no_index (Proc.devRef .tc main_v135)) = Host.tanh (Host.divf (kres_main_v126 V0) (broadcastInDim S8192x64 ![0, 1] bcast_S8192x1_S8192x64_0_1 (maximumf (Host.sqrt (broadcastInDim S8192x1 ![0] bcast_S8192_S8192x1_0 (Host.reduceAdd (mulf (kres_main_v126 V0) (kres_main_v126 V0)) (constant S_ .f32 0x00000000#32) reducesTo_S8192x64_S8192_d1 h_S_))) (broadcastInDim S8192x1 ![] bcast_S_S8192x1 (constant S_ .f32 0x2B8CBCCC#32))))) := by
  unfold val5
  simp only [stretch4_ops]
  after_results_simp
  all_goals (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_v38, val4_main_v77, val4_main_v122] <;> rfl)
set_option maxHeartbeats 4000000 in
theorem val5_main_v137 (V0 : Valuation τ sig (Elt F)) : val5 V0 (no_index (Proc.devRef .tc main_v137)) = kres_main_v137 V0 := by
  unfold val5
  simp only [stretch4_ops]
  after_results_simp
  all_goals (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_v38, val4_main_v77, val4_main_v122] <;> rfl)
set_option maxHeartbeats 4000000 in
theorem val5_main_v146 (V0 : Valuation τ sig (Elt F)) : val5 V0 (no_index (Proc.devRef .tc main_v146)) = Host.gather gather_S8192x64_S262144x1_S262144x64_1_0_n_n_0_1_164 (kres_main_v77 V0) (broadcastInDim S262144x1 ![0] bcast_S262144_S262144x1_0 (select (cmpi .slt (kres_main_v139 V0) (broadcastInDim S262144 ![] bcast_S_S262144 (constantI S_ 32 0#32))) (addi (kres_main_v139 V0) (broadcastInDim S262144 ![] bcast_S_S262144 (constantI S_ 32 8192#32))) (kres_main_v139 V0))) := by
  unfold val5
  simp only [stretch4_ops]
  after_results_simp
  all_goals (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_v38, val4_main_v77, val4_main_v122] <;> rfl)
set_option maxHeartbeats 4000000 in
theorem val5_main_cst_30 (V0 : Valuation τ sig (Elt F)) : val5 V0 (no_index (Proc.devRef .tc main_cst_30)) = constant S_ .f32 0x00000000#32 := by
  unfold val5
  simp only [stretch4_ops]
  after_results_simp
  all_goals (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_v38, val4_main_v77, val4_main_v122] <;> rfl)

end Cert.KernelIdeal.Stages

end
-- ==== Proof.KI.Rb5.lean ====
/-
  Stretch 5 of the host operations before the region (operations 181 … 222 of 250): the buffers it writes, that a
  buffer it does not write keeps its contents through it, and the contents of the buffers later stretches still read.
-/
import proofs.«181554_j91190745628895_2_alg».proof.Proof.KI.Rb4

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 181 … 222 of the 250, in order. -/
abbrev stretch5_ops : List (HloOp τ sig (Elt F)) :=
  [ StableHlo.unary main_cst_30 main_v147 (broadcastInDim S8192x64 ![] bcast_S_S8192x64 : (⟨S_, .f32⟩ : BufTy).Contents (Elt F) → (⟨S8192x64, .f32⟩ : BufTy).Contents (Elt F)),
    StableHlo.unary main_v137 main_v148 (broadcastInDim S262144x1 ![0] bcast_S262144_S262144x1_0 : (⟨S262144, .i32⟩ : BufTy).Contents (Elt F) → (⟨S262144x1, .i32⟩ : BufTy).Contents (Elt F)),
    StableHlo.ternary main_v147 main_v148 main_v146 main_v149 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    StableHlo.nullary main_cst_31 (constant S_ .f32 0x3F800000#32),
    StableHlo.unary main_cst_31 main_v150 (broadcastInDim S262144x1 ![] bcast_S_S262144x1 : (⟨S_, .f32⟩ : BufTy).Contents (Elt F) → (⟨S262144x1, .f32⟩ : BufTy).Contents (Elt F)),
    StableHlo.nullary main_cst_32 (constant S_ .f32 0x00000000#32),
    StableHlo.unary main_cst_32 main_v151 (broadcastInDim S8192x1 ![] bcast_S_S8192x1 : (⟨S_, .f32⟩ : BufTy).Contents (Elt F) → (⟨S8192x1, .f32⟩ : BufTy).Contents (Elt F)),
    StableHlo.unary main_v137 main_v152 (broadcastInDim S262144x1 ![0] bcast_S262144_S262144x1_0 : (⟨S262144, .i32⟩ : BufTy).Contents (Elt F) → (⟨S262144x1, .i32⟩ : BufTy).Contents (Elt F)),
    StableHlo.ternary main_v151 main_v152 main_v150 main_v153 ((fun x i u => Host.scatterAdd scatter_S8192x1_S262144x1_S262144x1_1_0_0_1 x i u) : (⟨S8192x1, .f32⟩ : BufTy).Contents (Elt F) → (⟨S262144x1, .i32⟩ : BufTy).Contents (Elt F) → (⟨S262144x1, .f32⟩ : BufTy).Contents (Elt F) → (⟨S8192x1, .f32⟩ : BufTy).Contents (Elt F)),
    StableHlo.nullary main_cst_33 (constant S_ .f32 0x3F800000#32),
    StableHlo.unary main_cst_33 main_v154 (broadcastInDim S8192x1 ![] bcast_S_S8192x1 : (⟨S_, .f32⟩ : BufTy).Contents (Elt F) → (⟨S8192x1, .f32⟩ : BufTy).Contents (Elt F)),
    StableHlo.binary main_v153 main_v154 main_v155 (maximumf : (⟨S8192x1, .f32⟩ : BufTy).Contents (Elt F) → (⟨S8192x1, .f32⟩ : BufTy).Contents (Elt F) → (⟨S8192x1, .f32⟩ : BufTy).Contents (Elt F)),
    StableHlo.unary main_v155 main_v156 (broadcastInDim S8192x64 ![0, 1] bcast_S8192x1_S8192x64_0_1 : (⟨S8192x1, .f32⟩ : BufTy).Contents (Elt F) → (⟨S8192x64, .f32⟩ : BufTy).Contents (Elt F)),
    StableHlo.binary main_v149 main_v156 main_v157 (Host.divf : (⟨S8192x64, .f32⟩ : BufTy).Contents (Elt F) → (⟨S8192x64, .f32⟩ : BufTy).Contents (Elt F) → (⟨S8192x64, .f32⟩ : BufTy).Contents (Elt F)),
    StableHlo.unary main_arg2 main_v158 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v158 main_v159 rfl shapeCasts_S1x262144_S262144,
    StableHlo.unary main_arg2 main_v160 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v160 main_v161 rfl shapeCasts_S1x262144_S262144,
    StableHlo.nullary main_c_34 (constantI S_ 32 0#32),
    StableHlo.unary main_c_34 main_v162 (broadcastInDim S262144 ![] bcast_S_S262144 : (⟨S_, .i32⟩ : BufTy).Contents (Elt F) → (⟨S262144, .i32⟩ : BufTy).Contents (Elt F)),
    StableHlo.binary main_v161 main_v162 main_v163 (cmpi .slt : (⟨S262144, .i32⟩ : BufTy).Contents (Elt F) → (⟨S262144, .i32⟩ : BufTy).Contents (Elt F) → (⟨S262144, .i1⟩ : BufTy).Contents (Elt F)),
    StableHlo.nullary main_c_35 (constantI S_ 32 8192#32),
    StableHlo.unary main_c_35 main_v164 (broadcastInDim S262144 ![] bcast_S_S262144 : (⟨S_, .i32⟩ : BufTy).Contents (Elt F) → (⟨S262144, .i32⟩ : BufTy).Contents (Elt F)),
    StableHlo.binary main_v161 main_v164 main_v165 (addi : (⟨S262144, .i32⟩ : BufTy).Contents (Elt F) → (⟨S262144, .i32⟩ : BufTy).Contents (Elt F) → (⟨S262144, .i32⟩ : BufTy).Contents (Elt F)),
    StableHlo.ternary main_v163 main_v165 main_v161 main_v166 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v166 main_v167 (broadcastInDim S262144x1 ![0] bcast_S262144_S262144x1_0 : (⟨S262144, .i32⟩ : BufTy).Contents (Elt F) → (⟨S262144x1, .i32⟩ : BufTy).Contents (Elt F)),
    StableHlo.binary main_v38 main_v167 main_v168 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    StableHlo.nullary main_cst_36 (constant S_ .f32 0x00000000#32),
    StableHlo.unary main_cst_36 main_v169 (broadcastInDim S8192x64 ![] bcast_S_S8192x64 : (⟨S_, .f32⟩ : BufTy).Contents (Elt F) → (⟨S8192x64, .f32⟩ : BufTy).Contents (Elt F)),
    StableHlo.unary main_v159 main_v170 (broadcastInDim S262144x1 ![0] bcast_S262144_S262144x1_0 : (⟨S262144, .i32⟩ : BufTy).Contents (Elt F) → (⟨S262144x1, .i32⟩ : BufTy).Contents (Elt F)),
    StableHlo.ternary main_v169 main_v170 main_v168 main_v171 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    StableHlo.nullary main_cst_37 (constant S_ .f32 0x3F800000#32),
    StableHlo.unary main_cst_37 main_v172 (broadcastInDim S262144x1 ![] bcast_S_S262144x1 : (⟨S_, .f32⟩ : BufTy).Contents (Elt F) → (⟨S262144x1, .f32⟩ : BufTy).Contents (Elt F)),
    StableHlo.nullary main_cst_38 (constant S_ .f32 0x00000000#32),
    StableHlo.unary main_cst_38 main_v173 (broadcastInDim S8192x1 ![] bcast_S_S8192x1 : (⟨S_, .f32⟩ : BufTy).Contents (Elt F) → (⟨S8192x1, .f32⟩ : BufTy).Contents (Elt F)),
    StableHlo.unary main_v159 main_v174 (broadcastInDim S262144x1 ![0] bcast_S262144_S262144x1_0 : (⟨S262144, .i32⟩ : BufTy).Contents (Elt F) → (⟨S262144x1, .i32⟩ : BufTy).Contents (Elt F)),
    StableHlo.ternary main_v173 main_v174 main_v172 main_v175 ((fun x i u => Host.scatterAdd scatter_S8192x1_S262144x1_S262144x1_1_0_0_1 x i u) : (⟨S8192x1, .f32⟩ : BufTy).Contents (Elt F) → (⟨S262144x1, .i32⟩ : BufTy).Contents (Elt F) → (⟨S262144x1, .f32⟩ : BufTy).Contents (Elt F) → (⟨S8192x1, .f32⟩ : BufTy).Contents (Elt F)),
    StableHlo.nullary main_cst_39 (constant S_ .f32 0x3F800000#32),
    StableHlo.unary main_cst_39 main_v176 (broadcastInDim S8192x1 ![] bcast_S_S8192x1 : (⟨S_, .f32⟩ : BufTy).Contents (Elt F) → (⟨S8192x1, .f32⟩ : BufTy).Contents (Elt F)),
    StableHlo.binary main_v175 main_v176 main_v177 (maximumf : (⟨S8192x1, .f32⟩ : BufTy).Contents (Elt F) → (⟨S8192x1, .f32⟩ : BufTy).Contents (Elt F) → (⟨S8192x1, .f32⟩ : BufTy).Contents (Elt F)),
    StableHlo.unary main_v177 main_v178 (broadcastInDim S8192x64 ![0, 1] bcast_S8192x1_S8192x64_0_1 : (⟨S8192x1, .f32⟩ : BufTy).Contents (Elt F) → (⟨S8192x64, .f32⟩ : BufTy).Contents (Elt F)),
    StableHlo.binary main_v171 main_v178 main_v179 (Host.divf : (⟨S8192x64, .f32⟩ : BufTy).Contents (Elt F) → (⟨S8192x64, .f32⟩ : BufTy).Contents (Elt F) → (⟨S8192x64, .f32⟩ : BufTy).Contents (Elt F)) ]

/-- The buffers' contents after stretch 5. -/
def val6 (V0 : Valuation τ sig (Elt F)) : Valuation τ sig (Elt F) := after stretch5_ops (val5 V0)
/-- The buffers stretch 5 writes. -/
abbrev stretch5_W : List (Ref sig .tc) := [main_v147, main_v148, main_v149, main_cst_31, main_v150, main_cst_32, main_v151, main_v152, main_v153, main_cst_33, main_v154, main_v155, main_v156, main_v157, main_v158, main_v159, main_v160, main_v161, main_c_34, main_v162, main_v163, main_c_35, main_v164, main_v165, main_v166, main_v167, main_v168, main_cst_36, main_v169, main_v170, main_v171, main_cst_37, main_v172, main_cst_38, main_v173, main_v174, main_v175, main_cst_39, main_v176, main_v177, main_v178, main_v179]
set_option maxHeartbeats 40000000 in
theorem stretch5_writes : (stretch5_ops : List (HloOp τ sig (Elt F))).Forall fun op => op.writes ⊆ (stretch5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ stretch5_W) :
    val6 V0 (Proc.devRef .tc r) = val5 V0 (Proc.devRef .tc r) :=
  after_of_writes_sub stretch5_ops _ stretch5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_v77 (V0 : Valuation τ sig (Elt F)) : val6 V0 (no_index (Proc.devRef .tc main_v77)) = kres_main_v77 V0 :=
  (val6_keep V0 main_v77 (by decide)).trans (val5_main_v77 V0)
theorem val6_main_v135 (V0 : Valuation τ sig (Elt F)) : val6 V0 (no_index (Proc.devRef .tc main_v135)) = Host.tanh (Host.divf (kres_main_v126 V0) (broadcastInDim S8192x64 ![0, 1] bcast_S8192x1_S8192x64_0_1 (maximumf (Host.sqrt (broadcastInDim S8192x1 ![0] bcast_S8192_S8192x1_0 (Host.reduceAdd (mulf (kres_main_v126 V0) (kres_main_v126 V0)) (constant S_ .f32 0x00000000#32) reducesTo_S8192x64_S8192_d1 h_S_))) (broadcastInDim S8192x1 ![] bcast_S_S8192x1 (constant S_ .f32 0x2B8CBCCC#32))))) :=
  (val6_keep V0 main_v135 (by decide)).trans (val5_main_v135 V0)
set_option maxHeartbeats 4000000 in
theorem val6_main_v157 (V0 : Valuation τ sig (Elt F)) : val6 V0 (no_index (Proc.devRef .tc main_v157)) = Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v137 V0)) (Host.gather gather_S8192x64_S262144x1_S262144x64_1_0_n_n_0_1_164 (kres_main_v77 V0) (broadcastInDim S262144x1 ![0] bcast_S262144_S262144x1_0 (select (cmpi .slt (kres_main_v139 V0) (broadcastInDim S262144 ![] bcast_S_S262144 (constantI S_ 32 0#32))) (addi (kres_main_v139 V0) (broadcastInDim S262144 ![] bcast_S_S262144 (constantI S_ 32 8192#32))) (kres_main_v139 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v137 V0)) (broadcastInDim S262144x1 ![] bcast_S_S262144x1 (constant S_ .f32 0x3F800000#32))) (broadcastInDim S8192x1 ![] bcast_S_S8192x1 (constant S_ .f32 0x3F800000#32)))) := by
  unfold val6
  simp only [stretch5_ops]
  after_results_simp
  all_goals (simp only [val5_main_arg0, val5_main_arg1, val5_main_arg2, val5_main_arg3, val5_main_arg4, val5_main_arg5, val5_main_arg6, val5_main_arg7, val5_main_arg8, val5_main_arg9, val5_main_arg10, val5_main_arg11, val5_main_arg12, val5_main_v38, val5_main_v77, val5_main_v135, val5_main_v137, val5_main_v146, val5_main_cst_30] <;> rfl)
set_option maxHeartbeats 4000000 in
theorem val6_main_v179 (V0 : Valuation τ sig (Elt F)) : val6 V0 (no_index (Proc.devRef .tc main_v179)) = Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v159 V0)) (Host.gather gather_S8192x64_S262144x1_S262144x64_1_0_n_n_0_1_164 (kres_main_v38 V0) (broadcastInDim S262144x1 ![0] bcast_S262144_S262144x1_0 (select (cmpi .slt (kres_main_v161 V0) (broadcastInDim S262144 ![] bcast_S_S262144 (constantI S_ 32 0#32))) (addi (kres_main_v161 V0) (broadcastInDim S262144 ![] bcast_S_S262144 (constantI S_ 32 8192#32))) (kres_main_v161 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v159 V0)) (broadcastInDim S262144x1 ![] bcast_S_S262144x1 (constant S_ .f32 0x3F800000#32))) (broadcastInDim S8192x1 ![] bcast_S_S8192x1 (constant S_ .f32 0x3F800000#32)))) := by
  unfold val6
  simp only [stretch5_ops]
  after_results_simp
  all_goals (simp only [val5_main_arg0, val5_main_arg1, val5_main_arg2, val5_main_arg3, val5_main_arg4, val5_main_arg5, val5_main_arg6, val5_main_arg7, val5_main_arg8, val5_main_arg9, val5_main_arg10, val5_main_arg11, val5_main_arg12, val5_main_v38, val5_main_v77, val5_main_v135, val5_main_v137, val5_main_v146, val5_main_cst_30] <;> rfl)

end Cert.KernelIdeal.Stages

end
-- ==== Proof.KI.Rb6.lean ====
/-
  Stretch 6 of the host operations before the region (operations 223 … 223 of 250): the buffers it writes, that a
  buffer it does not write keeps its contents through it, and the contents of the buffers later stretches still read.
-/
import proofs.«181554_j91190745628895_2_alg».proof.Proof.KI.Rb5

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 223 … 223 of the 250, in order. -/
abbrev stretch6_ops : List (HloOp τ sig (Elt F)) :=
  [ StableHlo.nary ![main_v157, main_v179, main_v77] main_v180 (fun u => concatenate S8192x192 1 [⟨S8192x64, u 0⟩, ⟨S8192x64, u 1⟩, ⟨S8192x64, u 2⟩] concatenates_S8192x64_S8192x64_S8192x64_S8192x192_d1) ]

/-- The buffers' contents after stretch 6. -/
def val7 (V0 : Valuation τ sig (Elt F)) : Valuation τ sig (Elt F) := after stretch6_ops (val6 V0)
/-- The buffers stretch 6 writes. -/
abbrev stretch6_W : List (Ref sig .tc) := [main_v180]
set_option maxHeartbeats 40000000 in
theorem stretch6_writes : (stretch6_ops : List (HloOp τ sig (Elt F))).Forall fun op => op.writes ⊆ (stretch6_W.map (Proc.devRef (τ := τ) .tc)).toFinset := by
  simp only [List.Forall]; exact by simp only [nullary_writes, unary_writes, binary_writes, ternary_writes, quaternary_writes, reshape_writes, binaryIndexed_writes, nary_writes, unaryIndexed_writes, Finset.singleton_subset_iff, List.mem_toFinset]; exact List.mem_map_of_mem (by decide)
theorem val7_keep (V0 : Valuation τ sig (Elt F)) (r : Ref sig .tc) (h : r ∉ stretch6_W) :
    val7 V0 (Proc.devRef .tc r) = val6 V0 (Proc.devRef .tc r) :=
  after_of_writes_sub stretch6_ops _ stretch6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_v135 (V0 : Valuation τ sig (Elt F)) : val7 V0 (no_index (Proc.devRef .tc main_v135)) = Host.tanh (Host.divf (kres_main_v126 V0) (broadcastInDim S8192x64 ![0, 1] bcast_S8192x1_S8192x64_0_1 (maximumf (Host.sqrt (broadcastInDim S8192x1 ![0] bcast_S8192_S8192x1_0 (Host.reduceAdd (mulf (kres_main_v126 V0) (kres_main_v126 V0)) (constant S_ .f32 0x00000000#32) reducesTo_S8192x64_S8192_d1 h_S_))) (broadcastInDim S8192x1 ![] bcast_S_S8192x1 (constant S_ .f32 0x2B8CBCCC#32))))) :=
  (val7_keep V0 main_v135 (by decide)).trans (val6_main_v135 V0)
theorem val7_main_v180 (V0 : Valuation τ sig (Elt F)) : val7 V0 (no_index (Proc.devRef .tc main_v180)) = concatenate S8192x192 1 [⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v137 V0)) (Host.gather gather_S8192x64_S262144x1_S262144x64_1_0_n_n_0_1_164 (kres_main_v77 V0) (broadcastInDim S262144x1 ![0] bcast_S262144_S262144x1_0 (select (cmpi .slt (kres_main_v139 V0) (broadcastInDim S262144 ![] bcast_S_S262144 (constantI S_ 32 0#32))) (addi (kres_main_v139 V0) (broadcastInDim S262144 ![] bcast_S_S262144 (constantI S_ 32 8192#32))) (kres_main_v139 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v137 V0)) (broadcastInDim S262144x1 ![] bcast_S_S262144x1 (constant S_ .f32 0x3F800000#32))) (broadcastInDim S8192x1 ![] bcast_S_S8192x1 (constant S_ .f32 0x3F800000#32)))))⟩, ⟨S8192x64, (Host.divf (Host.scatterAdd scatter_S8192x64_S262144x1_S262144x64_1_0_0_1 (broadcastInDim S8192x64 ![] bcast_S_S8192x64 (constant S_ .f32 0x00000000#32)) (broadcastInDim S262144x1 ![0] bcast_S262144_S262144x1_0 (kres_main_v159 V0)) (Host.gather gather_S8192x64_S262144x1_S262144x64_1_0_n_n_0_1_164 (kres_main_v38 V0) (broadcastInDim S262144x1 ![0] bcast_S262144_S262144x1_0 (select (cmpi .slt (kres_main_v161 V0) (broadcastInDim S262144 ![] bcast_S_S262144 (constantI S_ 32 0#32))) (addi (kres_main_v161 V0) (broadcastInDim S262144 ![] bcast_S_S262144 (constantI S_ 32 8192#32))) (kres_main_v161 V0))))) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) (broadcastInDim S262144x1 ![0] bcast_S262144_S262144x1_0 (kres_main_v159 V0)) (broadcastInDim S262144x1 ![] bcast_S_S262144x1 (constant S_ .f32 0x3F800000#32))) (broadcastInDim S8192x1 ![] bcast_S_S8192x1 (constant S_ .f32 0x3F800000#32)))))⟩, ⟨S8192x64, (kres_main_v77 V0)⟩] concatenates_S8192x64_S8192x64_S8192x64_S8192x192_d1 := by
  unfold val7
  simp only [stretch6_ops, after_cons, after_nil]
  rw [nary_result]
  show concatenate S8192x192 1 [⟨S8192x64, val6 V0 (Proc.devRef .tc main_v157)⟩, ⟨S8192x64, val6 V0 (Proc.devRef .tc main_v179)⟩, ⟨S8192x64, val6 V0 (Proc.devRef .tc main_v77)⟩] concatenates_S8192x64_S8192x64_S8192x64_S8192x192_d1 = _
  rw [val6_main_v157, val6_main_v179, val6_main_v77]

end Cert.KernelIdeal.Stages

end
-- ==== Proof.KI.Rb7.lean ====
/-
  Stretch 7 of the host operations before the region (operations 224 … 238 of 250): the buffers it writes, that a
  buffer it does not write keeps its contents through it, and the contents of the buffers later stretches still read.
-/
import proofs.«181554_j91190745628895_2_alg».proof.Proof.KI.Rb6

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 224 … 238 of the 250, in order. -/
abbrev stretch7_ops : List (HloOp τ sig (Elt F)) :=
  [ StableHlo.binary main_v180 main_arg11 main_v181 ((fun l r => Host.dotGeneral dot_S8192x192_S192x64_S8192x64_1_0_0_1_n_n none l r) : (⟨S8192x192, .f32⟩ : BufTy).Contents (Elt F) → (⟨S192x64, .f32⟩ : BufTy).Contents (Elt F) → (⟨S8192x64, .f32⟩ : BufTy).Contents (Elt F)),
    StableHlo.unary main_arg12 main_v182 (broadcastInDim S1x64 ![1] bcast_S64_S1x64_1 : (⟨S64, .f32⟩ : BufTy).Contents (Elt F) → (⟨S1x64, .f32⟩ : BufTy).Contents (Elt F)),
    StableHlo.unary main_v182 main_v183 (broadcastInDim S8192x64 ![0, 1] bcast_S1x64_S8192x64_0_1 : (⟨S1x64, .f32⟩ : BufTy).Contents (Elt F) → (⟨S8192x64, .f32⟩ : BufTy).Contents (Elt F)),
    StableHlo.binary main_v181 main_v183 main_v184 (addf : (⟨S8192x64, .f32⟩ : BufTy).Contents (Elt F) → (⟨S8192x64, .f32⟩ : BufTy).Contents (Elt F) → (⟨S8192x64, .f32⟩ : BufTy).Contents (Elt F)),
    StableHlo.binary main_v184 main_v184 main_v185 (mulf : (⟨S8192x64, .f32⟩ : BufTy).Contents (Elt F) → (⟨S8192x64, .f32⟩ : BufTy).Contents (Elt F) → (⟨S8192x64, .f32⟩ : BufTy).Contents (Elt F)),
    StableHlo.nullary main_cst_40 (constant S_ .f32 0x00000000#32),
    StableHlo.binary main_v185 main_cst_40 main_v186 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v186 main_v187 (broadcastInDim S8192x1 ![0] bcast_S8192_S8192x1_0 : (⟨S8192, .f32⟩ : BufTy).Contents (Elt F) → (⟨S8192x1, .f32⟩ : BufTy).Contents (Elt F)),
    StableHlo.unary main_v187 main_v188 (Host.sqrt : (⟨S8192x1, .f32⟩ : BufTy).Contents (Elt F) → (⟨S8192x1, .f32⟩ : BufTy).Contents (Elt F)),
    StableHlo.nullary main_cst_41 (constant S_ .f32 0x2B8CBCCC#32),
    StableHlo.unary main_cst_41 main_v189 (broadcastInDim S8192x1 ![] bcast_S_S8192x1 : (⟨S_, .f32⟩ : BufTy).Contents (Elt F) → (⟨S8192x1, .f32⟩ : BufTy).Contents (Elt F)),
    StableHlo.binary main_v188 main_v189 main_v190 (maximumf : (⟨S8192x1, .f32⟩ : BufTy).Contents (Elt F) → (⟨S8192x1, .f32⟩ : BufTy).Contents (Elt F) → (⟨S8192x1, .f32⟩ : BufTy).Contents (Elt F)),
    StableHlo.unary main_v190 main_v191 (broadcastInDim S8192x64 ![0, 1] bcast_S8192x1_S8192x64_0_1 : (⟨S8192x1, .f32⟩ : BufTy).Contents (Elt F) → (⟨S8192x64, .f32⟩ : BufTy).Contents (Elt F)),
    StableHlo.binary main_v184 main_v191 main_v192 (Host.divf : (⟨S8192x64, .f32⟩ : BufTy).Contents (Elt F) → (⟨S8192x64, .f32⟩ : BufTy).Contents (Elt F) → (⟨S8192x64, .f32⟩ : BufTy).Contents (Elt F)),
    StableHlo.unary main_v192 main_v193 (Host.tanh : (⟨S8192x64, .f32⟩ : BufTy).Contents (Elt F) → (⟨S8192x64, .f32⟩ : BufTy).Contents (Elt F)) ]

/-- The buffers' contents after stretch 7. -/
def val8 (V0 : Valuation τ sig (Elt F)) : Valuation τ sig (Elt F) := after stretch7_ops (val7 V0)
/-- The buffers stretch 7 writes. -/
abbrev stretch7_W : List (Ref sig .tc) := [main_v181, main_v182, main_v183, main_v184, main_v185, main_cst_40, main_v186, main_v187, main_v188, main_cst_41, main_v189, main_v190, main_v191, main_v192, main_v193]
set_option maxHeartbeats 40000000 in
theorem stretch7_writes : (stretch7_ops : List (HloOp τ sig (Elt F))).Forall fun op => op.writes ⊆ (stretch7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V0 : Valuation τ sig (Elt F)) (r : Ref sig .tc) (h : r ∉ stretch7_W) :
    val8 V0 (Proc.devRef .tc r) = val7 V0 (Proc.devRef .tc r) :=
  after_of_writes_sub stretch7_ops _ stretch7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_v135 (V0 : Valuation τ sig (Elt F)) : val8 V0 (no_index (Proc.devRef .tc main_v135)) = Host.tanh (Host.divf (kres_main_v126 V0) (broadcastInDim S8192x64 ![0, 1] bcast_S8192x1_S8192x64_0_1 (maximumf (Host.sqrt (broadcastInDim S8192x1 ![0] bcast_S8192_S8192x1_0 (Host.reduceAdd (mulf (kres_main_v126 V0) (kres_main_v126 V0)) (constant S_ .f32 0x00000000#32) reducesTo_S8192x64_S8192_d1 h_S_))) (broadcastInDim S8192x1 ![] bcast_S_S8192x1 (constant S_ .f32 0x2B8CBCCC#32))))) :=
  (val8_keep V0 main_v135 (by decide)).trans (val7_main_v135 V0)
set_option maxHeartbeats 4000000 in
theorem val8_main_v193 (V0 : Valuation τ sig (Elt F)) : val8 V0 (no_index (Proc.devRef .tc main_v193)) = Host.tanh (Host.divf (kres_main_v184 V0) (broadcastInDim S8192x64 ![0, 1] bcast_S8192x1_S8192x64_0_1 (maximumf (Host.sqrt (broadcastInDim S8192x1 ![0] bcast_S8192_S8192x1_0 (Host.reduceAdd (mulf (kres_main_v184 V0) (kres_main_v184 V0)) (constant S_ .f32 0x00000000#32) reducesTo_S8192x64_S8192_d1 h_S_))) (broadcastInDim S8192x1 ![] bcast_S_S8192x1 (constant S_ .f32 0x2B8CBCCC#32))))) := by
  unfold val8
  simp only [stretch7_ops]
  after_results_simp
  all_goals (simp only [val7_main_arg0, val7_main_arg1, val7_main_arg2, val7_main_arg3, val7_main_arg4, val7_main_arg5, val7_main_arg6, val7_main_arg7, val7_main_arg8, val7_main_arg9, val7_main_arg10, val7_main_arg11, val7_main_arg12, val7_main_v135, val7_main_v180] <;> rfl)

end Cert.KernelIdeal.Stages

end
-- ==== Proof.KI.Rb8.lean ====
/-
  Stretch 8 of the host operations before the region (operations 239 … 239 of 250): the buffers it writes, that a
  buffer it does not write keeps its contents through it, and the contents of the buffers later stretches still read.
-/
import proofs.«181554_j91190745628895_2_alg».proof.Proof.KI.Rb7

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 239 … 239 of the 250, in order. -/
abbrev stretch8_ops : List (HloOp τ sig (Elt F)) :=
  [ StableHlo.binary main_v135 main_v193 main_v194 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]

/-- The buffers' contents after stretch 8. -/
def val9 (V0 : Valuation τ sig (Elt F)) : Valuation τ sig (Elt F) := after stretch8_ops (val8 V0)
/-- The buffers stretch 8 writes. -/
abbrev stretch8_W : List (Ref sig .tc) := [main_v194]
set_option maxHeartbeats 40000000 in
theorem stretch8_writes : (stretch8_ops : List (HloOp τ sig (Elt F))).Forall fun op => op.writes ⊆ (stretch8_W.map (Proc.devRef (τ := τ) .tc)).toFinset := by
  simp only [List.Forall]; exact by simp only [nullary_writes, unary_writes, binary_writes, ternary_writes, quaternary_writes, reshape_writes, binaryIndexed_writes, nary_writes, unaryIndexed_writes, Finset.singleton_subset_iff, List.mem_toFinset]; exact List.mem_map_of_mem (by decide)
theorem val9_keep (V0 : Valuation τ sig (Elt F)) (r : Ref sig .tc) (h : r ∉ stretch8_W) :
    val9 V0 (Proc.devRef .tc r) = val8 V0 (Proc.devRef .tc r) :=
  after_of_writes_sub stretch8_ops _ stretch8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_v194 (V0 : Valuation τ sig (Elt F)) : val9 V0 (no_index (Proc.devRef .tc main_v194)) = kres_main_v194 V0 := by
  unfold val9
  simp only [stretch8_ops, after_cons, after_nil]
  rw [binary_result]
  show concatenate S8192x128 1 [⟨S8192x64, (val8 V0 (Proc.devRef .tc main_v135))⟩, ⟨S8192x64, (val8 V0 (Proc.devRef .tc main_v193))⟩] concatenates_S8192x64_S8192x64_S8192x128_d1 = _
  rw [val8_main_v135, val8_main_v193]
  all_goals rfl

end Cert.KernelIdeal.Stages

end
-- ==== Proof.KI.Rb9.lean ====
/-
  Stretch 9 of the host operations before the region (operations 240 … 240 of 250): the buffers it writes, that a
  buffer it does not write keeps its contents through it, and the contents of the buffers later stretches still read.
-/
import proofs.«181554_j91190745628895_2_alg».proof.Proof.KI.Rb8

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 240 … 240 of the 250, in order. -/
abbrev stretch9_ops : List (HloOp τ sig (Elt F)) :=
  [ StableHlo.binary main_v194 main_v194 main_v195 (mulf : (⟨S8192x128, .f32⟩ : BufTy).Contents (Elt F) → (⟨S8192x128, .f32⟩ : BufTy).Contents (Elt F) → (⟨S8192x128, .f32⟩ : BufTy).Contents (Elt F)) ]

/-- The buffers' contents after stretch 9. -/
def val10 (V0 : Valuation τ sig (Elt F)) : Valuation τ sig (Elt F) := after stretch9_ops (val9 V0)
/-- The buffers stretch 9 writes. -/
abbrev stretch9_W : List (Ref sig .tc) := [main_v195]
set_option maxHeartbeats 40000000 in
theorem stretch9_writes : (stretch9_ops : List (HloOp τ sig (Elt F))).Forall fun op => op.writes ⊆ (stretch9_W.map (Proc.devRef (τ := τ) .tc)).toFinset := by
  simp only [List.Forall]; exact by simp only [nullary_writes, unary_writes, binary_writes, ternary_writes, quaternary_writes, reshape_writes, binaryIndexed_writes, nary_writes, unaryIndexed_writes, Finset.singleton_subset_iff, List.mem_toFinset]; exact List.mem_map_of_mem (by decide)
theorem val10_keep (V0 : Valuation τ sig (Elt F)) (r : Ref sig .tc) (h : r ∉ stretch9_W) :
    val10 V0 (Proc.devRef .tc r) = val9 V0 (Proc.devRef .tc r) :=
  after_of_writes_sub stretch9_ops _ stretch9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_v194 (V0 : Valuation τ sig (Elt F)) : val10 V0 (no_index (Proc.devRef .tc main_v194)) = kres_main_v194 V0 :=
  (val10_keep V0 main_v194 (by decide)).trans (val9_main_v194 V0)
set_option maxHeartbeats 4000000 in
theorem val10_main_v195 (V0 : Valuation τ sig (Elt F)) : val10 V0 (no_index (Proc.devRef .tc main_v195)) = mulf (kres_main_v194 V0) (kres_main_v194 V0) := by
  unfold val10
  simp only [stretch9_ops]
  after_results_simp
  all_goals (simp only [val9_main_arg0, val9_main_arg1, val9_main_arg2, val9_main_arg3, val9_main_arg4, val9_main_arg5, val9_main_arg6, val9_main_arg7, val9_main_arg8, val9_main_arg9, val9_main_arg10, val9_main_arg11, val9_main_arg12, val9_main_v194] <;> rfl)

end Cert.KernelIdeal.Stages

end
-- ==== Proof.KI.Rb10.lean ====
/-
  Stretch 10 of the host operations before the region (operations 241 … 250 of 250): the buffers it writes, that a
  buffer it does not write keeps its contents through it, and the contents of the buffers later stretches still read.
-/
import proofs.«181554_j91190745628895_2_alg».proof.Proof.KI.Rb9

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The buffers' contents after stretch 10. -/
def val11 (V0 : Valuation τ sig (Elt F)) : Valuation τ sig (Elt F) := after main_part4_ops0 (val10 V0)
/-- The buffers stretch 10 writes. -/
abbrev stretch10_W : List (Ref sig .tc) := [main_cst_42, main_v196, main_v197, main_v198, main_cst_43, main_v199, main_v200, main_v201, main_v202, main_v203]
set_option maxHeartbeats 40000000 in
theorem stretch10_writes : (main_part4_ops0 : List (HloOp τ sig (Elt F))).Forall fun op => op.writes ⊆ (stretch10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val11_keep (V0 : Valuation τ sig (Elt F)) (r : Ref sig .tc) (h : r ∉ stretch10_W) :
    val11 V0 (Proc.devRef .tc r) = val10 V0 (Proc.devRef .tc r) :=
  after_of_writes_sub main_part4_ops0 _ stretch10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
set_option maxHeartbeats 4000000 in
theorem val11_main_v202 (V0 : Valuation τ sig (Elt F)) : val11 V0 (no_index (Proc.devRef .tc main_v202)) = kres_main_v202 V0 := by
  unfold val11
  simp only [main_part4_ops0]
  after_results_simp
  all_goals (simp only [val10_main_arg0, val10_main_arg1, val10_main_arg2, val10_main_arg3, val10_main_arg4, val10_main_arg5, val10_main_arg6, val10_main_arg7, val10_main_arg8, val10_main_arg9, val10_main_arg10, val10_main_arg11, val10_main_arg12, val10_main_v194, val10_main_v195] <;> rfl)
set_option maxHeartbeats 4000000 in
theorem val11_main_v203 (V0 : Valuation τ sig (Elt F)) : val11 V0 (no_index (Proc.devRef .tc main_v203)) = kres_main_v203 V0 := by
  unfold val11
  simp only [main_part4_ops0]
  after_results_simp
  all_goals (simp only [val10_main_arg0, val10_main_arg1, val10_main_arg2, val10_main_arg3, val10_main_arg4, val10_main_arg5, val10_main_arg6, val10_main_arg7, val10_main_arg8, val10_main_arg9, val10_main_arg10, val10_main_arg11, val10_main_arg12, val10_main_v194, val10_main_v195] <;> rfl)

end Cert.KernelIdeal.Stages

end
-- ==== Proof.KI.Readback.lean ====
/-
  The contents of the normalised embedding and of the labels' matrix when the region is entered are the stages' terms of
  the launch contents: the 250 host operations are the 11 stretches one after the other.
-/
import proofs.«181554_j91190745628895_2_alg».proof.Proof.KI.Rb10
import Idealize.ShloMosaic.Lib.Pipeline.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The 250 operations are the 11 stretches one after the other. -/
theorem hostOps0_split : (hostOps0 : List (HloOp τ sig (Elt F))) = main_part0_ops0 ++ main_part1_ops0 ++ stretch2_ops ++ stretch3_ops ++ stretch4_ops ++ stretch5_ops ++ stretch6_ops ++ stretch7_ops ++ stretch8_ops ++ stretch9_ops ++ main_part4_ops0 := rfl

theorem after_hostOps0 (V0 : Valuation τ sig (Elt F)) : after hostOps0 V0 = val11 V0 := by
  rw [hostOps0_split]; simp only [StableHlo.after_append]; rfl

theorem readback_v202 (V0 : Valuation τ sig (Elt F)) :
    after hostOps0 V0 (Proc.devRef .tc main_v202) = kres_main_v202 V0 := by
  rw [after_hostOps0]; exact val11_main_v202 V0

theorem readback_v203 (V0 : Valuation τ sig (Elt F)) :
    after hostOps0 V0 (Proc.devRef .tc main_v203) = kres_main_v203 V0 := by
  rw [after_hostOps0]; exact val11_main_v203 V0

end Cert.KernelIdeal.Stages

end
-- ==== Proof.LibSegment.lean ====
/-
  Rows named by a column of row numbers: what `x[rows]` and `segment_sum(u, rows)` read at an index.

  A column `idx : [E, 1]` of signed integers names, for each entry `e`, a row of an array with `N` rows.
  A gather clamps the number into `[0, N - 1]` (`clampRow`); a scatter keeps it as it is and drops the
  entry when it lies outside `[0, N)` (`landRow`). With that reading
    * the gather of whole rows of an `N × C` array is the array at row `clampRow e`, same column;
    * the gather of entries of a length-`N` vector is the vector at `clampRow e`;
    * at the extended reals the accumulating scatter of an `E × C` array of updates into an `N × C` array is,
      at `(n, c)`, the operand plus the sum of the updates `(e, c)` over the entries `e` that land on row `n`;
    * the same for a length-`E` vector of updates into a length-`N` vector.
  No program is imported: the dimension records are stated with their well-formedness as a hypothesis, so a
  program's printed record is one of these by `rfl`.
-/
import Idealize.ShloMosaic.Lib.ValueIdx
import Idealize.ShloMosaic.PureOps.Ideal
import Idealize.ShloMosaic.PureOps.Ideal.Laws
import Idealize.ShloMosaic.PureOps.Contract

noncomputable section

namespace Idealize.ShloMosaic.Segment

open Idealize.ShloMosaic Idealize.ShloMosaic.ValueIdx

variable {N E C w : Nat}

/-- Entry `e` of a column of row numbers, read as a signed integer. -/
def rowInt (idx : IVec ⟨2, ![E, 1]⟩ w) (e : Fin E) : Int := (idx (ix2 e (0 : Fin 1))).toInt

/-- The row entry `e` lands on when the number is used as it is: none when it is outside `[0, N)`. -/
def landRow (N : Nat) (idx : IVec ⟨2, ![E, 1]⟩ w) (e : Fin E) : Option (Fin N) :=
  if h : 0 ≤ rowInt idx e ∧ rowInt idx e < N then some ⟨(rowInt idx e).toNat, by omega⟩ else none

/-- The row entry `e` reads when the number is clamped into `[0, N - 1]`. -/
def clampRow (hN : 0 < N) (idx : IVec ⟨2, ![E, 1]⟩ w) (e : Fin E) : Fin N :=
  ⟨min (rowInt idx e).toNat (N - 1), by omega⟩

/-- An entry that lands on row `n` reads row `n` when clamped, through any column holding the same number there. -/
theorem clampRow_of_landRow (hN : 0 < N) (idx idx' : IVec ⟨2, ![E, 1]⟩ w) (e : Fin E) (n : Fin N)
    (h : landRow N idx e = some n) (h' : rowInt idx' e = rowInt idx e) : clampRow hN idx' e = n := by
  unfold landRow at h
  split at h
  · obtain rfl := Option.some.inj h
    apply Fin.ext
    show min (rowInt idx' e).toNat (N - 1) = (rowInt idx e).toNat
    rw [h']
    omega
  · cases h

/-- The dimension numbers of `x[rows, :]`: operand `[N, C]`, row numbers `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of `v[rows]`: operand `[N]`, row numbers `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, row numbers `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand `[N]`, row numbers `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[rows, :]` at `(e, c)` is `x` at the clamped row of entry `e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow hN idx e) c) := by
  unfold Host.gather
  congr 1
  funext a
  match a with
  | ⟨0, _⟩ =>
    refine Fin.ext ?_
    show (rowGatherDims N E C wf).start (ix2 e c) idx 0 + (rowGatherDims N E C wf).batchCoord (ix2 e c) 0 + (rowGatherDims N E C wf).offCoord (ix2 e c) 0
      = min (rowInt idx e).toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGatherDims N E C wf).start (ix2 e c) idx 1 + (rowGatherDims N E C wf).batchCoord (ix2 e c) 1 + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show ¬ (1 : Fin 2) ∈ ([0] : List (Fin 2)) by decide)]
    have ho : (rowGatherDims N E C wf).offCoord (ix2 e c) 1 = c.val := by
      unfold GatherDims.offCoord
      have hk' : (1 : Fin 2) ∈ (List.finRange 2).filter
          (fun a => decide (a ∉ (([0] : List (Fin 2)) ++ ([] : List (Fin 2))))) := by decide
      have hk : (1 : Fin 2) ∈ (rowGatherDims N E C wf).sKept := hk'
      rw [dif_pos hk]
      rfl
    rw [hs, ho]
    simp

/-- `v[rows]` at `e` is `v` at the clamped row of entry `e`. -/
theorem gatherVec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0 + (vecGatherDims N E wf).offCoord (ix1 e) 0
    = min (rowInt idx e).toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The start of update `(e, c)` of a scatter of rows on the row axis is the row number of entry `e`. -/
theorem rowScatter_start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = rowInt idx e := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The start of every update of a scatter of rows on the column axis is `0`. -/
theorem rowScatter_start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show ¬ (1 : Fin 2) ∈ ([0] : List (Fin 2)) by decide)]

/-- The window coordinate of update `(e, c)` of a scatter of rows on the row axis is `0`. -/
theorem rowScatter_window0 (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  have hk : (0 : Fin 2) ∉ (rowScatterDims N E C wf).sKept :=
    (show ¬ (0 : Fin 2) ∈ (List.finRange 2).filter (fun a => decide (a ∉ ([0] : List (Fin 2)))) by decide)
  rw [dif_neg hk]

/-- The window coordinate of update `(e, c)` of a scatter of rows on the column axis is `c`. -/
theorem rowScatter_window1 (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  have hk : (1 : Fin 2) ∈ (rowScatterDims N E C wf).sKept :=
    (show (1 : Fin 2) ∈ (List.finRange 2).filter (fun a => decide (a ∉ ([0] : List (Fin 2)))) by decide)
  rw [dif_pos hk]
  rfl

/-- Where update `(e, c)` of a scatter of rows lands: row `landRow e`, column `c`, or nowhere. -/
theorem rowScatter_resultIdx (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (landRow N idx e).map (fun n => ix2 n c) := by
  have h0 := rowScatter_start0 wf idx e c
  have h1 := rowScatter_start1 wf idx e c
  have w0 := rowScatter_window0 (N := N) wf e c
  have w1 := rowScatter_window1 (N := N) wf e c
  unfold ScatterDims.resultIdx? landRow
  by_cases hr : 0 ≤ rowInt idx e ∧ rowInt idx e < N
  · have hall : ∀ a : Fin 2, 0 ≤ (rowScatterDims N E C wf).start (ix2 e c) idx a + ((rowScatterDims N E C wf).window (ix2 e c) a : Int)
        ∧ (rowScatterDims N E C wf).start (ix2 e c) idx a + ((rowScatterDims N E C wf).window (ix2 e c) a : Int) < ((⟨2, ![N, C]⟩ : Shape).size a : Int) := by
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [h0, w0]; omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [h1, w1]; have := c.isLt; omega
    rw [dif_pos hall, dif_pos hr]
    show some _ = some _
    congr 1
    funext a
    match a with
    | ⟨0, _⟩ =>
      refine Fin.ext ?_
      show ((rowScatterDims N E C wf).start (ix2 e c) idx 0 + ((rowScatterDims N E C wf).window (ix2 e c) 0 : Int)).toNat = (rowInt idx e).toNat
      rw [h0, w0]; simp
    | ⟨1, _⟩ =>
      refine Fin.ext ?_
      show ((rowScatterDims N E C wf).start (ix2 e c) idx 1 + ((rowScatterDims N E C wf).window (ix2 e c) 1 : Int)).toNat = c.val
      rw [h1, w1]; simp
  · have hnot : ¬ ∀ a : Fin 2, 0 ≤ (rowScatterDims N E C wf).start (ix2 e c) idx a + ((rowScatterDims N E C wf).window (ix2 e c) a : Int)
        ∧ (rowScatterDims N E C wf).start (ix2 e c) idx a + ((rowScatterDims N E C wf).window (ix2 e c) a : Int) < ((⟨2, ![N, C]⟩ : Shape).size a : Int) := by
      intro hall
      have h := hall 0
      have h' : 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int) := h
      rw [h0, w0] at h'
      exact hr (by omega)
    rw [dif_neg hnot, dif_neg hr]
    rfl

/-- The start of update `e` of a scatter of scalars is the row number of entry `e`. -/
theorem vecScatter_start0 (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = rowInt idx e := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The window coordinate of every update of a scatter of scalars is `0`. -/
theorem vecScatter_window0 (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  have hk' : ¬ (0 : Fin 1) ∈ (List.finRange 1).filter (fun a => decide (a ∉ ([0] : List (Fin 1)))) := by decide
  have hk : (0 : Fin 1) ∉ (vecScatterDims N E wf).sKept := hk'
  rw [dif_neg hk]

/-- Where update `e` of a scatter of scalars lands: entry `landRow e`, or nowhere. -/
theorem vecScatter_resultIdx (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (landRow N idx e).map (fun n => ix1 n) := by
  have h0 := vecScatter_start0 wf idx e
  have w0 := vecScatter_window0 (N := N) wf e
  unfold ScatterDims.resultIdx? landRow
  by_cases hr : 0 ≤ rowInt idx e ∧ rowInt idx e < N
  · have hall : ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro a
      match a with
      | ⟨0, _⟩ =>
        show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
        rw [h0, w0]; omega
    rw [dif_pos hall, dif_pos hr]
    show some _ = some _
    congr 1
    funext a
    match a with
    | ⟨0, _⟩ =>
      refine Fin.ext ?_
      show ((vecScatterDims N E wf).start (ix1 e) idx 0 + ((vecScatterDims N E wf).window (ix1 e) 0 : Int)).toNat = (rowInt idx e).toNat
      rw [h0, w0]; simp
  · have hnot : ¬ ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro hall
      have h := hall 0
      have h' : 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int) := h
      rw [h0, w0] at h'
      exact hr (by omega)
    rw [dif_neg hnot, dif_neg hr]
    rfl

/-- At the extended reals the accumulating scatter of rows, at `(n, c)`: the operand there plus the updates
    `(e, c)` of the entries `e` landing on row `n`. -/
theorem scatterAddRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = (x (ix2 n c) : EReal) + ∑ e ∈ Finset.univ.filter (fun e : Fin E => landRow N idx e = some n), (upd (ix2 e c) : EReal) := by
  show Ideal.hostScatterAdd (rowScatterDims N E C wf) x idx upd (ix2 n c) = _
  unfold Ideal.hostScatterAdd
  congr 1
  rw [Finset.sum_filter, Finset.sum_filter, sum_idx2]
  refine Finset.sum_congr rfl fun a _ => ?_
  have hP : ∀ b : Fin C, ((rowScatterDims N E C wf).resultIdx? (ix2 a b) idx = some (ix2 n c)) ↔ (landRow N idx a = some n ∧ b = c) := by
    intro b
    rw [rowScatter_resultIdx]
    cases landRow N idx a with
    | none => simp
    | some m =>
      simp only [Option.map_some, Option.some.injEq]
      constructor
      · intro h
        exact ⟨congrFun h 0, congrFun h 1⟩
      · rintro ⟨rfl, rfl⟩; rfl
  simp only [hP]
  by_cases hl : landRow N idx a = some n
  · simp [hl, Finset.sum_ite_eq']
  · simp [hl]

/-- A sum over the indices of a length-`n` vector is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ ?_
  intro i
  exact congrArg f (eq_ix1 i)

/-- At the extended reals the accumulating scatter of scalars, at `n`: the operand there plus the updates of
    the entries landing on `n`. -/
theorem scatterAddVec_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = (x (ix1 n) : EReal) + ∑ e ∈ Finset.univ.filter (fun e : Fin E => landRow N idx e = some n), (upd (ix1 e) : EReal) := by
  show Ideal.hostScatterAdd (vecScatterDims N E wf) x idx upd (ix1 n) = _
  unfold Ideal.hostScatterAdd
  congr 1
  rw [Finset.sum_filter, Finset.sum_filter, sum_idx1]
  refine Finset.sum_congr rfl fun a _ => ?_
  have hP : ((vecScatterDims N E wf).resultIdx? (ix1 a) idx = some (ix1 n)) ↔ landRow N idx a = some n := by
    rw [vecScatter_resultIdx]
    cases landRow N idx a with
    | none => simp
    | some m =>
      simp only [Option.map_some, Option.some.injEq]
      constructor
      · intro h
        exact congrFun h 0
      · rintro rfl; rfl
  simp only [hP]

end Idealize.ShloMosaic.Segment

end
-- ==== Proof.LibRealSums.lean ====
/- Finite sums of extended reals that are real numbers.

   On the extended reals a product does not distribute over a sum in general (`⊤ + ⊥` is `⊥`, and a product with an
   infinite factor changes sign with the other). It does when every term is a real number: then every expression is
   the image of the same expression over `ℝ`, where the usual laws hold. This file has the predicate "is a real
   number", its closure under the operations used, and the law that exchanges a weighted sum with a sum over a finite
   set: multiplying each summand's row by the weights and then adding the rows equals adding the rows first and
   multiplying once. -/
import Idealize.ShloMosaic.PureOps.Ideal.Laws

noncomputable section

open scoped BigOperators

namespace Cert.RealSums

open Idealize.ShloMosaic

/-- An extended real that is (the image of) a real number: neither `⊤` nor `⊥`. -/
def IsReal (v : EReal) : Prop := ∃ r : ℝ, v = (r : EReal)

/-- The image of a real number is real. -/
theorem isReal_coe (r : ℝ) : IsReal (r : EReal) := ⟨r, rfl⟩

/-- Zero is real. -/
theorem isReal_zero : IsReal 0 := ⟨0, EReal.coe_zero.symm⟩

/-- A real extended real is the image of its real part. -/
theorem IsReal.coe_toReal {v : EReal} (h : IsReal v) : ((v.toReal : ℝ) : EReal) = v := by
  obtain ⟨r, rfl⟩ := h
  rw [EReal.toReal_coe]

/-- The sum of two reals is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The larger of two reals is one of them, hence real. -/
theorem IsReal.max {a b : EReal} (ha : IsReal a) (hb : IsReal b) : IsReal (max a b) := by
  rcases le_total a b with h | h
  · rw [max_eq_right h]; exact hb
  · rw [max_eq_left h]; exact ha

/-- The image of a finite sum of real numbers is the sum of the images. -/
theorem coe_sum {ι : Type*} (T : Finset ι) (g : ι → ℝ) : ((∑ i ∈ T, g i : ℝ) : EReal) = ∑ i ∈ T, (g i : EReal) := by
  classical
  induction T using Finset.induction_on with
  | empty => rw [Finset.sum_empty, Finset.sum_empty, EReal.coe_zero]
  | insert a s ha ih => rw [Finset.sum_insert ha, Finset.sum_insert ha, EReal.coe_add, ih]

/-- A finite sum of reals is real. -/
theorem isReal_sum {ι : Type*} (T : Finset ι) (f : ι → EReal) (h : ∀ i ∈ T, IsReal (f i)) : IsReal (∑ i ∈ T, f i) := by
  classical
  induction T using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The single-precision word of all zero bits denotes zero, a real number. -/
theorem isReal_ofBits_zero : IsReal (Ideal.ofBits .f32 0x00000000#32) := by
  rw [Ideal.ofBits_zero_f32]
  exact isReal_zero

/-- The exchange law. For reals `f e k` (`e` in a finite set `T`) and real weights `w k`: the sum over `e ∈ T` of the
    weighted sums `∑ k, f e k * w k` equals the weighted sum of the column totals `∑ e ∈ T, f e k`. Both sides start
    from an initial value `z` that is zero (on the left once, on the right inside every column total). Each side is the
    image of the same expression over `ℝ`, where the law is the exchange of the two summations and distributivity. -/
theorem sum_mul_exchange {ι κ : Type*} [Fintype κ] (T : Finset ι) (f : ι → κ → EReal) (w : κ → EReal) (z : EReal)
    (hz : z = 0) (hf : ∀ e ∈ T, ∀ k, IsReal (f e k)) (hw : ∀ k, IsReal (w k)) :
    z + ∑ e ∈ T, ∑ k, f e k * w k = ∑ k, (z + ∑ e ∈ T, f e k) * w k := by
  subst hz
  -- the left side's inner sums, as images of sums over ℝ
  have hL : ∀ e ∈ T, ∑ k, f e k * w k = ((∑ k, (f e k).toReal * (w k).toReal : ℝ) : EReal) := fun e he => by
    rw [coe_sum]
    refine Finset.sum_congr rfl fun k _ => ?_
    rw [EReal.coe_mul, (hf e he k).coe_toReal, (hw k).coe_toReal]
  -- the right side's summands, as images of products over ℝ
  have hR : ∀ k ∈ (Finset.univ : Finset κ),
      (0 + ∑ e ∈ T, f e k) * w k = (((∑ e ∈ T, (f e k).toReal) * (w k).toReal : ℝ) : EReal) := fun k _ => by
    rw [zero_add, EReal.coe_mul, coe_sum, (hw k).coe_toReal]
    congr 1
    exact Finset.sum_congr rfl fun e he => ((hf e he k).coe_toReal).symm
  rw [zero_add, Finset.sum_congr rfl hL, ← coe_sum, Finset.sum_congr rfl hR, ← coe_sum]
  -- over ℝ: exchange the two summations, then distributivity in each column
  congr 1
  rw [Finset.sum_comm]
  exact Finset.sum_congr rfl fun k _ => (Finset.sum_mul T (fun e => (f e k).toReal) ((w k).toReal)).symm

end Cert.RealSums

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.Alg.BaseLawCore.lean ====
/-
  The base layer of a graph network in two arrangements, over abstract arrays.

  Given node features x (8192 × 300), weights W (600 × 64), a bias b (64) and two columns of row numbers (one naming,
  for each of 262144 edges, the node it lands on; the other the node it reads), one arrangement multiplies the features
  by the top 300 rows of W first and then, for each node, divides the sum over its edges of the products by the number
  of those edges (raised to at least one); the other divides the sum over the edges of the features first and
  multiplies afterwards, as the first 300 of 600 contracted columns, the last 300 being the node's own features. Both
  then add the bias.

  Read at a node n and an output column h, both scatters add the same entries (those whose row number, read signed,
  is n; a row number outside the array is dropped), both gathers read the same clamped row, and the divisor is the
  same real number, at least one. For features and weights that are real numbers, dividing a finite sum of weighted
  sums by a real number other than zero equals the weighted sum of the divided column totals, because every term is
  the image of the same expression over the reals. The contraction over 600 columns splits into 300 + 300 along the
  concatenation.
-/
import proofs.«181554_j91190745628895_2_alg».proof.Proof.KI.Stages
import proofs.«181554_j91190745628895_2_alg».proof.Proof.Gen.ReferenceIdeal.Run
import proofs.«181554_j91190745628895_2_alg».proof.Proof.LibSegment
import proofs.«181554_j91190745628895_2_alg».proof.Proof.LibRealSums
import proofs.«181554_j91190745628895_2_alg».proof.Proof.LibRowsProduct
import Idealize.ShloMosaic.PureOps.Ideal.Laws
import Idealize.ShloMosaic.Lib.ValueIdx
import Idealize.ShloMosaic.Lib.Pipeline.Value

set_option maxRecDepth 16384

noncomputable section

namespace Cert.Alg.Base

open Idealize.ShloMosaic Idealize.ShloMosaic.TcCoe Idealize.ShloMosaic.ValueIdx Idealize.SL.Sem
open scoped BigOperators
open Idealize.ShloMosaic.Segment Cert.RealSums Cert.RowsProduct

/-- Scaling a weighted sum of reals by a real: the scale may be applied to each summand's first factor. -/
theorem sum_mul_scale {κ : Type*} [Fintype κ] (g w : κ → EReal) (ρ : EReal) (hg : ∀ k, IsReal (g k)) (hw : ∀ k, IsReal (w k))
    (hρ : IsReal ρ) : (∑ k, g k * w k) * ρ = ∑ k, (g k * ρ) * w k := by
  obtain ⟨r, rfl⟩ := hρ
  have hL : ∑ k, g k * w k = ((∑ k, (g k).toReal * (w k).toReal : ℝ) : EReal) := by
    rw [coe_sum]
    refine Finset.sum_congr rfl fun k _ => ?_
    rw [EReal.coe_mul, (hg k).coe_toReal, (hw k).coe_toReal]
  have hR : ∀ k ∈ (Finset.univ : Finset κ), (g k * (r : EReal)) * w k = (((g k).toReal * r * (w k).toReal : ℝ) : EReal) := fun k _ => by
    rw [EReal.coe_mul, EReal.coe_mul, (hg k).coe_toReal, (hw k).coe_toReal]
  rw [hL, Finset.sum_congr rfl hR, ← coe_sum, ← EReal.coe_mul]
  congr 1
  rw [Finset.sum_mul]
  exact Finset.sum_congr rfl fun k _ => by ring

/-- The mean law. For reals `f e k` and real weights `w k`, and a divisor `m` that is a real number other than zero: dividing
    the sum over `e ∈ T` of the weighted sums by `m` equals the weighted sum of the column totals each divided by `m`. -/
theorem mean_law {ι κ : Type*} [Fintype κ] (T : Finset ι) (f : ι → κ → EReal) (w : κ → EReal) (z m : EReal)
    (hz : z = 0) (hf : ∀ e ∈ T, ∀ k, IsReal (f e k)) (hw : ∀ k, IsReal (w k)) (hm : ∃ r : ℝ, r ≠ 0 ∧ m = (r : EReal)) :
    Ideal.div (z + ∑ e ∈ T, ∑ k, f e k * w k) m = ∑ k, Ideal.div (z + ∑ e ∈ T, f e k) m * w k := by
  obtain ⟨r, hr, rfl⟩ := hm
  have hg : ∀ k, IsReal (z + ∑ e ∈ T, f e k) := fun k => by
    subst hz; exact isReal_zero.add (isReal_sum _ _ fun e he => hf e he k)
  rw [Ideal.div_coe hr, sum_mul_exchange T f w z hz hf hw, sum_mul_scale _ w _ hg hw (isReal_coe _)]
  exact Finset.sum_congr rfl fun k _ => by rw [Ideal.div_coe hr]

/-- A real number raised to at least one is a real number other than zero. -/
theorem max_one_real {d : EReal} (hd : IsReal d) : ∃ r : ℝ, r ≠ 0 ∧ max d 1 = (r : EReal) := by
  obtain ⟨s, rfl⟩ := hd
  refine ⟨max s 1, (lt_max_of_lt_right zero_lt_one).ne', ?_⟩
  rcases le_total s 1 with h | h
  · rw [max_eq_right h, max_eq_right (by exact_mod_cast h), EReal.coe_one]
  · rw [max_eq_left h, max_eq_left (by exact_mod_cast h)]

/-- The single-precision word 0x3F800000 denotes one. -/
theorem ofBits_one : Ideal.ofBits .f32 0x3F800000#32 = 1 := by
  simp [Ideal.ofBits, Ideal.ieee]
  rw [← EReal.coe_mul]
  norm_num

section K
open Cert.KernelIdeal Cert.KernelIdeal.Gen
/-- The kernel's base layer over abstract arrays: features, weights, bias, and the two columns of row numbers. -/
def kcore (x : FVec Ideal S8192x300 .f32) (W : FVec Ideal S600x64 .f32) (b : FVec Ideal S64 .f32)
    (idxR idxC : IVec S262144x1 32) : FVec Ideal S8192x64 .f32 :=
  (addf (addf (Host.divf (Host.scatterAdd scatter_S8192x64_S262144x1_S262144x64_1_0_0_1 (broadcastInDim S8192x64 ![] bcast_S_S8192x64 (constant S_ .f32 0x00000000#32)) idxR (Host.gather gather_S8192x64_S262144x1_S262144x64_1_0_n_n_0_1_164 (Host.dotGeneral dot_S8192x300_S300x64_S8192x64_1_0_0_1_n_n none x (extractStridedSlice S300x64 ![0, 0] W slices_S600x64_S300x64_0_0)) idxC)) (broadcastInDim S8192x64 ![0, 1] bcast_S8192x1_S8192x64_0_1 (maximumf (Host.scatterAdd scatter_S8192x1_S262144x1_S262144x1_1_0_0_1 (broadcastInDim S8192x1 ![] bcast_S_S8192x1 (constant S_ .f32 0x00000000#32)) idxR (broadcastInDim S262144x1 ![] bcast_S_S262144x1 (constant S_ .f32 0x3F800000#32))) (broadcastInDim S8192x1 ![] bcast_S_S8192x1 (constant S_ .f32 0x3F800000#32))))) (Host.dotGeneral dot_S8192x300_S300x64_S8192x64_1_0_0_1_n_n none x (extractStridedSlice S300x64 ![300, 0] W slices_S600x64_S300x64_300_0))) (broadcastInDim S8192x64 ![0, 1] bcast_S1x64_S8192x64_0_1 (broadcastInDim S1x64 ![1] bcast_S64_S1x64_1 b)))

/-- The column of landing rows: row 0 of the 2 × 262144 edge list, laid out as a 262144 × 1 column. -/
def kR (ed : IVec S2x262144 32) : IVec S262144x1 32 :=
  broadcastInDim S262144x1 ![0] bcast_S262144_S262144x1_0 (shapeCast _ (extractStridedSlice S1x262144 ![0, 0] ed slices_S2x262144_S1x262144_0_0) shapeCasts_S1x262144_S262144)

/-- The column of read rows: row 1 of the edge list as a 262144 × 1 column, a negative number raised by 8192. -/
def kC (ed : IVec S2x262144 32) : IVec S262144x1 32 :=
  (fun c : IVec S262144 32 => broadcastInDim S262144x1 ![0] bcast_S262144_S262144x1_0 (select (cmpi .slt c (broadcastInDim S262144 ![] bcast_S_S262144 (constantI S_ 32 0#32))) (addi c (broadcastInDim S262144 ![] bcast_S_S262144 (constantI S_ 32 8192#32))) c))
    (shapeCast _ (extractStridedSlice S1x262144 ![1, 0] ed slices_S2x262144_S1x262144_1_0) shapeCasts_S1x262144_S262144)
end K

section R
open Cert.ReferenceIdeal Cert.ReferenceIdeal.Gen
/-- The reference's base layer over the same abstract arrays. -/
def rcore (x : FVec Ideal S8192x300 .f32) (W : FVec Ideal S600x64 .f32) (b : FVec Ideal S64 .f32)
    (idxR idxC : IVec S262144x1 32) : FVec Ideal S8192x64 .f32 :=
  addf (Host.dotGeneral dot_S8192x600_S600x64_S8192x64_1_0_0_1_n_n none (concatenate S8192x600 1 [⟨S8192x300, (Host.divf (Host.scatterAdd scatter_S8192x300_S262144x1_S262144x300_1_0_0_1 (broadcastInDim S8192x300 ![] bcast_S_S8192x300 (constant S_ .f32 0x00000000#32)) idxR (Host.gather gather_S8192x300_S262144x1_S262144x300_1_0_n_n_0_1_1300 x idxC)) (broadcastInDim S8192x300 ![0, 1] bcast_S8192x1_S8192x300_0_1 (maximumf (Host.scatterAdd scatter_S8192x1_S262144x1_S262144x1_1_0_0_1 (broadcastInDim S8192x1 ![] bcast_S_S8192x1 (constant S_ .f32 0x00000000#32)) idxR (broadcastInDim S262144x1 ![] bcast_S_S262144x1 (constant S_ .f32 0x3F800000#32))) (broadcastInDim S8192x1 ![] bcast_S_S8192x1 (constant S_ .f32 0x3F800000#32)))))⟩, ⟨S8192x300, x⟩] concatenates_S8192x300_S8192x300_S8192x600_d1) W) (broadcastInDim S8192x64 ![0, 1] bcast_S1x64_S8192x64_0_1 (broadcastInDim S1x64 ![1] bcast_S64_S1x64_1 b))
end R

/-- The entries of a column of row numbers that land on row `n` of an array with 8192 rows. -/
def land (idxR : IVec ⟨2, ![262144, 1]⟩ 32) (n : Fin 8192) : Finset (Fin 262144) :=
  Finset.univ.filter fun e => landRow 8192 idxR e = some n

/-- The row of an array with 8192 rows that entry `e` of a column of row numbers reads. -/
def col (idxC : IVec ⟨2, ![262144, 1]⟩ 32) (e : Fin 262144) : Fin 8192 := clampRow (by decide) idxC e

/-- A sum over 600 indices is the sum over the first 300 plus the sum over the last 300. -/
theorem sum_fin600 {M : Type*} [AddCommMonoid M] (F : Fin 600 → M) :
    ∑ k, F k = ∑ k : Fin 300, F ⟨k.val, by omega⟩ + ∑ k : Fin 300, F ⟨300 + k.val, by omega⟩ :=
  Fin.sum_univ_add (a := 300) (b := 300) F

section K
open Cert.KernelIdeal Cert.KernelIdeal.Gen

theorem wtop_apply (W : FVec Ideal S600x64 .f32) (k : Fin 300) (h : Fin 64) :
    extractStridedSlice S300x64 ![0, 0] W slices_S600x64_S300x64_0_0 (ix2 k h) = W (ix2 (⟨k.val, by omega⟩ : Fin 600) h) :=
  extractStridedSlice_apply _ W _ _ _ fun a => match a with
    | ⟨0, _⟩ => by show k.val = 0 + k.val; omega
    | ⟨1, _⟩ => by show h.val = 0 + h.val; omega

theorem wbot_apply (W : FVec Ideal S600x64 .f32) (k : Fin 300) (h : Fin 64) :
    extractStridedSlice S300x64 ![300, 0] W slices_S600x64_S300x64_300_0 (ix2 k h) = W (ix2 (⟨300 + k.val, by omega⟩ : Fin 600) h) :=
  extractStridedSlice_apply _ W _ _ _ fun a => match a with
    | ⟨0, _⟩ => by show 300 + k.val = 300 + k.val; rfl
    | ⟨1, _⟩ => by show h.val = 0 + h.val; omega

theorem kdot_apply (x : FVec Ideal S8192x300 .f32) (Wh : FVec Ideal S300x64 .f32) (p : Fin 8192) (h : Fin 64) :
    Host.dotGeneral dot_S8192x300_S300x64_S8192x64_1_0_0_1_n_n none x Wh (ix2 p h) = ∑ k : Fin 300, x (ix2 p k) * Wh (ix2 k h) :=
  dotGeneral_rows_apply dot_S8192x300_S300x64_S8192x64_1_0_0_1_n_n none _ rfl rfl (fun _ _ => rfl) (fun _ _ => rfl)
    (fun _ _ => rfl) (fun _ _ => rfl) x Wh p h

theorem kscat_apply (z : FVec Ideal S8192x64 .f32) (idxR : IVec S262144x1 32) (upd : FVec Ideal S262144x64 .f32) (n : Fin 8192) (h : Fin 64) :
    Host.scatterAdd scatter_S8192x64_S262144x1_S262144x64_1_0_0_1 z idxR upd (ix2 n h)
      = (z (ix2 n h) : EReal) + ∑ e ∈ land idxR n, (upd (ix2 e h) : EReal) :=
  scatterAddRows_apply (N := 8192) (E := 262144) (C := 64) scatter_S8192x64_S262144x1_S262144x64_1_0_0_1_wf z idxR upd n h

theorem kcount_apply (z : FVec Ideal S8192x1 .f32) (idxR : IVec S262144x1 32) (upd : FVec Ideal S262144x1 .f32) (n : Fin 8192) :
    Host.scatterAdd scatter_S8192x1_S262144x1_S262144x1_1_0_0_1 z idxR upd (ix2 n (0 : Fin 1))
      = (z (ix2 n (0 : Fin 1)) : EReal) + ∑ e ∈ land idxR n, (upd (ix2 e (0 : Fin 1)) : EReal) :=
  scatterAddRows_apply (N := 8192) (E := 262144) (C := 1) scatter_S8192x1_S262144x1_S262144x1_1_0_0_1_wf z idxR upd n 0

theorem kgather_apply (P : FVec Ideal S8192x64 .f32) (idxC : IVec S262144x1 32) (e : Fin 262144) (h : Fin 64) :
    Host.gather gather_S8192x64_S262144x1_S262144x64_1_0_n_n_0_1_164 P idxC (ix2 e h) = P (ix2 (col idxC e) h) :=
  gatherRows_apply (N := 8192) (E := 262144) (C := 64) (by decide) gather_S8192x64_S262144x1_S262144x64_1_0_n_n_0_1_164_wf P idxC e h

theorem kbc_count_apply (M : FVec Ideal S8192x1 .f32) (n : Fin 8192) (h : Fin 64) :
    broadcastInDim S8192x64 ![0, 1] bcast_S8192x1_S8192x64_0_1 M (ix2 n h) = M (ix2 n (0 : Fin 1)) :=
  broadcastInDim_apply _ _ M _ _ fun a => match a with
    | ⟨0, _⟩ => rfl
    | ⟨1, _⟩ => rfl

theorem kbias_apply (b : FVec Ideal S64 .f32) (n : Fin 8192) (h : Fin 64) :
    broadcastInDim S8192x64 ![0, 1] bcast_S1x64_S8192x64_0_1 (broadcastInDim S1x64 ![1] bcast_S64_S1x64_1 b) (ix2 n h) = b (ix1 h) := by
  refine (broadcastInDim_apply _ _ _ _ (ix2 (0 : Fin 1) h) fun a => match a with
    | ⟨0, _⟩ => rfl
    | ⟨1, _⟩ => rfl).trans ?_
  exact broadcastInDim_apply _ _ b _ _ fun a => match a with
    | ⟨0, _⟩ => rfl

theorem kzero_apply (c : BitVec 32) (j : S8192x64.Idx) :
    broadcastInDim S8192x64 ![] bcast_S_S8192x64 (constant (F := Ideal) S_ .f32 c) j = Ideal.ofBits .f32 c := rfl

theorem kzero1_apply (c : BitVec 32) (j : S8192x1.Idx) :
    broadcastInDim S8192x1 ![] bcast_S_S8192x1 (constant (F := Ideal) S_ .f32 c) j = Ideal.ofBits .f32 c := rfl

theorem kones_apply (c : BitVec 32) (j : S262144x1.Idx) :
    broadcastInDim S262144x1 ![] bcast_S_S262144x1 (constant (F := Ideal) S_ .f32 c) j = Ideal.ofBits .f32 c := rfl

end K

section R
open Cert.ReferenceIdeal Cert.ReferenceIdeal.Gen

theorem rdot_apply (C : FVec Ideal S8192x600 .f32) (W : FVec Ideal S600x64 .f32) (n : Fin 8192) (h : Fin 64) :
    Host.dotGeneral dot_S8192x600_S600x64_S8192x64_1_0_0_1_n_n none C W (ix2 n h) = ∑ k : Fin 600, C (ix2 n k) * W (ix2 k h) :=
  dotGeneral_rows_apply dot_S8192x600_S600x64_S8192x64_1_0_0_1_n_n none _ rfl rfl (fun _ _ => rfl) (fun _ _ => rfl)
    (fun _ _ => rfl) (fun _ _ => rfl) C W n h

theorem rscat_apply (z : FVec Ideal S8192x300 .f32) (idxR : IVec S262144x1 32) (upd : FVec Ideal S262144x300 .f32) (n : Fin 8192) (k : Fin 300) :
    Host.scatterAdd scatter_S8192x300_S262144x1_S262144x300_1_0_0_1 z idxR upd (ix2 n k)
      = (z (ix2 n k) : EReal) + ∑ e ∈ land idxR n, (upd (ix2 e k) : EReal) :=
  scatterAddRows_apply (N := 8192) (E := 262144) (C := 300) scatter_S8192x300_S262144x1_S262144x300_1_0_0_1_wf z idxR upd n k

theorem rcount_apply (z : FVec Ideal S8192x1 .f32) (idxR : IVec S262144x1 32) (upd : FVec Ideal S262144x1 .f32) (n : Fin 8192) :
    Host.scatterAdd scatter_S8192x1_S262144x1_S262144x1_1_0_0_1 z idxR upd (ix2 n (0 : Fin 1))
      = (z (ix2 n (0 : Fin 1)) : EReal) + ∑ e ∈ land idxR n, (upd (ix2 e (0 : Fin 1)) : EReal) :=
  scatterAddRows_apply (N := 8192) (E := 262144) (C := 1) scatter_S8192x1_S262144x1_S262144x1_1_0_0_1_wf z idxR upd n 0

theorem rgather_apply (x : FVec Ideal S8192x300 .f32) (idxC : IVec S262144x1 32) (e : Fin 262144) (k : Fin 300) :
    Host.gather gather_S8192x300_S262144x1_S262144x300_1_0_n_n_0_1_1300 x idxC (ix2 e k) = x (ix2 (col idxC e) k) :=
  gatherRows_apply (N := 8192) (E := 262144) (C := 300) (by decide) gather_S8192x300_S262144x1_S262144x300_1_0_n_n_0_1_1300_wf x idxC e k

theorem rbc_count_apply (M : FVec Ideal S8192x1 .f32) (n : Fin 8192) (k : Fin 300) :
    broadcastInDim S8192x300 ![0, 1] bcast_S8192x1_S8192x300_0_1 M (ix2 n k) = M (ix2 n (0 : Fin 1)) :=
  broadcastInDim_apply _ _ M _ _ fun a => match a with
    | ⟨0, _⟩ => rfl
    | ⟨1, _⟩ => rfl

theorem rbias_apply (b : FVec Ideal S64 .f32) (n : Fin 8192) (h : Fin 64) :
    broadcastInDim S8192x64 ![0, 1] bcast_S1x64_S8192x64_0_1 (broadcastInDim S1x64 ![1] bcast_S64_S1x64_1 b) (ix2 n h) = b (ix1 h) := by
  refine (broadcastInDim_apply _ _ _ _ (ix2 (0 : Fin 1) h) fun a => match a with
    | ⟨0, _⟩ => rfl
    | ⟨1, _⟩ => rfl).trans ?_
  exact broadcastInDim_apply _ _ b _ _ fun a => match a with
    | ⟨0, _⟩ => rfl

theorem rconcat_left (A B : FVec Ideal S8192x300 .f32) (n : Fin 8192) (k : Fin 300) :
    concatenate S8192x600 1 [⟨S8192x300, A⟩, ⟨S8192x300, B⟩] concatenates_S8192x300_S8192x300_S8192x600_d1
      (ix2 n (⟨k.val, by omega⟩ : Fin 600)) = A (ix2 n k) :=
  concatenate_pair_apply_left (t := S8192x600) 1 A B concatenates_S8192x300_S8192x300_S8192x600_d1
    (ix2 n (⟨k.val, by omega⟩ : Fin 600)) rfl (ix2 n k) fun a => match a with
    | ⟨0, _⟩ => rfl
    | ⟨1, _⟩ => rfl

theorem rconcat_right (A B : FVec Ideal S8192x300 .f32) (n : Fin 8192) (k : Fin 300) :
    concatenate S8192x600 1 [⟨S8192x300, A⟩, ⟨S8192x300, B⟩] concatenates_S8192x300_S8192x300_S8192x600_d1
      (ix2 n (⟨300 + k.val, by omega⟩ : Fin 600)) = B (ix2 n k) :=
  concatenate_pair_apply_right (t := S8192x600) 1 A B concatenates_S8192x300_S8192x300_S8192x600_d1
    (ix2 n (⟨300 + k.val, by omega⟩ : Fin 600)) rfl rfl (ix2 n k)
    (fun a => match a with
      | ⟨0, _⟩ => fun _ => rfl
      | ⟨1, _⟩ => fun hne => absurd rfl hne)
    (by show k.val + 300 = 300 + k.val; omega)

end R

/-- At the extended reals the host's division is the division of extended reals, entry by entry. -/
theorem hostDivf_apply {s : Shape} {φ : FTy} (a c : FVec Ideal s φ) (i : s.Idx) : Host.divf a c i = Ideal.div (a i) (c i) := rfl

/-- The divisor at node `n`: the number of entries landing on it, raised to at least one. -/
def cnt (idxR : IVec ⟨2, ![262144, 1]⟩ 32) (n : Fin 8192) : EReal :=
  max (Ideal.ofBits .f32 0x00000000#32 + ∑ e ∈ land idxR n, Ideal.ofBits .f32 0x3F800000#32) (Ideal.ofBits .f32 0x3F800000#32)

/-- The divisor is a real number other than zero. -/
theorem cnt_real (idxR : IVec ⟨2, ![262144, 1]⟩ 32) (n : Fin 8192) : ∃ r : ℝ, r ≠ 0 ∧ cnt idxR n = (r : EReal) := by
  unfold cnt
  rw [ofBits_one]
  exact max_one_real (isReal_ofBits_zero.add (isReal_sum _ _ fun _ _ => ⟨1, EReal.coe_one.symm⟩))

section K
open Cert.KernelIdeal Cert.KernelIdeal.Gen

/-- The kernel's base layer at node `n`, output column `h`. -/
theorem kcore_apply (x : FVec Ideal S8192x300 .f32) (W : FVec Ideal S600x64 .f32) (b : FVec Ideal S64 .f32)
    (idxR idxC : IVec S262144x1 32) (n : Fin 8192) (h : Fin 64) :
    kcore x W b idxR idxC (ix2 n h)
      = (Ideal.div (Ideal.ofBits .f32 0x00000000#32
            + ∑ e ∈ land idxR n, ∑ k : Fin 300, x (ix2 (col idxC e) k) * W (ix2 (⟨k.val, by omega⟩ : Fin 600) h)) (cnt idxR n)
          + ∑ k : Fin 300, x (ix2 n k) * W (ix2 (⟨300 + k.val, by omega⟩ : Fin 600) h)) + b (ix1 h) := by
  unfold kcore cnt
  simp only [addf_apply, hostDivf_apply, kscat_apply, kbias_apply, kdot_apply, kgather_apply, wtop_apply, wbot_apply]
  rw [kbc_count_apply]
  rw [kbias_apply]
  rw [maximumf_apply, kcount_apply]
  rfl

end K

section R
open Cert.ReferenceIdeal Cert.ReferenceIdeal.Gen

theorem rzero_apply (c : BitVec 32) (j : S8192x300.Idx) :
    broadcastInDim S8192x300 ![] bcast_S_S8192x300 (constant (F := Ideal) S_ .f32 c) j = Ideal.ofBits .f32 c := rfl

theorem rzero1_apply (c : BitVec 32) (j : S8192x1.Idx) :
    broadcastInDim S8192x1 ![] bcast_S_S8192x1 (constant (F := Ideal) S_ .f32 c) j = Ideal.ofBits .f32 c := rfl

theorem rones_apply (c : BitVec 32) (j : S262144x1.Idx) :
    broadcastInDim S262144x1 ![] bcast_S_S262144x1 (constant (F := Ideal) S_ .f32 c) j = Ideal.ofBits .f32 c := rfl

/-- The reference's base layer at node `n`, output column `h`. -/
theorem rcore_apply (x : FVec Ideal S8192x300 .f32) (W : FVec Ideal S600x64 .f32) (b : FVec Ideal S64 .f32)
    (idxR idxC : IVec S262144x1 32) (n : Fin 8192) (h : Fin 64) :
    rcore x W b idxR idxC (ix2 n h)
      = (∑ k : Fin 300, Ideal.div (Ideal.ofBits .f32 0x00000000#32 + ∑ e ∈ land idxR n, x (ix2 (col idxC e) k)) (cnt idxR n)
              * W (ix2 (⟨k.val, by omega⟩ : Fin 600) h)
          + ∑ k : Fin 300, x (ix2 n k) * W (ix2 (⟨300 + k.val, by omega⟩ : Fin 600) h)) + b (ix1 h) := by
  unfold rcore cnt
  rw [addf_apply, rdot_apply, rbias_apply, sum_fin600]
  simp only [rconcat_left, rconcat_right, hostDivf_apply, rscat_apply, rgather_apply]
  refine congrArg (fun t => t + b (ix1 h)) (congrArg (fun t => t + ∑ k : Fin 300, x (ix2 n k) * W (ix2 (⟨300 + k.val, by omega⟩ : Fin 600) h))
    (Finset.sum_congr rfl fun k _ => ?_))
  rw [rbc_count_apply, maximumf_apply, rcount_apply]
  rfl

end R

/-- The two base layers agree where the features and the weights are real numbers. -/
theorem core_law (x : FVec Ideal ⟨2, ![8192, 300]⟩ .f32) (W : FVec Ideal ⟨2, ![600, 64]⟩ .f32) (b : FVec Ideal ⟨1, ![64]⟩ .f32)
    (idxR idxC : IVec ⟨2, ![262144, 1]⟩ 32) (hx : ∀ i, IsReal (x i)) (hw : ∀ i, IsReal (W i)) :
    kcore x W b idxR idxC = rcore x W b idxR idxC := by
  funext i
  obtain ⟨n, h, rfl⟩ : ∃ (n : Fin 8192) (h : Fin 64), i = ix2 n h := ⟨i 0, i 1, eq_ix2 i⟩
  rw [kcore_apply, rcore_apply]
  rw [mean_law (land idxR n) (fun e k => x (ix2 (col idxC e) k)) (fun k => W (ix2 (⟨k.val, by omega⟩ : Fin 600) h))
    _ _ Ideal.ofBits_zero_f32 (fun e _ k => hx _) (fun k => hw _) (cnt_real idxR n)]

end Cert.Alg.Base
end
-- ==== Proof.Alg.BaseLaw.lean ====
/-
  The base layer of the two programs. The kernel multiplies the node features by the top half of the weights first and
  then takes, for each node, the mean over its edges of the products; the reference takes the mean of the features first
  and multiplies afterwards (as the first 300 of 600 contracted columns). For features and weights that are real numbers
  the two agree: the mean is a finite sum divided by a positive real, and the product distributes over it.
-/
import proofs.«181554_j91190745628895_2_alg».proof.Proof.KI.Stages
import proofs.«181554_j91190745628895_2_alg».proof.Proof.Gen.ReferenceIdeal.Run
import proofs.«181554_j91190745628895_2_alg».proof.Proof.Alg.BaseLawCore
import Idealize.ShloMosaic.PureOps.Ideal.Laws
import Idealize.ShloMosaic.Lib.ValueIdx

set_option maxRecDepth 16384

noncomputable section

namespace Cert.Alg

open Idealize.ShloMosaic Idealize.ShloMosaic.TcCoe Idealize.ShloMosaic.ValueIdx Idealize.SL.Sem

theorem base_pos (Vk : Valuation Cert.KernelIdeal.τ Cert.KernelIdeal.sig (Elt Ideal)) (Vr : Valuation Cert.ReferenceIdeal.τ Cert.ReferenceIdeal.sig (Elt Ideal))
    (h0 : Vr (Proc.devRef .tc Cert.ReferenceIdeal.main_arg0) = Vk (Proc.devRef .tc Cert.KernelIdeal.main_arg0)) (h1 : Vr (Proc.devRef .tc Cert.ReferenceIdeal.main_arg1) = Vk (Proc.devRef .tc Cert.KernelIdeal.main_arg1)) (h5 : Vr (Proc.devRef .tc Cert.ReferenceIdeal.main_arg5) = Vk (Proc.devRef .tc Cert.KernelIdeal.main_arg5)) (h6 : Vr (Proc.devRef .tc Cert.ReferenceIdeal.main_arg6) = Vk (Proc.devRef .tc Cert.KernelIdeal.main_arg6))
    (hx : (∀ i, ∃ r : ℝ, Vk (Proc.devRef .tc Cert.KernelIdeal.main_arg0) i = (r : EReal))) (hw : (∀ i, ∃ r : ℝ, Vk (Proc.devRef .tc Cert.KernelIdeal.main_arg5) i = (r : EReal))) :
    Cert.KernelIdeal.Stages.kres_main_v29 (F := Ideal) Vk = Cert.ReferenceIdeal.Value.res_main_v26 (F := Ideal) Vr := by
  calc Cert.KernelIdeal.Stages.kres_main_v29 (F := Ideal) Vk
      = Base.kcore (Vk (Proc.devRef .tc Cert.KernelIdeal.main_arg0)) (Vk (Proc.devRef .tc Cert.KernelIdeal.main_arg5)) (Vk (Proc.devRef .tc Cert.KernelIdeal.main_arg6))
          (Base.kR (Vk (Proc.devRef .tc Cert.KernelIdeal.main_arg1))) (Base.kC (Vk (Proc.devRef .tc Cert.KernelIdeal.main_arg1))) := rfl
    _ = Base.rcore (Vk (Proc.devRef .tc Cert.KernelIdeal.main_arg0)) (Vk (Proc.devRef .tc Cert.KernelIdeal.main_arg5)) (Vk (Proc.devRef .tc Cert.KernelIdeal.main_arg6))
          (Base.kR (Vk (Proc.devRef .tc Cert.KernelIdeal.main_arg1))) (Base.kC (Vk (Proc.devRef .tc Cert.KernelIdeal.main_arg1))) := Base.core_law _ _ _ _ _ hx hw
    _ = Base.rcore (Vr (Proc.devRef .tc Cert.ReferenceIdeal.main_arg0)) (Vr (Proc.devRef .tc Cert.ReferenceIdeal.main_arg5)) (Vr (Proc.devRef .tc Cert.ReferenceIdeal.main_arg6))
          (Base.kR (Vr (Proc.devRef .tc Cert.ReferenceIdeal.main_arg1))) (Base.kC (Vr (Proc.devRef .tc Cert.ReferenceIdeal.main_arg1))) := by rw [h0, h1, h5, h6]
    _ = Cert.ReferenceIdeal.Value.res_main_v26 (F := Ideal) Vr := rfl

theorem base_neg (Vk : Valuation Cert.KernelIdeal.τ Cert.KernelIdeal.sig (Elt Ideal)) (Vr : Valuation Cert.ReferenceIdeal.τ Cert.ReferenceIdeal.sig (Elt Ideal))
    (h0 : Vr (Proc.devRef .tc Cert.ReferenceIdeal.main_arg0) = Vk (Proc.devRef .tc Cert.KernelIdeal.main_arg0)) (h2 : Vr (Proc.devRef .tc Cert.ReferenceIdeal.main_arg2) = Vk (Proc.devRef .tc Cert.KernelIdeal.main_arg2)) (h7 : Vr (Proc.devRef .tc Cert.ReferenceIdeal.main_arg7) = Vk (Proc.devRef .tc Cert.KernelIdeal.main_arg7)) (h8 : Vr (Proc.devRef .tc Cert.ReferenceIdeal.main_arg8) = Vk (Proc.devRef .tc Cert.KernelIdeal.main_arg8))
    (hx : (∀ i, ∃ r : ℝ, Vk (Proc.devRef .tc Cert.KernelIdeal.main_arg0) i = (r : EReal))) (hw : (∀ i, ∃ r : ℝ, Vk (Proc.devRef .tc Cert.KernelIdeal.main_arg7) i = (r : EReal))) :
    Cert.KernelIdeal.Stages.kres_main_v68 (F := Ideal) Vk = Cert.ReferenceIdeal.Value.res_main_v62 (F := Ideal) Vr := by
  calc Cert.KernelIdeal.Stages.kres_main_v68 (F := Ideal) Vk
      = Base.kcore (Vk (Proc.devRef .tc Cert.KernelIdeal.main_arg0)) (Vk (Proc.devRef .tc Cert.KernelIdeal.main_arg7)) (Vk (Proc.devRef .tc Cert.KernelIdeal.main_arg8))
          (Base.kR (Vk (Proc.devRef .tc Cert.KernelIdeal.main_arg2))) (Base.kC (Vk (Proc.devRef .tc Cert.KernelIdeal.main_arg2))) := rfl
    _ = Base.rcore (Vk (Proc.devRef .tc Cert.KernelIdeal.main_arg0)) (Vk (Proc.devRef .tc Cert.KernelIdeal.main_arg7)) (Vk (Proc.devRef .tc Cert.KernelIdeal.main_arg8))
          (Base.kR (Vk (Proc.devRef .tc Cert.KernelIdeal.main_arg2))) (Base.kC (Vk (Proc.devRef .tc Cert.KernelIdeal.main_arg2))) := Base.core_law _ _ _ _ _ hx hw
    _ = Base.rcore (Vr (Proc.devRef .tc Cert.ReferenceIdeal.main_arg0)) (Vr (Proc.devRef .tc Cert.ReferenceIdeal.main_arg7)) (Vr (Proc.devRef .tc Cert.ReferenceIdeal.main_arg8))
          (Base.kR (Vr (Proc.devRef .tc Cert.ReferenceIdeal.main_arg2))) (Base.kC (Vr (Proc.devRef .tc Cert.ReferenceIdeal.main_arg2))) := by rw [h0, h2, h7, h8]
    _ = Cert.ReferenceIdeal.Value.res_main_v62 (F := Ideal) Vr := rfl

end Cert.Alg

end
-- ==== Proof.Alg.Tower.lean ====
/-
  Above the base layers the two programs apply the same operations: normalisation and tanh, the two deep layers over the
  same edge lists, the concatenation and the last normalisation. Equal base layers therefore give equal embeddings.
-/
import proofs.«181554_j91190745628895_2_alg».proof.Proof.KI.Stages
import proofs.«181554_j91190745628895_2_alg».proof.Proof.Gen.ReferenceIdeal.Run
import Idealize.ShloMosaic.PureOps.Ideal

set_option maxRecDepth 16384

noncomputable section

namespace Cert.Alg

open Idealize.ShloMosaic Idealize.ShloMosaic.TcCoe Idealize.SL.Sem

section
variable (Vk : Valuation Cert.KernelIdeal.τ Cert.KernelIdeal.sig (Elt Ideal)) (Vr : Valuation Cert.ReferenceIdeal.τ Cert.ReferenceIdeal.sig (Elt Ideal))

/-! The edge lists: rows and columns of the two index arrays, read the same way by both programs. -/

theorem tower_v79 (h1 : Vr (Proc.devRef .tc Cert.ReferenceIdeal.main_arg1) = Vk (Proc.devRef .tc Cert.KernelIdeal.main_arg1)) :
    Cert.KernelIdeal.Stages.kres_main_v79 (F := Ideal) Vk = Cert.ReferenceIdeal.Value.res_main_v73 (F := Ideal) Vr := by
  unfold Cert.KernelIdeal.Stages.kres_main_v79 Cert.ReferenceIdeal.Value.res_main_v73
  rw [h1]
  rfl

theorem tower_v81 (h1 : Vr (Proc.devRef .tc Cert.ReferenceIdeal.main_arg1) = Vk (Proc.devRef .tc Cert.KernelIdeal.main_arg1)) :
    Cert.KernelIdeal.Stages.kres_main_v81 (F := Ideal) Vk = Cert.ReferenceIdeal.Value.res_main_v75 (F := Ideal) Vr := by
  unfold Cert.KernelIdeal.Stages.kres_main_v81 Cert.ReferenceIdeal.Value.res_main_v75
  rw [h1]
  rfl

theorem tower_v101 (h2 : Vr (Proc.devRef .tc Cert.ReferenceIdeal.main_arg2) = Vk (Proc.devRef .tc Cert.KernelIdeal.main_arg2)) :
    Cert.KernelIdeal.Stages.kres_main_v101 (F := Ideal) Vk = Cert.ReferenceIdeal.Value.res_main_v95 (F := Ideal) Vr := by
  unfold Cert.KernelIdeal.Stages.kres_main_v101 Cert.ReferenceIdeal.Value.res_main_v95
  rw [h2]
  rfl

theorem tower_v103 (h2 : Vr (Proc.devRef .tc Cert.ReferenceIdeal.main_arg2) = Vk (Proc.devRef .tc Cert.KernelIdeal.main_arg2)) :
    Cert.KernelIdeal.Stages.kres_main_v103 (F := Ideal) Vk = Cert.ReferenceIdeal.Value.res_main_v97 (F := Ideal) Vr := by
  unfold Cert.KernelIdeal.Stages.kres_main_v103 Cert.ReferenceIdeal.Value.res_main_v97
  rw [h2]
  rfl

theorem tower_v137 (h1 : Vr (Proc.devRef .tc Cert.ReferenceIdeal.main_arg1) = Vk (Proc.devRef .tc Cert.KernelIdeal.main_arg1)) :
    Cert.KernelIdeal.Stages.kres_main_v137 (F := Ideal) Vk = Cert.ReferenceIdeal.Value.res_main_v131 (F := Ideal) Vr := by
  unfold Cert.KernelIdeal.Stages.kres_main_v137 Cert.ReferenceIdeal.Value.res_main_v131
  rw [h1]
  rfl

theorem tower_v139 (h1 : Vr (Proc.devRef .tc Cert.ReferenceIdeal.main_arg1) = Vk (Proc.devRef .tc Cert.KernelIdeal.main_arg1)) :
    Cert.KernelIdeal.Stages.kres_main_v139 (F := Ideal) Vk = Cert.ReferenceIdeal.Value.res_main_v133 (F := Ideal) Vr := by
  unfold Cert.KernelIdeal.Stages.kres_main_v139 Cert.ReferenceIdeal.Value.res_main_v133
  rw [h1]
  rfl

theorem tower_v159 (h2 : Vr (Proc.devRef .tc Cert.ReferenceIdeal.main_arg2) = Vk (Proc.devRef .tc Cert.KernelIdeal.main_arg2)) :
    Cert.KernelIdeal.Stages.kres_main_v159 (F := Ideal) Vk = Cert.ReferenceIdeal.Value.res_main_v153 (F := Ideal) Vr := by
  unfold Cert.KernelIdeal.Stages.kres_main_v159 Cert.ReferenceIdeal.Value.res_main_v153
  rw [h2]
  rfl

theorem tower_v161 (h2 : Vr (Proc.devRef .tc Cert.ReferenceIdeal.main_arg2) = Vk (Proc.devRef .tc Cert.KernelIdeal.main_arg2)) :
    Cert.KernelIdeal.Stages.kres_main_v161 (F := Ideal) Vk = Cert.ReferenceIdeal.Value.res_main_v155 (F := Ideal) Vr := by
  unfold Cert.KernelIdeal.Stages.kres_main_v161 Cert.ReferenceIdeal.Value.res_main_v155
  rw [h2]
  rfl

/-! Normalisation and tanh of a base layer. -/

theorem tower_v38 (hp : Cert.KernelIdeal.Stages.kres_main_v29 (F := Ideal) Vk = Cert.ReferenceIdeal.Value.res_main_v26 (F := Ideal) Vr) : Cert.KernelIdeal.Stages.kres_main_v38 (F := Ideal) Vk = Cert.ReferenceIdeal.Value.res_main_v35 (F := Ideal) Vr := by
  unfold Cert.KernelIdeal.Stages.kres_main_v38 Cert.ReferenceIdeal.Value.res_main_v35
  rw [hp]

theorem tower_v77 (hn : Cert.KernelIdeal.Stages.kres_main_v68 (F := Ideal) Vk = Cert.ReferenceIdeal.Value.res_main_v62 (F := Ideal) Vr) : Cert.KernelIdeal.Stages.kres_main_v77 (F := Ideal) Vk = Cert.ReferenceIdeal.Value.res_main_v71 (F := Ideal) Vr := by
  unfold Cert.KernelIdeal.Stages.kres_main_v77 Cert.ReferenceIdeal.Value.res_main_v71
  rw [hn]

/-! The two deep layers. -/

theorem tower_v126 (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) (h9 : Vr (Proc.devRef .tc Cert.ReferenceIdeal.main_arg9) = Vk (Proc.devRef .tc Cert.KernelIdeal.main_arg9)) (h10 : Vr (Proc.devRef .tc Cert.ReferenceIdeal.main_arg10) = Vk (Proc.devRef .tc Cert.KernelIdeal.main_arg10))
    (e38 : Cert.KernelIdeal.Stages.kres_main_v38 (F := Ideal) Vk = Cert.ReferenceIdeal.Value.res_main_v35 (F := Ideal) Vr) (e77 : Cert.KernelIdeal.Stages.kres_main_v77 (F := Ideal) Vk = Cert.ReferenceIdeal.Value.res_main_v71 (F := Ideal) Vr) : Cert.KernelIdeal.Stages.kres_main_v126 (F := Ideal) Vk = Cert.ReferenceIdeal.Value.res_main_v120 (F := Ideal) Vr := by
  unfold Cert.KernelIdeal.Stages.kres_main_v126 Cert.ReferenceIdeal.Value.res_main_v120
  rw [tower_v79 Vk Vr h1, tower_v81 Vk Vr h1, tower_v101 Vk Vr h2, tower_v103 Vk Vr h2, e38, e77, h9, h10]
  rfl

theorem tower_v184 (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) (h11 : Vr (Proc.devRef .tc Cert.ReferenceIdeal.main_arg11) = Vk (Proc.devRef .tc Cert.KernelIdeal.main_arg11)) (h12 : Vr (Proc.devRef .tc Cert.ReferenceIdeal.main_arg12) = Vk (Proc.devRef .tc Cert.KernelIdeal.main_arg12))
    (e38 : Cert.KernelIdeal.Stages.kres_main_v38 (F := Ideal) Vk = Cert.ReferenceIdeal.Value.res_main_v35 (F := Ideal) Vr) (e77 : Cert.KernelIdeal.Stages.kres_main_v77 (F := Ideal) Vk = Cert.ReferenceIdeal.Value.res_main_v71 (F := Ideal) Vr) : Cert.KernelIdeal.Stages.kres_main_v184 (F := Ideal) Vk = Cert.ReferenceIdeal.Value.res_main_v178 (F := Ideal) Vr := by
  unfold Cert.KernelIdeal.Stages.kres_main_v184 Cert.ReferenceIdeal.Value.res_main_v178
  rw [tower_v137 Vk Vr h1, tower_v139 Vk Vr h1, tower_v159 Vk Vr h2, tower_v161 Vk Vr h2, e38, e77, h11, h12]
  rfl

/-! Concatenation of the normalised deep layers, and the last normalisation. -/

theorem tower_v194 (e126 : Cert.KernelIdeal.Stages.kres_main_v126 (F := Ideal) Vk = Cert.ReferenceIdeal.Value.res_main_v120 (F := Ideal) Vr) (e184 : Cert.KernelIdeal.Stages.kres_main_v184 (F := Ideal) Vk = Cert.ReferenceIdeal.Value.res_main_v178 (F := Ideal) Vr) : Cert.KernelIdeal.Stages.kres_main_v194 (F := Ideal) Vk = Cert.ReferenceIdeal.Value.res_main_v188 (F := Ideal) Vr := by
  unfold Cert.KernelIdeal.Stages.kres_main_v194 Cert.ReferenceIdeal.Value.res_main_v188
  rw [e126, e184]

theorem tower_v202 (e194 : Cert.KernelIdeal.Stages.kres_main_v194 (F := Ideal) Vk = Cert.ReferenceIdeal.Value.res_main_v188 (F := Ideal) Vr) : Cert.KernelIdeal.Stages.kres_main_v202 (F := Ideal) Vk = Cert.ReferenceIdeal.Value.res_main_v196 (F := Ideal) Vr := by
  unfold Cert.KernelIdeal.Stages.kres_main_v202 Cert.ReferenceIdeal.Value.res_main_v196
  rw [e194]

end

theorem tower (Vk : Valuation Cert.KernelIdeal.τ Cert.KernelIdeal.sig (Elt Ideal)) (Vr : Valuation Cert.ReferenceIdeal.τ Cert.ReferenceIdeal.sig (Elt Ideal))
    (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) (h9 : Vr (Proc.devRef .tc Cert.ReferenceIdeal.main_arg9) = Vk (Proc.devRef .tc Cert.KernelIdeal.main_arg9)) (h10 : Vr (Proc.devRef .tc Cert.ReferenceIdeal.main_arg10) = Vk (Proc.devRef .tc Cert.KernelIdeal.main_arg10)) (h11 : Vr (Proc.devRef .tc Cert.ReferenceIdeal.main_arg11) = Vk (Proc.devRef .tc Cert.KernelIdeal.main_arg11)) (h12 : Vr (Proc.devRef .tc Cert.ReferenceIdeal.main_arg12) = Vk (Proc.devRef .tc Cert.KernelIdeal.main_arg12))
    (hp : Cert.KernelIdeal.Stages.kres_main_v29 (F := Ideal) Vk = Cert.ReferenceIdeal.Value.res_main_v26 (F := Ideal) Vr)
    (hn : Cert.KernelIdeal.Stages.kres_main_v68 (F := Ideal) Vk = Cert.ReferenceIdeal.Value.res_main_v62 (F := Ideal) Vr) :
    Cert.KernelIdeal.Stages.kres_main_v202 (F := Ideal) Vk = Cert.ReferenceIdeal.Value.res_main_v196 (F := Ideal) Vr := by
  have e38 := tower_v38 Vk Vr hp
  have e77 := tower_v77 Vk Vr hn
  exact tower_v202 Vk Vr (tower_v194 Vk Vr (tower_v126 Vk Vr h1 h2 h9 h10 e38 e77) (tower_v184 Vk Vr h1 h2 h11 h12 e38 e77))

end Cert.Alg

end
-- ==== Proof.Alg.Finite.lean ====
/-
  The precondition says every float input is finite; read at the node features and at the two base layers' weights: every
  entry is a real number.
-/
import proofs.«181554_j91190745628895_2_alg».proof.Defs
import proofs.«181554_j91190745628895_2_alg».proof.Proof.Gen.Pre_finite_inputs
import proofs.«181554_j91190745628895_2_alg».proof.Proof.Gen.KernelIdeal
import Idealize.ShloMosaic.PureOps.Ideal.Laws
import Idealize.ShloMosaic.Lib.ReduceAll

set_option maxRecDepth 16384

noncomputable section

namespace Cert.Alg

open Idealize.ShloMosaic Idealize.ShloMosaic.TcCoe Idealize.SL.Sem

namespace FiniteInputs

/-- The scalar shape has one index. -/
instance subsingleton_scalar_idx : Subsingleton Cert.Pre_finite_inputs.S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value is below +∞ is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

end FiniteInputs

theorem inputs_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg7) i = (r : EReal)) := by
  have h := congrFun (hpre c) (fun a => a.elim0)
  dsimp only [Cert.Pre_finite_inputs.fn, Cert.Pre_finite_inputs.fn_part1, Cert.Pre_finite_inputs.fn_part2, Cert.Pre_finite_inputs.fn_part3] at h
  simp only [Idealize.ShloMosaic.andi, IntOp.andi_eq_one] at h
  obtain ⟨⟨⟨⟨⟨⟨⟨⟨⟨⟨a0, a3⟩, a4⟩, a5⟩, a6⟩, a7⟩, a8⟩, a9⟩, a10⟩, a11⟩, a12⟩ := h
  exact ⟨fun i => FiniteInputs.real_of_abs_lt_inf _ (Host.reduce_andi_all _ _ _ _ _ a0 i),
    fun i => FiniteInputs.real_of_abs_lt_inf _ (Host.reduce_andi_all _ _ _ _ _ a5 i),
    fun i => FiniteInputs.real_of_abs_lt_inf _ (Host.reduce_andi_all _ _ _ _ _ a7 i)⟩

end Cert.Alg

end
-- ==== Proof.Alg.Embed.lean ====
/-
  The two programs compute the same normalised embedding: the kernel's, read back stage by stage from the launch contents,
  meets the reference's at the two base layers (equal for real inputs) and is the same composition above them.
-/
import proofs.«181554_j91190745628895_2_alg».proof.Defs
import proofs.«181554_j91190745628895_2_alg».proof.Proof.KI.Readback
import proofs.«181554_j91190745628895_2_alg».proof.Proof.KI.Whole
import proofs.«181554_j91190745628895_2_alg».proof.Proof.Alg.BaseLaw
import proofs.«181554_j91190745628895_2_alg».proof.Proof.Alg.Tower
import proofs.«181554_j91190745628895_2_alg».proof.Proof.Alg.Finite

set_option maxRecDepth 16384

noncomputable section

namespace Cert.Alg

open Idealize.ShloMosaic Idealize.ShloMosaic.TcCoe Idealize.SL.Sem

theorem embed_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.KernelIdeal.Pair.V (F := Ideal) m c Cert.KernelIdeal.main_v202 = Cert.ReferenceIdeal.Value.res_main_v196 (F := Ideal) (StableHlo.launchContents m' c) := by
  have hk : Cert.KernelIdeal.Pair.V (F := Ideal) m c Cert.KernelIdeal.main_v202 = Cert.KernelIdeal.Stages.kres_main_v202 (F := Ideal) (StableHlo.launchContents m c) := by
    dsimp only [Cert.KernelIdeal.Pair.V, Cert.KernelIdeal.Pair.V0]
    simp only [List.flatten_cons, List.flatten_nil, List.append_nil]
    exact Cert.KernelIdeal.Stages.readback_v202 _
  rw [hk]
  obtain ⟨h0, h1, h2, h3, h4, h5, h6, h7, h8, h9, h10, h11, h12⟩ := hagree
  obtain ⟨r0, r5, r7⟩ := inputs_real m hpre c
  exact tower _ _ h1 h2 h9 h10 h11 h12 (base_pos _ _ h0 h1 h5 h6 r0 r5) (base_neg _ _ h0 h2 h7 h8 r0 r7)

/-- The labels' matrix the region reads is the labels' vector laid out as 8192 × 8192. -/
theorem labels_eq (m : (ℓ : Loc Cert.KernelIdeal.nD Cert.KernelIdeal.τ Cert.KernelIdeal.sig) → Buf (Elt Ideal) ℓ) (c : Dev Cert.KernelIdeal.nD) :
    Cert.KernelIdeal.Pair.V (F := Ideal) m c Cert.KernelIdeal.main_v203
      = shapeCast Cert.KernelIdeal.S8192x8192 (m ((c.tc : Thread Cert.KernelIdeal.nD Cert.KernelIdeal.τ).loc Cert.KernelIdeal.main_arg3)) Cert.KernelIdeal.Facts₀.shapeCasts_S67108864_S8192x8192 := by
  have hk : Cert.KernelIdeal.Pair.V (F := Ideal) m c Cert.KernelIdeal.main_v203 = Cert.KernelIdeal.Stages.kres_main_v203 (F := Ideal) (StableHlo.launchContents m c) := by
    dsimp only [Cert.KernelIdeal.Pair.V, Cert.KernelIdeal.Pair.V0]
    simp only [List.flatten_cons, List.flatten_nil, List.append_nil]
    exact Cert.KernelIdeal.Stages.readback_v203 _
  rw [hk]; rfl

end Cert.Alg

end
-- ==== Proof.Alg.Spec.lean ====
/-
  What the pairwise-loss region computes, as plain functions of whole arrays over the extended reals: the masked Gram
  matrix of the normalised embedding, and for each row the sum of its squared residuals against the labels, taken
  column tile by column tile (16 tiles of 512 columns). A grid point t is the tile (t / 16, t % 16) of 1024 rows by 512
  columns.
-/
import proofs.«181554_j91190745628895_2_alg».proof.KernelIdeal
import Idealize.ShloMosaic.Lib.ValueIdx
import Idealize.ShloMosaic.PureOps.Ideal

noncomputable section

namespace Cert.Spec

open Idealize.ShloMosaic Idealize.ShloMosaic.ValueIdx

/-- Row 1024·(t / 16) + p of the whole matrix: local row p of grid point t's tile. -/
def rowOf (t : Fin 128) (p : Fin 1024) : Fin 8192 := ⟨1024 * (t.val / 16) + p.val, by have := t.isLt; have := p.isLt; omega⟩
/-- Column 512·(t % 16) + q of the whole matrix: local column q of grid point t's tile. -/
def colOf (t : Fin 128) (q : Fin 512) : Fin 8192 := ⟨512 * (t.val % 16) + q.val, by have := q.isLt; omega⟩
/-- Column 512·j + q. -/
def colAt (j : Fin 16) (q : Fin 512) : Fin 8192 := ⟨512 * j.val + q.val, by have := j.isLt; have := q.isLt; omega⟩

/-- The masked Gram matrix: entry (r, s) is (Σ_k X(r,k)·X(s,k)) · M(r,s). -/
def gram (X : (⟨2, ![8192, 128]⟩ : Shape).Idx → EReal) (M : (⟨2, ![8192, 8192]⟩ : Shape).Idx → EReal) :
    (⟨2, ![8192, 8192]⟩ : Shape).Idx → EReal :=
  fun i => (∑ k : Fin 128, X (ix2 (i 0) k) * X (ix2 (i 1) k)) * M i

/-- The row sums of squared residuals, tile by tile: entry (r, 0) is Σ_j Σ_q (P(r, 512j+q) − L(r, 512j+q))². -/
def rowSq (P L : (⟨2, ![8192, 8192]⟩ : Shape).Idx → EReal) : (⟨2, ![8192, 1]⟩ : Shape).Idx → EReal :=
  fun i => ∑ j : Fin 16, ∑ q : Fin 512,
    (P (ix2 (i 0) (colAt j q)) - L (ix2 (i 0) (colAt j q))) * (P (ix2 (i 0) (colAt j q)) - L (ix2 (i 0) (colAt j q)))

end Cert.Spec

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.LibRowsByRows.lean ====
/-
  Two reads at an entry (p, u), on the extended reals.

  The product of an a × K array by a b × K array with the LAST axis of both contracted, formed into the zero
  accumulator, is the sum over k of lhs (p, k) · rhs (u, k): each output entry is the inner product of a row of
  the left operand with a ROW of the right one (a weight array kept as outputs × inputs).  The operands may be
  typed at any float formats.  The dimension record enters through its contracted rank and extent and four facts
  about where it sends an output index and a contraction index.

  A row of n numbers kept as a 1 × n array and repeated down a rows reads its entry u.

  Nothing here knows a program.
-/
import proofs.«181554_j91190745628895_2_alg».proof.Proof.LibAttnRead

noncomputable section

open scoped BigOperators

namespace Cert.RowsByRows

open Idealize.ShloMosaic Idealize.ShloMosaic.ValueIdx

variable {a b K : ℕ} {φ₁ φ₂ : FTy}

/-- Rows against rows: the entry (p, u) of the product is Σ_k lhs (p, k) · rhs (u, k). -/
theorem matmul_rows_rows_apply (D : DotDims ⟨2, ![a, K]⟩ ⟨2, ![b, K]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (lhs : FVec Ideal ⟨2, ![a, K]⟩ φ₁) (rhs : FVec Ideal ⟨2, ![b, K]⟩ φ₂) (p : Fin a) (u : Fin b) :
    FloatOps.matmul D prec lhs rhs (constant ⟨2, ![a, b]⟩ .f32 0x00000000#32) (ix2 p u)
      = ∑ k : Fin K, lhs (ix2 p k) * rhs (ix2 u k) := by
  refine Cert.AttnRead.matmul_zero_single_apply D prec hr hs lhs rhs (ix2 p u) (fun k => ix2 p k) (fun k => ix2 u k)
    (fun k => ?_) (fun k => ?_)
  · have hk := contrEquiv1_symm_val D K hr hs k
    funext ax
    apply Fin.ext
    match ax with
    | ⟨0, _⟩ => exact hl0 _ _
    | ⟨1, _⟩ => exact (hl1 _ _).trans hk
  · have hk := contrEquiv1_symm_val D K hr hs k
    funext ax
    apply Fin.ext
    match ax with
    | ⟨0, _⟩ => exact hr0 _ _
    | ⟨1, _⟩ => exact (hr1 _ _).trans hk

/-- A 1 × n row, cast to its own shape and repeated down a rows, reads at (p, u) the row's entry u. -/
theorem biasRow_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

end Cert.RowsByRows

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.Alg.Payload.lean ====
/-
  The body's arithmetic at an index, over the extended reals: the tile of the prediction is the row-by-row product of the
  row tile with the column tile's rows, times the mask; the accumulator grows by the tile's row sums of squared residuals.
-/
import proofs.«181554_j91190745628895_2_alg».proof.Proof.Alg.Spec
import proofs.«181554_j91190745628895_2_alg».proof.Proof.Gen.KernelIdeal.Skeleton
import proofs.«181554_j91190745628895_2_alg».proof.Proof.LibRowsByRows
import proofs.«181554_j91190745628895_2_alg».proof.Proof.LibVecRead
import Idealize.ShloMosaic.PureOps.Ideal.Laws
import Idealize.ShloMosaic.Lib.ValueLayout
import Idealize.ShloMosaic.Lib.Pipeline.Value

set_option maxRecDepth 16384

noncomputable section

namespace Cert.KernelIdeal.Pair

open Idealize.ShloMosaic Idealize.ShloMosaic.TcCoe Idealize.ShloMosaic.ValueIdx Idealize.SL.Sem
open Idealize.ShloMosaic.Pipeline (Dat Cfg)
open Cert.KernelIdeal Cert.KernelIdeal.Gen Cert.Spec

/-! ## Where the product's dimension record sends an output index and a contraction index -/

/-- The record contracts one axis. -/
theorem gramDims_rank : dot_S1024x128_S512x128_S1024x512_1_1_0_0_n_n.contr.rank = 1 := rfl

/-- The contracted axis has 128 positions. -/
theorem gramDims_size : dot_S1024x128_S512x128_S1024x512_1_1_0_0_n_n.contr.size ⟨0, by rw [gramDims_rank]; exact Nat.one_pos⟩ = 128 := rfl

theorem gramDims_lhs0 (j : S1024x512.Idx) (k : dot_S1024x128_S512x128_S1024x512_1_1_0_0_n_n.contr.Idx) :
    (dot_S1024x128_S512x128_S1024x512_1_1_0_0_n_n.lhsIdx j k 0).val = (j 0).val := by
  simp [DotDims.lhsIdx, dot_S1024x128_S512x128_S1024x512_1_1_0_0_n_n]; rfl

theorem gramDims_lhs1 (j : S1024x512.Idx) (k : dot_S1024x128_S512x128_S1024x512_1_1_0_0_n_n.contr.Idx) :
    (dot_S1024x128_S512x128_S1024x512_1_1_0_0_n_n.lhsIdx j k 1).val = (k ⟨0, by rw [gramDims_rank]; exact Nat.one_pos⟩).val := by
  simp [DotDims.lhsIdx, dot_S1024x128_S512x128_S1024x512_1_1_0_0_n_n]; rfl

theorem gramDims_rhs0 (j : S1024x512.Idx) (k : dot_S1024x128_S512x128_S1024x512_1_1_0_0_n_n.contr.Idx) :
    (dot_S1024x128_S512x128_S1024x512_1_1_0_0_n_n.rhsIdx j k 0).val = (j 1).val := by
  simp [DotDims.rhsIdx, dot_S1024x128_S512x128_S1024x512_1_1_0_0_n_n]; rfl

theorem gramDims_rhs1 (j : S1024x512.Idx) (k : dot_S1024x128_S512x128_S1024x512_1_1_0_0_n_n.contr.Idx) :
    (dot_S1024x128_S512x128_S1024x512_1_1_0_0_n_n.rhsIdx j k 1).val = (k ⟨0, by rw [gramDims_rank]; exact Nat.one_pos⟩).val := by
  simp [DotDims.rhsIdx, dot_S1024x128_S512x128_S1024x512_1_1_0_0_n_n]; rfl

/-! ## The three payloads -/

theorem pay1_apply (p : Fin 1024) : k0_pay1 (F := Ideal) (ix2 p (0 : Fin 1)) = 0 := by
  unfold k0_pay1
  refine (congrFun (shapeCast_self _ _) _).trans ?_
  exact Ideal.ofBits_zero_f32

theorem pay2_apply (v3 : Vec Ideal S1024x128 .f32) (v9 : Vec Ideal S512x128 .f32) (v13 : Vec Ideal S1024x512 .f32)
    (p : Fin 1024) (q : Fin 512) :
    k0_pay2 (F := Ideal) v3 v9 v13 (ix2 p q) = (∑ k : Fin 128, v3 (ix2 p k) * v9 (ix2 q k)) * v13 (ix2 p q) := by
  unfold k0_pay2
  refine congrArg (· * v13 (ix2 p q)) ?_
  refine (Cert.RowsByRows.matmul_rows_rows_apply (a := 1024) (b := 512) (K := 128)
    dot_S1024x128_S512x128_S1024x512_1_1_0_0_n_n none gramDims_rank gramDims_size
    gramDims_lhs0 gramDims_lhs1 gramDims_rhs0 gramDims_rhs1 _ _ p q).trans ?_
  refine Finset.sum_congr rfl fun k _ => ?_
  show shapeCast S1024x128 v3 shapeCasts_S1024x128_S1024x128 (ix2 p k)
      * shapeCast S512x128 v9 shapeCasts_S512x128_S512x128 (ix2 q k) = _
  rw [shapeCast_self, shapeCast_self]

theorem pay3_apply (v3 : Vec Ideal S1024x128 .f32) (v9 : Vec Ideal S512x128 .f32) (v13 v16 : Vec Ideal S1024x512 .f32)
    (v19 : Vec Ideal S1024x1 .f32) (p : Fin 1024) :
    k0_pay3 (F := Ideal) v3 v9 v13 v16 v19 (ix2 p (0 : Fin 1))
      = v19 (ix2 p (0 : Fin 1)) + ∑ q : Fin 512,
          (k0_pay2 (F := Ideal) v3 v9 v13 (ix2 p q) - v16 (ix2 p q)) * (k0_pay2 (F := Ideal) v3 v9 v13 (ix2 p q) - v16 (ix2 p q)) := by
  unfold k0_pay3
  refine (congrFun (shapeCast_self _ _) _).trans ?_
  refine congrArg (v19 (ix2 p (0 : Fin 1)) + ·) ?_
  refine (Cert.VecRead.shapeCast_col_apply _ shapeCasts_S1024_S1024x1 p (0 : Fin 1)).trans ?_
  refine (Cert.VecRead.laneSum_apply (a := 1024) (b := 512) _ reduces_S1024x512_S1024 (.inl rfl) rfl p).trans ?_
  refine Finset.sum_congr rfl fun q _ => ?_
  show (k0_pay2 (F := Ideal) v3 v9 v13 (ix2 p q) - shapeCast S1024x512 v16 shapeCasts_S1024x512_S1024x512 (ix2 p q))
      * (k0_pay2 (F := Ideal) v3 v9 v13 (ix2 p q) - shapeCast S1024x512 v16 shapeCasts_S1024x512_S1024x512 (ix2 p q)) = _
  rw [shapeCast_self]

end Cert.KernelIdeal.Pair

end
-- ==== Proof.Alg.Blocks.lean ====
/-
  Each window's block at a grid point read at an index of the whole array, and the two output arrays after the region
  from what each point leaves: the prediction's tiles cover the 8192 × 8192 matrix, the row sums' blocks (written back at
  the last column tile of each row tile) cover the 8192 × 1 column.
-/
import proofs.«181554_j91190745628895_2_alg».proof.Proof.Alg.Spec
import proofs.«181554_j91190745628895_2_alg».proof.Proof.KI.Whole
import Idealize.ShloMosaic.Lib.Pipeline.Value

set_option maxRecDepth 16384

noncomputable section

namespace Cert.KernelIdeal.Pair

open Idealize.ShloMosaic Idealize.ShloMosaic.TcCoe Idealize.ShloMosaic.ValueIdx Idealize.SL.Sem
open Idealize.ShloMosaic.Pipeline (Dat Cfg)
open Cert.KernelIdeal Cert.KernelIdeal.Gen Cert.Spec

variable (m : (ℓ : Loc nD τ sig) → Buf (Elt Ideal) ℓ)

theorem tN (t : Fin cfg0.N) : t.val < 128 := lt_of_lt_of_eq t.isLt (show cfg0.N = 128 from N_0)
/-- A grid point as a number below 128. -/
def pt (t : Fin cfg0.N) : Fin 128 := ⟨t.val, tN t⟩

/-! ## The printed index maps, decided once over the grid -/

/-- At grid point t every window's block index is (t / 16, t % 16), (t / 16, 0) or (0, 0). -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = t.val / 16 ∧ win0_2.index t (1 : Fin 2) = t.val % 16
    ∧ win0_3.index t (0 : Fin 2) = t.val / 16 ∧ win0_3.index t (1 : Fin 2) = t.val % 16
    ∧ win0_4.index t (0 : Fin 2) = t.val / 16 ∧ win0_4.index t (1 : Fin 2) = t.val % 16
    ∧ win0_5.index t (0 : Fin 2) = t.val / 16 ∧ win0_5.index t (1 : Fin 2) = 0 :=
  (by decide +kernel : ∀ t : Fin grid0.N, _)

theorem iblk0_apply (c : Dev nD) (t : Fin cfg0.N) (p : Fin 1024) (k : Fin 128) :
    iblk (F := Ideal) m c 0 t (ix2 p k) = V m c main_v202 (ix2 (rowOf (pt t) p) k) := by
  obtain ⟨e0, e1, -⟩ := idx_facts t
  show V m c main_v202 (((cfg0.win 0).blk t).view.emb (ix2 p k)) = _
  refine congrArg (V m c main_v202) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 128 + 1 * k.val = k.val; omega

theorem iblk1_apply (c : Dev nD) (t : Fin cfg0.N) (r : Fin 8192) (k : Fin 128) :
    iblk (F := Ideal) m c 1 t (ix2 r k) = V m c main_v202 (ix2 r k) := by
  obtain ⟨-, -, e0, e1, -⟩ := idx_facts t
  show V m c main_v202 (((cfg0.win 1).blk t).view.emb (ix2 r k)) = _
  refine congrArg (V m c main_v202) (funext fun a => Fin.ext ?_)
  match a with
  | ⟨0, _⟩ => show win0_1.index t (0 : Fin 2) * 8192 + 1 * r.val = r.val; omega
  | ⟨1, _⟩ => show win0_1.index t (1 : Fin 2) * 128 + 1 * k.val = k.val; omega

theorem iblk2_apply (c : Dev nD) (t : Fin cfg0.N) (p : Fin 1024) (q : Fin 512) :
    iblk (F := Ideal) m c 2 t (ix2 p q) = V m c main_arg4 (ix2 (rowOf (pt t) p) (colOf (pt t) q)) := by
  obtain ⟨-, -, -, -, e0, e1, -⟩ := idx_facts t
  show V m c main_arg4 (((cfg0.win 2).blk t).view.emb (ix2 p q)) = _
  refine congrArg (V m c main_arg4) (funext fun a => Fin.ext ?_)
  match a with
  | ⟨0, _⟩ => show win0_2.index t (0 : Fin 2) * 1024 + 1 * p.val = 1024 * (t.val / 16) + p.val; omega
  | ⟨1, _⟩ => show win0_2.index t (1 : Fin 2) * 512 + 1 * q.val = 512 * (t.val % 16) + q.val; omega

theorem iblk3_apply (c : Dev nD) (t : Fin cfg0.N) (p : Fin 1024) (q : Fin 512) :
    iblk (F := Ideal) m c 3 t (ix2 p q) = V m c main_v203 (ix2 (rowOf (pt t) p) (colOf (pt t) q)) := by
  obtain ⟨-, -, -, -, -, -, e0, e1, -⟩ := idx_facts t
  show V m c main_v203 (((cfg0.win 3).blk t).view.emb (ix2 p q)) = _
  refine congrArg (V m c main_v203) (funext fun a => Fin.ext ?_)
  match a with
  | ⟨0, _⟩ => show win0_3.index t (0 : Fin 2) * 1024 + 1 * p.val = 1024 * (t.val / 16) + p.val; omega
  | ⟨1, _⟩ => show win0_3.index t (1 : Fin 2) * 512 + 1 * q.val = 512 * (t.val % 16) + q.val; omega

/-- The prediction after the region is any whole matrix whose (t / 16, t % 16) tile is what point t leaves. -/
theorem final4 (c : Dev nD) (G : S8192x8192.Idx → EReal)
    (h : ∀ (t : Fin cfg0.N) (p : Fin 1024) (q : Fin 512),
      (dats (F := Ideal) m 0 c).after 4 t (ix2 p q) = G (ix2 (rowOf (pt t) p) (colOf (pt t) q))) :
    (dats (F := Ideal) m 0 c).arrAt 4 cfg0.N = G := by
  have hN : cfg0.N = 128 := N_0
  refine (dats m 0 c).arrAt_eq_of_cover 4 G (fun t _ => ?_) (fun i => ?_)
  · obtain ⟨-, -, -, -, -, -, -, -, e0, e1, -⟩ := idx_facts t
    funext j
    obtain ⟨p, q, rfl⟩ : ∃ (p : Fin 1024) (q : Fin 512), j = ix2 p q := ⟨j 0, j 1, eq_ix2 j⟩
    show (dats m 0 c).after 4 t ((cfg0.win 4).xinj (grid0.coords t) (ix2 p q)) = G (((cfg0.win 4).blk t).view.emb (ix2 p q))
    have hx : (cfg0.win 4).xinj (grid0.coords t) (ix2 p q) = ix2 p q :=
      funext fun a => Fin.ext (by match a with | ⟨0, _⟩ => rfl | ⟨1, _⟩ => rfl)
    rw [hx, h t p q]
    refine congrArg G (funext fun a => Fin.ext ?_)
    match a with
    | ⟨0, _⟩ => show 1024 * (t.val / 16) + p.val = win0_4.index t (0 : Fin 2) * 1024 + 1 * p.val; omega
    | ⟨1, _⟩ => show 512 * (t.val % 16) + q.val = win0_4.index t (1 : Fin 2) * 512 + 1 * q.val; omega
  · have hi0 : (i 0).val < 8192 := (i 0).isLt
    have hi1 : (i 1).val < 8192 := (i 1).isLt
    have hlt : 16 * ((i 0).val / 1024) + (i 1).val / 512 < cfg0.N := by rw [hN]; omega
    refine ⟨⟨16 * ((i 0).val / 1024) + (i 1).val / 512, hlt⟩, flush0_4 _, ?_⟩
    obtain ⟨-, -, -, -, -, -, -, -, e0, e1, -⟩ := idx_facts ⟨16 * ((i 0).val / 1024) + (i 1).val / 512, hlt⟩
    show i ∈ ((View.whole main_v204_0).slice (win0_4.rect ⟨16 * ((i 0).val / 1024) + (i 1).val / 512, hlt⟩)).set
    rw [View.set_slice_whole, Rect.mem_set_unit]
    intro a
    match a with
    | ⟨0, _⟩ =>
      show win0_4.index ⟨16 * ((i 0).val / 1024) + (i 1).val / 512, hlt⟩ (0 : Fin 2) * 1024 ≤ (i 0).val
        ∧ (i 0).val < win0_4.index ⟨16 * ((i 0).val / 1024) + (i 1).val / 512, hlt⟩ (0 : Fin 2) * 1024 + 1024
      rw [e0]
      show (16 * ((i 0).val / 1024) + (i 1).val / 512) / 16 * 1024 ≤ (i 0).val
        ∧ (i 0).val < (16 * ((i 0).val / 1024) + (i 1).val / 512) / 16 * 1024 + 1024
      omega
    | ⟨1, _⟩ =>
      show win0_4.index ⟨16 * ((i 0).val / 1024) + (i 1).val / 512, hlt⟩ (1 : Fin 2) * 512 ≤ (i 1).val
        ∧ (i 1).val < win0_4.index ⟨16 * ((i 0).val / 1024) + (i 1).val / 512, hlt⟩ (1 : Fin 2) * 512 + 512
      rw [e1]
      show (16 * ((i 0).val / 1024) + (i 1).val / 512) % 16 * 512 ≤ (i 1).val
        ∧ (i 1).val < (16 * ((i 0).val / 1024) + (i 1).val / 512) % 16 * 512 + 512
      omega

/-- The row sums after the region are any whole column whose block of rows 1024·(t / 16) … is what the last column tile of
    that row tile leaves. -/
theorem final5 (c : Dev nD) (G : S8192x1.Idx → EReal)
    (h : ∀ (t : Fin cfg0.N), t.val % 16 = 15 → ∀ (p : Fin 1024),
      (dats (F := Ideal) m 0 c).after 5 t (ix2 p (0 : Fin 1)) = G (ix2 (rowOf (pt t) p) (0 : Fin 1))) :
    (dats (F := Ideal) m 0 c).arrAt 5 cfg0.N = G := by
  have hN : cfg0.N = 128 := N_0
  refine (dats m 0 c).arrAt_eq_of_cover 5 G (fun t hf => ?_) (fun i => ?_)
  · have ht : t.val % 16 = 15 := (flush0_5 t).mp hf
    obtain ⟨-, -, -, -, -, -, -, -, -, -, e0, e1⟩ := idx_facts t
    funext j
    obtain ⟨p, z, rfl⟩ : ∃ (p : Fin 1024) (z : Fin 1), j = ix2 p z := ⟨j 0, j 1, eq_ix2 j⟩
    obtain rfl : z = 0 := Subsingleton.elim _ _
    show (dats m 0 c).after 5 t ((cfg0.win 5).xinj (grid0.coords t) (ix2 p (0 : Fin 1))) = G (((cfg0.win 5).blk t).view.emb (ix2 p (0 : Fin 1)))
    have hx : (cfg0.win 5).xinj (grid0.coords t) (ix2 p (0 : Fin 1)) = ix2 p (0 : Fin 1) :=
      funext fun a => Fin.ext (by match a with | ⟨0, _⟩ => rfl | ⟨1, _⟩ => rfl)
    rw [hx, h t ht p]
    refine congrArg G (funext fun a => Fin.ext ?_)
    match a with
    | ⟨0, _⟩ => show 1024 * (t.val / 16) + p.val = win0_5.index t (0 : Fin 2) * 1024 + 1 * p.val; omega
    | ⟨1, _⟩ => show 0 = win0_5.index t (1 : Fin 2) * 1 + 1 * 0; omega
  · have hi0 : (i 0).val < 8192 := (i 0).isLt
    have hi1 : (i 1).val < 1 := (i 1).isLt
    have hlt : 16 * ((i 0).val / 1024) + 15 < cfg0.N := by rw [hN]; omega
    refine ⟨⟨16 * ((i 0).val / 1024) + 15, hlt⟩, (flush0_5 _).mpr (by show (16 * ((i 0).val / 1024) + 15) % 16 = 15; omega), ?_⟩
    obtain ⟨-, -, -, -, -, -, -, -, -, -, e0, e1⟩ := idx_facts ⟨16 * ((i 0).val / 1024) + 15, hlt⟩
    show i ∈ ((View.whole main_v204_1).slice (win0_5.rect ⟨16 * ((i 0).val / 1024) + 15, hlt⟩)).set
    rw [View.set_slice_whole, Rect.mem_set_unit]
    intro a
    match a with
    | ⟨0, _⟩ =>
      show win0_5.index ⟨16 * ((i 0).val / 1024) + 15, hlt⟩ (0 : Fin 2) * 1024 ≤ (i 0).val
        ∧ (i 0).val < win0_5.index ⟨16 * ((i 0).val / 1024) + 15, hlt⟩ (0 : Fin 2) * 1024 + 1024
      rw [e0]
      show (16 * ((i 0).val / 1024) + 15) / 16 * 1024 ≤ (i 0).val
        ∧ (i 0).val < (16 * ((i 0).val / 1024) + 15) / 16 * 1024 + 1024
      omega
    | ⟨1, _⟩ =>
      show win0_5.index ⟨16 * ((i 0).val / 1024) + 15, hlt⟩ (1 : Fin 2) * 1 ≤ (i 1).val
        ∧ (i 1).val < win0_5.index ⟨16 * ((i 0).val / 1024) + 15, hlt⟩ (1 : Fin 2) * 1 + 1
      rw [e1]
      omega

end Cert.KernelIdeal.Pair

end
-- ==== Proof.Alg.RegionValuePieces.lean ====
/-
  What the body leaves in its buffers, as values, in each of its three control cases (first, middle and last column
  tile): the prediction window's buffer holds the tile payload of the row tile, of the 512 rows of the resident operand
  at the column tile's offset, and of the mask tile; the accumulator holds the accumulating payload of those, of the
  label tile, and of the accumulator as it stood (the zero column at a first column tile); the row-sum window's buffer,
  at a last column tile, holds what the accumulator holds. Each is the payload of the one whole-buffer store that covers
  the buffer, its loads reading whole buffers except the one of 512 rows.
-/
import proofs.«181554_j91190745628895_2_alg».proof.Proof.KI.Points
import Idealize.ShloMosaic.Lib.Pipeline.Value
import Idealize.ShloMosaic.Lib.ValueIdx

set_option maxRecDepth 16384

noncomputable section

namespace Cert.KernelIdeal.Pair

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access, as the constant zero function. -/
theorem hz2 : (![0, 0] : Fin 2 → Nat) = fun _ => 0 := funext fun a => by fin_cases a <;> rfl

/-- Rows 512·j … 512·j + 511 of the resident 8192 × 128 operand: what the body loads at column tile j. -/
def colRows (i : grid0.Coords) (x1 : Vec F S8192x128 .f32) : Vec F S512x128 .f32 :=
  View.ld x1 (Rect.unit (s := S8192x128) (k0_off1 i) S512x128.size (k0_off1_inb i))

theorem predFirst_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x128 .f32) (x1 : Vec F S8192x128 .f32) (x2 : Vec F S1024x512 .f32) (x3 : Vec F S1024x512 .f32) :
    predFirst c i arg2 harg2 arg3 harg3 arg4 harg4 arg5 harg5 arg6 harg6 arg7 harg7 arg8 harg8 hc0 hc1 x0 x1 x2 x3 = k0_pay2 x0 (colRows i x1) x2 := by
  unfold predFirst
  rw [View.read_writes_eq_canon _ _ _ (predCoverFirst c i arg2 harg2 arg3 harg3 arg4 harg4 arg5 harg5 arg6 harg6 arg7 harg7 arg8 harg8 hc0 hc1 x0 x1 x2 x3)]
  unfold runFirst
  dsimp only
  rw [View.canon_unit_zero hz2]
  simp only [View.readAt_eq_ld, harg2.read_unread, harg3.read_unread, harg4.read_unread, harg5.read_unread,
    View.ld_unit_zero (S := S1024x128) hz2, View.ld_unit_zero (S := S1024x512) hz2, View.ld_unit_zero (S := S1024x1) hz2]
  rfl

theorem accFirst_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x128 .f32) (x1 : Vec F S8192x128 .f32) (x2 : Vec F S1024x512 .f32) (x3 : Vec F S1024x512 .f32) :
    accFirst c i arg2 harg2 arg3 harg3 arg4 harg4 arg5 harg5 arg6 harg6 arg7 harg7 arg8 harg8 hc0 hc1 x0 x1 x2 x3 = k0_pay3 x0 (colRows i x1) x2 x3 k0_pay1 := by
  unfold accFirst
  rw [View.read_writes_eq_canon _ _ _ (accCoverFirst c i arg2 harg2 arg3 harg3 arg4 harg4 arg5 harg5 arg6 harg6 arg7 harg7 arg8 harg8 hc0 hc1 x0 x1 x2 x3)]
  unfold runFirst
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread,
    View.ld_unit_zero (S := S1024x128) hz2, View.ld_unit_zero (S := S1024x512) hz2, View.ld_unit_zero (S := S1024x1) hz2]
  rfl

/-- The load of 512 rows read at (q, k) is the operand at (512·j + q, k), j the column tile. -/
theorem colRows_apply (i : grid0.Coords) (x1 : Vec F S8192x128 .f32) (q : Fin 512) (k : Fin 128) (r : Fin 8192)
    (hr : r.val = 512 * (i 1).val + q.val) : colRows i x1 (ix2 q k) = x1 (ix2 r k) := by
  unfold colRows
  show x1 _ = x1 (ix2 r k)
  congr 1
  funext a
  apply Fin.ext
  match a with
  | ⟨0, _⟩ => show (k0_off1 i) 0 + 1 * q.val = r.val; rw [k0_off1_eq, hr]; simp
  | ⟨1, _⟩ => show (k0_off1 i) 1 + 1 * k.val = k.val; rw [k0_off1_eq]; simp

theorem predMid_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x128 .f32) (x1 : Vec F S8192x128 .f32) (x2 : Vec F S1024x512 .f32) (x3 : Vec F S1024x512 .f32) (xs : Vec F S1024x1 .f32) :
    predMid c i arg2 harg2 arg3 harg3 arg4 harg4 arg5 harg5 arg6 harg6 arg7 harg7 arg8 harg8 hc0 hc1 x0 x1 x2 x3 xs = k0_pay2 x0 (colRows i x1) x2 := by
  unfold predMid
  rw [View.read_writes_eq_canon _ _ _ (predCoverMid c i arg2 harg2 arg3 harg3 arg4 harg4 arg5 harg5 arg6 harg6 arg7 harg7 arg8 harg8 hc0 hc1 x0 x1 x2 x3 xs)]
  unfold runMid
  dsimp only
  rw [View.canon_unit_zero hz2]
  simp only [View.readAt_eq_ld, harg2.read_unread, harg3.read_unread, harg4.read_unread, harg5.read_unread, harg8.read_unread,
    View.ld_unit_zero (S := S1024x128) hz2, View.ld_unit_zero (S := S1024x512) hz2, View.ld_unit_zero (S := S1024x1) hz2]
  rfl

theorem accMid_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x128 .f32) (x1 : Vec F S8192x128 .f32) (x2 : Vec F S1024x512 .f32) (x3 : Vec F S1024x512 .f32) (xs : Vec F S1024x1 .f32) :
    accMid c i arg2 harg2 arg3 harg3 arg4 harg4 arg5 harg5 arg6 harg6 arg7 harg7 arg8 harg8 hc0 hc1 x0 x1 x2 x3 xs = k0_pay3 x0 (colRows i x1) x2 x3 xs := by
  unfold accMid
  rw [View.read_writes_eq_canon _ _ _ (accCoverMid c i arg2 harg2 arg3 harg3 arg4 harg4 arg5 harg5 arg6 harg6 arg7 harg7 arg8 harg8 hc0 hc1 x0 x1 x2 x3 xs)]
  unfold runMid
  dsimp only
  rw [View.canon_unit_zero hz2]
  simp only [View.readAt_eq_ld, harg2.read_unread, harg3.read_unread, harg4.read_unread, harg5.read_unread, harg8.read_unread,
    View.ld_unit_zero (S := S1024x128) hz2, View.ld_unit_zero (S := S1024x512) hz2, View.ld_unit_zero (S := S1024x1) hz2]
  rfl

theorem predLast_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x128 .f32) (x1 : Vec F S8192x128 .f32) (x2 : Vec F S1024x512 .f32) (x3 : Vec F S1024x512 .f32) (xs : Vec F S1024x1 .f32) :
    predLast c i arg2 harg2 arg3 harg3 arg4 harg4 arg5 harg5 arg6 harg6 arg7 harg7 arg8 harg8 hc0 hc1 x0 x1 x2 x3 xs = k0_pay2 x0 (colRows i x1) x2 := by
  unfold predLast
  rw [View.read_writes_eq_canon _ _ _ (predCoverLast c i arg2 harg2 arg3 harg3 arg4 harg4 arg5 harg5 arg6 harg6 arg7 harg7 arg8 harg8 hc0 hc1 x0 x1 x2 x3 xs)]
  unfold runLast
  dsimp only
  rw [View.canon_unit_zero hz2]
  simp only [View.readAt_eq_ld, harg2.read_unread, harg3.read_unread, harg4.read_unread, harg5.read_unread, harg8.read_unread,
    View.ld_unit_zero (S := S1024x128) hz2, View.ld_unit_zero (S := S1024x512) hz2, View.ld_unit_zero (S := S1024x1) hz2]
  rfl

theorem accLast_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x128 .f32) (x1 : Vec F S8192x128 .f32) (x2 : Vec F S1024x512 .f32) (x3 : Vec F S1024x512 .f32) (xs : Vec F S1024x1 .f32) :
    accLast c i arg2 harg2 arg3 harg3 arg4 harg4 arg5 harg5 arg6 harg6 arg7 harg7 arg8 harg8 hc0 hc1 x0 x1 x2 x3 xs = k0_pay3 x0 (colRows i x1) x2 x3 xs := by
  unfold accLast
  rw [View.read_writes_eq_canon _ _ _ (accCoverLast c i arg2 harg2 arg3 harg3 arg4 harg4 arg5 harg5 arg6 harg6 arg7 harg7 arg8 harg8 hc0 hc1 x0 x1 x2 x3 xs)]
  unfold runLast
  dsimp only
  sl_unfold_words
  rw [View.canon_unit_zero hz2]
  simp only [View.readAt_eq_ld, harg2.read_unread, harg3.read_unread, harg4.read_unread, harg5.read_unread, harg8.read_unread,
    View.ld_unit_zero (S := S1024x128) hz2, View.ld_unit_zero (S := S1024x512) hz2, View.ld_unit_zero (S := S1024x1) hz2]
  rfl

theorem rowsLast_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x128 .f32) (x1 : Vec F S8192x128 .f32) (x2 : Vec F S1024x512 .f32) (x3 : Vec F S1024x512 .f32) (xs : Vec F S1024x1 .f32) :
    rowsLast c i arg2 harg2 arg3 harg3 arg4 harg4 arg5 harg5 arg6 harg6 arg7 harg7 arg8 harg8 hc0 hc1 x0 x1 x2 x3 xs = k0_pay3 x0 (colRows i x1) x2 x3 xs := by
  unfold rowsLast
  rw [View.read_writes_eq_canon _ _ _ (rowsCoverLast c i arg2 harg2 arg3 harg3 arg4 harg4 arg5 harg5 arg6 harg6 arg7 harg7 arg8 harg8 hc0 hc1 x0 x1 x2 x3 xs)]
  unfold runLast
  dsimp only
  sl_unfold_words
  rw [View.canon_unit_zero hz2, View.readCov_unit_zero (S := S1024x1) _ hz2]
  simp only [View.readAt_eq_ld, harg2.read_unread, harg3.read_unread, harg4.read_unread, harg5.read_unread, harg8.read_unread,
    View.ld_unit_zero (S := S1024x128) hz2, View.ld_unit_zero (S := S1024x512) hz2, View.ld_unit_zero (S := S1024x1) hz2]
  rfl

end Cert.KernelIdeal.Pair

end
-- ==== Proof.Alg.RegionValue.lean ====
/-
  What the region leaves: the prediction is the masked Gram matrix of the normalised embedding, and the row sums are, row
  by row, the sum over the sixteen column tiles of the tile's squared residuals against the labels.
-/
import proofs.«181554_j91190745628895_2_alg».proof.Proof.Alg.Payload
import proofs.«181554_j91190745628895_2_alg».proof.Proof.Alg.Blocks
import proofs.«181554_j91190745628895_2_alg».proof.Proof.Alg.RegionValuePieces

set_option maxRecDepth 16384

noncomputable section

namespace Cert.KernelIdeal.Pair

open Idealize.ShloMosaic Idealize.ShloMosaic.TcCoe Idealize.ShloMosaic.ValueIdx Idealize.SL.Sem
open Idealize.ShloMosaic.Pipeline (Dat Cfg)
open Cert.KernelIdeal Cert.KernelIdeal.Gen Cert.Spec

/-- Row r's squared residuals against the labels, summed over the 512 columns of column tile j (zero past the sixteenth
    tile). -/
def tileSq (P L : (⟨2, ![8192, 8192]⟩ : Shape).Idx → EReal) (r : Fin 8192) (j : ℕ) : EReal :=
  if h : j < 16 then
    ∑ q : Fin 512, (P (ix2 r (colAt ⟨j, h⟩ q)) - L (ix2 r (colAt ⟨j, h⟩ q))) * (P (ix2 r (colAt ⟨j, h⟩ q)) - L (ix2 r (colAt ⟨j, h⟩ q)))
  else 0

/-- The tile payload of three blocks that read rows r of X, rows s of X and entry (r, s) of M is the masked Gram matrix
    of X and M at (r, s). -/
theorem gram_of_blocks (X : (⟨2, ![8192, 128]⟩ : Shape).Idx → EReal) (M : (⟨2, ![8192, 8192]⟩ : Shape).Idx → EReal)
    (v3 : Vec Ideal S1024x128 .f32) (v9 : Vec Ideal S512x128 .f32) (v13 : Vec Ideal S1024x512 .f32)
    (r s : Fin 8192) (p : Fin 1024) (q : Fin 512)
    (h3 : ∀ k : Fin 128, v3 (ix2 p k) = X (ix2 r k)) (h9 : ∀ k : Fin 128, v9 (ix2 q k) = X (ix2 s k))
    (h13 : v13 (ix2 p q) = M (ix2 r s)) :
    k0_pay2 (F := Ideal) v3 v9 v13 (ix2 p q) = gram X M (ix2 r s) := by
  refine (pay2_apply v3 v9 v13 p q).trans ?_
  rw [h13, Finset.sum_congr rfl (fun k _ => by rw [h3 k, h9 k] : ∀ k ∈ Finset.univ, v3 (ix2 p k) * v9 (ix2 q k) = X (ix2 r k) * X (ix2 s k))]
  rfl

/-- The accumulating payload adds, to what the accumulator held at row p, the squared residuals of row r over column
    tile j, when the tile payload reads P and the label block reads L there. -/
theorem step_of_blocks (P L : (⟨2, ![8192, 8192]⟩ : Shape).Idx → EReal)
    (v3 : Vec Ideal S1024x128 .f32) (v9 : Vec Ideal S512x128 .f32) (v13 v16 : Vec Ideal S1024x512 .f32)
    (xs : Vec Ideal S1024x1 .f32) (r : Fin 8192) (j : ℕ) (hj : j < 16) (p : Fin 1024)
    (hP : ∀ q : Fin 512, k0_pay2 (F := Ideal) v3 v9 v13 (ix2 p q) = P (ix2 r (colAt ⟨j, hj⟩ q)))
    (hL : ∀ q : Fin 512, v16 (ix2 p q) = L (ix2 r (colAt ⟨j, hj⟩ q))) :
    k0_pay3 (F := Ideal) v3 v9 v13 v16 xs (ix2 p (0 : Fin 1)) = xs (ix2 p (0 : Fin 1)) + tileSq P L r j := by
  refine (pay3_apply v3 v9 v13 v16 xs p).trans ?_
  unfold tileSq
  rw [dif_pos hj]
  refine congrArg (xs (ix2 p (0 : Fin 1)) + ·) ?_
  refine Finset.sum_congr rfl fun q _ => ?_
  rw [hP q, hL q]

variable (m : (ℓ : Loc nD τ sig) → Buf (Elt Ideal) ℓ)

/-- The column tile of a grid point is its position modulo 16. -/
theorem coords1 : ∀ t : Fin cfg0.N, ((grid0.coords t) 1).val = t.val % 16 :=
  (by decide +kernel : ∀ t : Fin grid0.N, ((grid0.coords t) 1).val = t.val % 16)

/-- The 512 loaded rows at grid point t, read at (q, k), are the normalised embedding at the tile's column q. -/
theorem colRows_value (c : Dev nD) (t : Fin cfg0.N) (q : Fin 512) (k : Fin 128) :
    colRows (F := Ideal) (grid0.coords t) (iblk m c 1 t) (ix2 q k) = V m c main_v202 (ix2 (colOf (pt t) q) k) :=
  (colRows_apply (F := Ideal) (grid0.coords t) (iblk m c 1 t) q k (colOf (pt t) q)
      (by show 512 * (t.val % 16) + q.val = 512 * ((grid0.coords t) 1).val + q.val; rw [coords1 t])).trans
    (iblk1_apply m c t (colOf (pt t) q) k)

/-- The tile payload at grid point t, read at (p, q), is the masked Gram matrix at the tile's row p and column q. -/
theorem tile_value (c : Dev nD) (t : Fin cfg0.N) (p : Fin 1024) (q : Fin 512) :
    k0_pay2 (F := Ideal) (iblk m c 0 t) (colRows (grid0.coords t) (iblk m c 1 t)) (iblk m c 2 t) (ix2 p q)
      = gram (V m c main_v202) (V m c main_arg4) (ix2 (rowOf (pt t) p) (colOf (pt t) q)) :=
  gram_of_blocks (V m c main_v202) (V m c main_arg4) (iblk m c 0 t) (colRows (grid0.coords t) (iblk m c 1 t)) (iblk m c 2 t)
    (rowOf (pt t) p) (colOf (pt t) q) p q (fun k => iblk0_apply m c t p k) (fun k => colRows_value m c t q k)
    (iblk2_apply m c t p q)

/-- The accumulating payload at grid point t adds the tile's squared residuals to what the accumulator held. -/
theorem step_value (c : Dev nD) (t : Fin cfg0.N) (xs : Vec Ideal S1024x1 .f32) (p : Fin 1024) :
    k0_pay3 (F := Ideal) (iblk m c 0 t) (colRows (grid0.coords t) (iblk m c 1 t)) (iblk m c 2 t) (iblk m c 3 t) xs (ix2 p (0 : Fin 1))
      = xs (ix2 p (0 : Fin 1)) + tileSq (gram (V m c main_v202) (V m c main_arg4)) (V m c main_v203) (rowOf (pt t) p) (t.val % 16) :=
  step_of_blocks (gram (V m c main_v202) (V m c main_arg4)) (V m c main_v203) (iblk m c 0 t) (colRows (grid0.coords t) (iblk m c 1 t)) (iblk m c 2 t) (iblk m c 3 t) xs
    (rowOf (pt t) p) (t.val % 16) (Nat.mod_lt t.val (by norm_num : 0 < 16)) p
    (fun q => tile_value m c t p q) (fun q => iblk3_apply m c t p q)

/-- After the body at any grid point the prediction window's buffer holds the masked Gram matrix's tile. -/
theorem after4_value (c : Dev nD) (t : Fin cfg0.N) (p : Fin 1024) (q : Fin 512) :
    (dats (F := Ideal) m 0 c).after 4 t (ix2 p q)
      = gram (V m c main_v202) (V m c main_arg4) (ix2 (rowOf (pt t) p) (colOf (pt t) q)) := by
  rw [after4]
  by_cases h0 : t.val % 16 = 0
  · have h1 : ¬t.val % 16 = 15 := by omega
    rw [outsAt_first m c t h0 h1]
    dsimp only
    exact (congrFun (predFirst_eq (F := Ideal) c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t)) (ix2 p q)).trans (tile_value m c t p q)
  · by_cases h1 : t.val % 16 = 15
    · rw [outsAt_last m c t h0 h1]
      dsimp only
      exact (congrFun (predLast_eq (F := Ideal) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2) (ix2 p q)).trans (tile_value m c t p q)
    · rw [outsAt_mid m c t h0 h1]
      dsimp only
      exact (congrFun (predMid_eq (F := Ideal) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.2) (ix2 p q)).trans (tile_value m c t p q)
/-- After the body at grid point t the accumulator holds, at local row p, the squared residuals of the row summed over
    the column tiles 0 … t % 16. -/
theorem acc_value (c : Dev nD) : ∀ (n : ℕ) (t : Fin cfg0.N), t.val = n → ∀ p : Fin 1024,
    (outsAt (F := Ideal) m c t.val t.isLt).2.2 (ix2 p (0 : Fin 1))
      = ∑ j ∈ Finset.range (t.val % 16 + 1), tileSq (gram (V m c main_v202) (V m c main_arg4)) (V m c main_v203) (rowOf (pt t) p) j := by
  intro n
  induction n using Nat.strong_induction_on with
  | _ n ih =>
    intro t ht p
    by_cases h0 : t.val % 16 = 0
    · have h1 : ¬t.val % 16 = 15 := by omega
      rw [outsAt_first m c t h0 h1]
      dsimp only
      refine (congrFun (accFirst_eq (F := Ideal) c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t)) (ix2 p (0 : Fin 1))).trans ?_
      refine (step_value m c t (k0_pay1 (F := Ideal)) p).trans ?_
      rw [pay1_apply p, zero_add, h0]
      exact (Finset.sum_range_one _).symm
    · have hlt : t.val - 1 < cfg0.N := Nat.lt_of_le_of_lt (Nat.sub_le _ _) t.isLt
      have ihp := ih (t.val - 1) (by omega) ⟨t.val - 1, hlt⟩ rfl p
      have hrow : rowOf (pt ⟨t.val - 1, hlt⟩) p = rowOf (pt t) p := by
        apply Fin.ext
        show 1024 * ((t.val - 1) / 16) + p.val = 1024 * (t.val / 16) + p.val
        omega
      have hcnt : (t.val - 1) % 16 + 1 = t.val % 16 := by omega
      replace ihp : (outsAt (F := Ideal) m c (t.val - 1) hlt).2.2 (ix2 p (0 : Fin 1))
          = ∑ j ∈ Finset.range (t.val % 16), tileSq (gram (V m c main_v202) (V m c main_arg4)) (V m c main_v203) (rowOf (pt t) p) j := by
        rw [← hrow, ← hcnt]; exact ihp
      by_cases h1 : t.val % 16 = 15
      · rw [outsAt_last m c t h0 h1]
        dsimp only
        refine (congrFun (accLast_eq (F := Ideal) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2) (ix2 p (0 : Fin 1))).trans ?_
        refine (step_value m c t (outsAt m c (t.val - 1) (Nat.lt_of_le_of_lt (Nat.sub_le _ _) t.isLt)).2.2 p).trans ?_
        rw [Finset.sum_range_succ]
        exact congrArg (· + tileSq (gram (V m c main_v202) (V m c main_arg4)) (V m c main_v203) (rowOf (pt t) p) (t.val % 16)) ihp
      · rw [outsAt_mid m c t h0 h1]
        dsimp only
        refine (congrFun (accMid_eq (F := Ideal) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.2) (ix2 p (0 : Fin 1))).trans ?_
        refine (step_value m c t (outsAt m c (t.val - 1) (Nat.lt_of_le_of_lt (Nat.sub_le _ _) t.isLt)).2.2 p).trans ?_
        rw [Finset.sum_range_succ]
        exact congrArg (· + tileSq (gram (V m c main_v202) (V m c main_arg4)) (V m c main_v203) (rowOf (pt t) p) (t.val % 16)) ihp

/-- At a last column tile the row-sum window's buffer holds what the accumulator holds. -/
theorem rows_eq_acc (c : Dev nD) (t : Fin cfg0.N) (h0 : ¬t.val % 16 = 0) (h1 : t.val % 16 = 15) :
    (outsAt (F := Ideal) m c t.val t.isLt).2.1 = (outsAt (F := Ideal) m c t.val t.isLt).2.2 := by
  rw [outsAt_last m c t h0 h1]
  dsimp only
  exact (rowsLast_eq (F := Ideal) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2).trans
    (accLast_eq (F := Ideal) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.2).symm

theorem pred_value (c : Dev nD) :
    (dats (F := Ideal) m 0 c).arrAt 4 cfg0.N = gram (V m c main_v202) (V m c main_arg4) :=
  final4 m c (gram (V m c main_v202) (V m c main_arg4)) (after4_value m c)

theorem rows_value (c : Dev nD) :
    (dats (F := Ideal) m 0 c).arrAt 5 cfg0.N = rowSq (gram (V m c main_v202) (V m c main_arg4)) (V m c main_v203) :=
  final5 m c (rowSq (gram (V m c main_v202) (V m c main_arg4)) (V m c main_v203)) fun t h15 p => by
    rw [after5, rows_eq_acc m c t (by omega) h15, acc_value m c t.val t rfl p, h15]
    show ∑ j ∈ Finset.range 16, tileSq (gram (V m c main_v202) (V m c main_arg4)) (V m c main_v203) (rowOf (pt t) p) j = _
    unfold rowSq
    rw [Finset.sum_range]
    refine Finset.sum_congr rfl fun j _ => ?_
    unfold tileSq
    rw [dif_pos j.isLt]

end Cert.KernelIdeal.Pair

end
-- ==== Proof.Alg.Loss.lean ====
/-
  The reference's side of the last stage. Its product of the embedding with its own transpose, times the mask, is the
  masked Gram matrix; and the sum of all 8192 · 8192 squared residuals, taken over the flattened matrix, is the sum over the
  rows of the rows' sums taken tile by tile (a finite sum regrouped).
-/
import proofs.«181554_j91190745628895_2_alg».proof.Proof.Alg.Spec
import proofs.«181554_j91190745628895_2_alg».proof.Proof.Gen.KernelIdeal
import proofs.«181554_j91190745628895_2_alg».proof.Proof.Gen.ReferenceIdeal.Run
import proofs.«181554_j91190745628895_2_alg».proof.Proof.LibRowsProduct
import Idealize.ShloMosaic.PureOps.Ideal.Laws
import Idealize.ShloMosaic.Lib.Pipeline.Value
import Idealize.ShloMosaic.Lib.ValueLayout

set_option maxRecDepth 16384

noncomputable section

namespace Cert.Alg

open Idealize.ShloMosaic Idealize.ShloMosaic.TcCoe Idealize.ShloMosaic.ValueIdx Idealize.SL.Sem Cert.Spec

/-! ## Regrouping a finite sum (no particular extents) -/

/-- A double sum whose inner index runs over a set in bijection with a product J × Q is the triple sum over the
    outer index and the two factors. -/
theorem sum_tiles {A J Q B : Type*} [Fintype A] [Fintype J] [Fintype Q] [Fintype B] (e : J × Q ≃ B)
    (f : A → B → EReal) : ∑ a, ∑ j, ∑ q, f a (e (j, q)) = ∑ a, ∑ b, f a b := by
  refine Finset.sum_congr rfl fun a _ => ?_
  rw [← Equiv.sum_comp e (f a), Fintype.sum_prod_type]

/-- A sum over the indices of one shape is the sum over the indices of any shape with as many elements, matched by
    row-major position. -/
theorem sum_reshape {s t : Shape} (h : t.numel = s.numel) (g : s.Idx → EReal) :
    ∑ i : s.Idx, g i = ∑ k : t.Idx, g (Shape.reshapeEquiv h k) :=
  (Equiv.sum_comp (Shape.reshapeEquiv h) g).symm

/-- Reading a flattened array back at the position an index of the original shape is sent to gives the original
    entry. -/
theorem shapeCast_reshape {α : Type} {s t : Shape} (x : s.Idx → α) (h : s.ShapeCasts t) (h' : s.numel = t.numel) (k : s.Idx) :
    shapeCast t x h (Shape.reshapeEquiv h' k) = x k := by
  unfold shapeCast
  rw [Shape.reshapeEquiv_reshapeEquiv, Shape.reshapeEquiv_self]

/-- The 8192 columns, tile by tile: (j, q) ↦ 512·j + q is a bijection from 16 × 512 onto them. -/
def colEquiv : Fin 16 × Fin 512 ≃ Fin 8192 where
  toFun x := colAt x.1 x.2
  invFun b := (⟨b.val / 512, by have := b.isLt; omega⟩, ⟨b.val % 512, by omega⟩)
  left_inv x := by
    obtain ⟨j, q⟩ := x
    have hj := j.isLt
    have hq := q.isLt
    refine Prod.ext (Fin.ext ?_) (Fin.ext ?_)
    · show (512 * j.val + q.val) / 512 = j.val
      omega
    · show (512 * j.val + q.val) % 512 = q.val
      omega
  right_inv b := Fin.ext (by
    show 512 * (b.val / 512) + b.val % 512 = b.val
    omega)

open Cert.ReferenceIdeal Cert.ReferenceIdeal.Facts₀ in
theorem ref_pred (X : FVec Ideal S8192x128 .f32) (M : FVec Ideal S8192x8192 .f32) :
    mulf (F := Ideal) (Host.dotGeneral (F := Ideal) dot_S8192x128_S128x8192_S8192x8192_1_0_0_1_n_n none X (transpose S128x8192 [1, 0] X transposes_S8192x128_S128x8192_1_0)) M
      = gram X M := by
  funext i
  obtain ⟨p, u, rfl⟩ : ∃ (p : Fin 8192) (u : Fin 8192), i = ix2 p u := ⟨i 0, i 1, eq_ix2 i⟩
  have hD := Cert.RowsProduct.dotGeneral_rows_apply (a := 8192) (K := 128) (b := 8192) (φ₁ := .f32) (φ₂ := .f32)
    dot_S8192x128_S128x8192_S8192x8192_1_0_0_1_n_n none .single rfl rfl
    (fun j q => rfl) (fun j q => rfl) (fun j q => rfl) (fun j q => rfl)
    X (transpose S128x8192 [1, 0] X transposes_S8192x128_S128x8192_1_0) p u
  show (FloatOps.dotGeneral dot_S8192x128_S128x8192_S8192x8192_1_0_0_1_n_n none .single X
      (transpose S128x8192 [1, 0] X transposes_S8192x128_S128x8192_1_0) (ix2 p u)) * M (ix2 p u) = gram X M (ix2 p u)
  rw [hD]
  unfold gram
  congr 1
  refine Finset.sum_congr rfl fun k _ => ?_
  rw [transpose_ix2_apply]

theorem loss_eq (P : (⟨2, ![8192, 8192]⟩ : Shape).Idx → EReal) (lab : (⟨1, ![67108864]⟩ : Shape).Idx → EReal) :
    Host.reduceAdd (F := Ideal)
        (rowSq P (shapeCast Cert.KernelIdeal.S8192x8192 (lab : FVec Ideal Cert.KernelIdeal.S67108864 .f32) Cert.KernelIdeal.Facts₀.shapeCasts_S67108864_S8192x8192) : FVec Ideal Cert.KernelIdeal.S8192x1 .f32)
        (constant (F := Ideal) Cert.KernelIdeal.S_ .f32 0x00000000#32) Cert.KernelIdeal.Facts₀.reducesTo_S8192x1_S_d0_1 Cert.KernelIdeal.Facts₀.h_S_
      = Host.reduceAdd (F := Ideal)
          (mulf (F := Ideal) (subf (F := Ideal) (shapeCast Cert.ReferenceIdeal.S67108864 (P : FVec Ideal Cert.ReferenceIdeal.S8192x8192 .f32) Cert.ReferenceIdeal.Facts₀.shapeCasts_S8192x8192_S67108864) (lab : FVec Ideal Cert.ReferenceIdeal.S67108864 .f32))
                (subf (F := Ideal) (shapeCast Cert.ReferenceIdeal.S67108864 (P : FVec Ideal Cert.ReferenceIdeal.S8192x8192 .f32) Cert.ReferenceIdeal.Facts₀.shapeCasts_S8192x8192_S67108864) (lab : FVec Ideal Cert.ReferenceIdeal.S67108864 .f32)))
          (constant (F := Ideal) Cert.ReferenceIdeal.S_ .f32 0x00000000#32) Cert.ReferenceIdeal.Facts₀.reducesTo_S67108864_S_d0 Cert.ReferenceIdeal.Facts₀.h_S_ := by
  funext j
  unfold Host.reduceAdd
  rw [Ideal.hostReduceAdd_def, Ideal.hostReduceAdd_def,
    Ideal.hostReduceAdd_total _ (fun b => b.elim0), Ideal.hostReduceAdd_total _ (fun b => b.elim0)]
  refine congrArg₂ (· + ·) rfl ?_
  -- the flat sum, re-indexed by the matrix's indices, then by rows and columns
  refine Eq.trans ?_ (sum_reshape (s := Cert.ReferenceIdeal.S67108864) (t := Cert.KernelIdeal.S8192x8192)
    Cert.KernelIdeal.Facts₀.shapeCasts_S67108864_S8192x8192 _).symm
  rw [sum_idx2, sum_idx2]
  simp only [Fin.sum_univ_one]
  -- each row's sum over its 8192 columns, taken tile by tile
  refine (sum_tiles colEquiv (fun a b =>
    (P (ix2 a b) - shapeCast Cert.KernelIdeal.S8192x8192 lab Cert.KernelIdeal.Facts₀.shapeCasts_S67108864_S8192x8192 (ix2 a b))
      * (P (ix2 a b) - shapeCast Cert.KernelIdeal.S8192x8192 lab Cert.KernelIdeal.Facts₀.shapeCasts_S67108864_S8192x8192 (ix2 a b)))).trans ?_
  refine Finset.sum_congr rfl fun a _ => Finset.sum_congr rfl fun b _ => ?_
  rw [mulf_apply, subf_apply, shapeCast_reshape]
  rfl

end Cert.Alg

end
-- ==== Proof.KI.Results.lean ====
/-
  The three results of the idealized kernel read off its run: the normalised embedding is an input array of the region, so it
  ends as the region found it; the prediction as one long vector is the region's prediction array laid out flat; the loss is
  the sum of the region's row sums divided by 2^26. And the thirteen argument arrays end unchanged.
-/
import proofs.«181554_j91190745628895_2_alg».proof.Proof.KI.Whole

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Post (r : PUnit × MemSt nD τ sig (Elt F)) : Prop :=
  Pipeline.FramePost cfgs (dats m) 0 (fun c b => StableHlo.after (List.flatten [hostOps1]) (W1 m c) (Proc.devRef .tc b)) r

theorem res_embed (r : PUnit × MemSt nD τ sig (Elt F)) (h : Post m r) (c : Dev nD) :
    r.2.mem ((c.tc : Thread nD τ).loc main_v202) = V m c main_v202 :=
  ((h c).1 0).trans (((dats m 0 c).arrAt_in 0 rfl _).trans (A_eq m c 0))

theorem res_pred (r : PUnit × MemSt nD τ sig (Elt F)) (h : Post m r) (c : Dev nD) :
    r.2.mem ((c.tc : Thread nD τ).loc main_v207)
      = shapeCast S67108864 ((dats m 0 c).arrAt 4 cfg0.N) Facts₀.shapeCasts_S8192x8192_S67108864 := by
  refine ((h c).2 main_v207 (Pipeline.mem_restRefs_of main_v207 rfl (by decide))).trans ?_
  simp only [List.flatten_cons, List.flatten_nil, List.append_nil, hostOps1]
  after_results
  rw [W1_out m c 4 (by decide)]
  rfl

theorem res_loss (r : PUnit × MemSt nD τ sig (Elt F)) (h : Post m r) (c : Dev nD) :
    r.2.mem ((c.tc : Thread nD τ).loc main_v206)
      = Host.divf (Host.reduceAdd ((dats m 0 c).arrAt 5 cfg0.N) (constant S_ .f32 0x00000000#32) Facts₀.reducesTo_S8192x1_S_d0_1 Facts₀.h_S_)
          (constant S_ .f32 0x4C800000#32) := by
  refine ((h c).2 main_v206 (Pipeline.mem_restRefs_of main_v206 rfl (by decide))).trans ?_
  simp only [List.flatten_cons, List.flatten_nil, List.append_nil, hostOps1]
  after_results
  rw [W1_out m c 5 (by decide)]

theorem res_args (r : PUnit × MemSt nD τ sig (Elt F)) (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨arg_kept m c main_arg0 (by decide) (by decide) rfl (by decide) r h,
    arg_kept m c main_arg1 (by decide) (by decide) rfl (by decide) r h,
    arg_kept m c main_arg2 (by decide) (by decide) rfl (by decide) r h,
    arg_kept m c main_arg3 (by decide) (by decide) rfl (by decide) r h,
    ((h c).1 2).trans (((dats m 0 c).arrAt_in 2 rfl _).trans ((A_eq m c 2).trans (V0_arg m c main_arg4 (by decide)))),
    arg_kept m c main_arg5 (by decide) (by decide) rfl (by decide) r h,
    arg_kept m c main_arg6 (by decide) (by decide) rfl (by decide) r h,
    arg_kept m c main_arg7 (by decide) (by decide) rfl (by decide) r h,
    arg_kept m c main_arg8 (by decide) (by decide) rfl (by decide) r h,
    arg_kept m c main_arg9 (by decide) (by decide) rfl (by decide) r h,
    arg_kept m c main_arg10 (by decide) (by decide) rfl (by decide) r h,
    arg_kept m c main_arg11 (by decide) (by decide) rfl (by decide) r h,
    arg_kept m c main_arg12 (by decide) (by decide) rfl (by decide) r h⟩

end Cert.KernelIdeal.Pair

end
-- ==== Proof.Alg.Final.lean ====
/-
  The reference's three results are the kernel's: its embedding is the kernel's; its masked Gram matrix, laid out flat, is the
  region's prediction laid out flat; and its mean of the flat squared residuals is the sum of the region's row sums over 2^26.
-/
import proofs.«181554_j91190745628895_2_alg».proof.Proof.Alg.Embed
import proofs.«181554_j91190745628895_2_alg».proof.Proof.Alg.RegionValue
import proofs.«181554_j91190745628895_2_alg».proof.Proof.Alg.Loss
import proofs.«181554_j91190745628895_2_alg».proof.Proof.KI.Results

set_option maxRecDepth 16384

noncomputable section

namespace Cert.Alg

open Idealize.ShloMosaic Idealize.ShloMosaic.TcCoe Idealize.SL.Sem Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (hpre : Cert.Pre_KernelIdeal m) (c : Dev Cert.KernelIdeal.nD)
  (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))

/-- The mask as the region finds it is the launch's. -/
theorem mask_eq : Cert.KernelIdeal.Pair.V (F := Ideal) m c Cert.KernelIdeal.main_arg4 = m ((c.tc : Thread Cert.KernelIdeal.nD Cert.KernelIdeal.τ).loc Cert.KernelIdeal.main_arg4) :=
  Cert.KernelIdeal.Pair.V0_arg m c Cert.KernelIdeal.main_arg4 (by decide)

omit hpre hagree in
theorem ref_pred_flat (Xr : FVec Ideal Cert.ReferenceIdeal.S8192x128 .f32) (Mr : FVec Ideal Cert.ReferenceIdeal.S8192x8192 .f32)
    (hX : Xr = Cert.KernelIdeal.Pair.V (F := Ideal) m c Cert.KernelIdeal.main_v202)
    (hM : Mr = m ((c.tc : Thread Cert.KernelIdeal.nD Cert.KernelIdeal.τ).loc Cert.KernelIdeal.main_arg4)) :
    shapeCast Cert.ReferenceIdeal.S67108864 (mulf (F := Ideal) (Host.dotGeneral (F := Ideal) Cert.ReferenceIdeal.dot_S8192x128_S128x8192_S8192x8192_1_0_0_1_n_n none Xr
        (transpose Cert.ReferenceIdeal.S128x8192 [1, 0] Xr Cert.ReferenceIdeal.Facts₀.transposes_S8192x128_S128x8192_1_0)) Mr) Cert.ReferenceIdeal.Facts₀.shapeCasts_S8192x8192_S67108864
      = shapeCast Cert.KernelIdeal.S67108864 ((Cert.KernelIdeal.Pair.dats (F := Ideal) m 0 c).arrAt 4 Cert.KernelIdeal.cfg0.N) Cert.KernelIdeal.Facts₀.shapeCasts_S8192x8192_S67108864 := by
  subst hX hM
  rw [ref_pred, Cert.KernelIdeal.Pair.pred_value m c, mask_eq m c]
  try rfl

include hpre hagree in
theorem ref_loss :
    Host.divf (F := Ideal) (Host.reduceAdd (F := Ideal) (mulf (F := Ideal) (Cert.ReferenceIdeal.Value.res_main_v201 (F := Ideal) (StableHlo.launchContents m' c)) (Cert.ReferenceIdeal.Value.res_main_v201 (F := Ideal) (StableHlo.launchContents m' c)))
        (constant (F := Ideal) Cert.ReferenceIdeal.S_ .f32 0x00000000#32) Cert.ReferenceIdeal.Facts₀.reducesTo_S67108864_S_d0 Cert.ReferenceIdeal.Facts₀.h_S_) (constant (F := Ideal) Cert.ReferenceIdeal.S_ .f32 0x4C800000#32)
      = Host.divf (F := Ideal) (Host.reduceAdd (F := Ideal) ((Cert.KernelIdeal.Pair.dats (F := Ideal) m 0 c).arrAt 5 Cert.KernelIdeal.cfg0.N) (constant (F := Ideal) Cert.KernelIdeal.S_ .f32 0x00000000#32)
          Cert.KernelIdeal.Facts₀.reducesTo_S8192x1_S_d0_1 Cert.KernelIdeal.Facts₀.h_S_) (constant (F := Ideal) Cert.KernelIdeal.S_ .f32 0x4C800000#32) := by
  have h4 : (StableHlo.launchContents m' c) (Proc.devRef .tc Cert.ReferenceIdeal.main_arg4) = m ((c.tc : Thread Cert.KernelIdeal.nD Cert.KernelIdeal.τ).loc Cert.KernelIdeal.main_arg4) := hagree.2.2.2.2.1
  have h3 : (StableHlo.launchContents m' c) (Proc.devRef .tc Cert.ReferenceIdeal.main_arg3) = m ((c.tc : Thread Cert.KernelIdeal.nD Cert.KernelIdeal.τ).loc Cert.KernelIdeal.main_arg3) := hagree.2.2.2.1
  unfold Cert.ReferenceIdeal.Value.res_main_v201
  rw [← embed_eq m m' hpre c hagree, h4, h3, ref_pred, Cert.KernelIdeal.Pair.rows_value m c, labels_eq m c, mask_eq m c, loss_eq]
  try rfl

end Cert.Alg

end
-- ==== Proof.lean ====
/-
  The certificate of the pairwise-loss program: a graph-convolution stack in host operations, then one region that
  computes, tile by tile, the masked Gram matrix of the normalised embedding and the row sums of its squared residuals
  against the labels, then the mean of those row sums. The three frames: the two printed kernels run to the end, fault
  nowhere and leave their thirteen argument arrays unchanged (the region's run, the normalised embedding read through
  two windows at half shares, an accumulator carried across the sixteen column tiles of a row tile); the reference is a
  straight line of host operations. The idealization rewrote no operation.
-/
import proofs.«181554_j91190745628895_2_alg».proof.Defs
import proofs.«181554_j91190745628895_2_alg».proof.Proof.K.Whole
import proofs.«181554_j91190745628895_2_alg».proof.Proof.KI.Whole
import proofs.«181554_j91190745628895_2_alg».proof.Proof.Alg.Final
import proofs.«181554_j91190745628895_2_alg».proof.Proof.Gen.ReferenceIdeal
import proofs.«181554_j91190745628895_2_alg».proof.Proof.Gen.Pre_finite_inputs
import proofs.«181554_j91190745628895_2_alg».proof.Proof.Gen.ReferenceIdeal.Run
import Idealize.ShloMosaic.Adequacy
import Idealize.ShloMosaic.Init

noncomputable section

namespace Cert.Proof

open Idealize.ShloMosaic Idealize.SL.Sem

theorem frame_k : Cert.frame_Kernel := fun m ρ _ => Cert.Kernel.Pair.frame (F := Bits) m ρ

theorem frame_ki : Cert.frame_KernelIdeal := fun m ρ _ => Cert.KernelIdeal.Pair.frame (F := Ideal) m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The two idealized programs, run from memories agreeing on the arguments, end with equal results: the normalised
    embedding (the two base layers agree for real inputs by distributivity, the rest is the same composition), the masked
    Gram matrix laid out flat (the region's tiles cover it), and the mean of its squared residuals against the labels (the
    region's row sums, taken tile by tile, regroup the reference's one long sum). -/
theorem algebraic : Cert.algebraic_KernelIdeal_ReferenceIdeal := by
  intro m ρ m' ρ' hpre hagree
  refine ⟨fun c => Host.divf (F := Ideal) (Host.reduceAdd (F := Ideal) ((Cert.KernelIdeal.Pair.dats (F := Ideal) m 0 c).arrAt 5 Cert.KernelIdeal.cfg0.N) (constant (F := Ideal) Cert.KernelIdeal.S_ .f32 0x00000000#32)
        Cert.KernelIdeal.Facts₀.reducesTo_S8192x1_S_d0_1 Cert.KernelIdeal.Facts₀.h_S_) (constant (F := Ideal) Cert.KernelIdeal.S_ .f32 0x4C800000#32),
    fun c => Cert.KernelIdeal.Pair.V (F := Ideal) m c Cert.KernelIdeal.main_v202,
    fun c => shapeCast Cert.KernelIdeal.S67108864 ((Cert.KernelIdeal.Pair.dats (F := Ideal) m 0 c).arrAt 4 Cert.KernelIdeal.cfg0.N) Cert.KernelIdeal.Facts₀.shapeCasts_S8192x8192_S67108864, ?_, ?_⟩
  · exact (θ_run Cert.KernelIdeal.defs _ _).mono (fun r h c => ⟨Cert.KernelIdeal.Pair.res_loss m r h c, Cert.KernelIdeal.Pair.res_embed m r h c, Cert.KernelIdeal.Pair.res_pred m r h c,
      Cert.KernelIdeal.Pair.res_args m r h c⟩) (Cert.KernelIdeal.Pair.run_main (F := Ideal) m ρ)
  · exact (θ_run Cert.ReferenceIdeal.defs _ _).mono (fun r h c => ⟨(h c).1.trans (Cert.Alg.ref_loss m m' hpre c (hagree c)),
      (h c).2.1.trans (Cert.Alg.embed_eq m m' hpre c (hagree c)).symm,
      (h c).2.2.1.trans (Cert.Alg.ref_pred_flat m c _ _ (Cert.Alg.embed_eq m m' hpre c (hagree c)).symm (hagree c).2.2.2.2.1), (h c).2.2.2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
